-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v99)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S2x524288 : Shape := ⟨2, ![2, 524288]⟩
abbrev S16384x50 : Shape := ⟨2, ![16384, 50]⟩
abbrev S50 : Shape := ⟨1, ![50]⟩
abbrev S50x2 : Shape := ⟨2, ![50, 2]⟩
abbrev S2 : Shape := ⟨1, ![2]⟩
abbrev S2x7 : Shape := ⟨2, ![2, 7]⟩
abbrev S7 : Shape := ⟨1, ![7]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_
  bcast_S_S50 : S_.BroadcastsInDim S50 (![] : Fin 0 → Fin S50.rank)
  reducesTo_S50_S_d0 : S50.ReducesTo [0] S_
  bcast_S_S50x2 : S_.BroadcastsInDim S50x2 (![] : Fin 0 → Fin S50x2.rank)
  reducesTo_S50x2_S_d0_1 : S50x2.ReducesTo [0, 1] S_
  bcast_S_S2 : S_.BroadcastsInDim S2 (![] : Fin 0 → Fin S2.rank)
  reducesTo_S2_S_d0 : S2.ReducesTo [0] S_
  bcast_S_S2x7 : S_.BroadcastsInDim S2x7 (![] : Fin 0 → Fin S2x7.rank)
  reducesTo_S2x7_S_d0_1 : S2x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S2 .f32) (main_arg6 : FVec F S2x7 .f32) (main_arg7 : FVec F S7 .f32) (main_v13 : IVec S_ 1) (main_v16 : IVec S50x2 1) : IVec S_ 1 :=
  let main_c_5 : IVec S_ 1 := constantI S_ 1 1#1
  let main_v17 : IVec S_ 1 := (fun x v => Host.reduce IntOp.andi x v reducesTo_S50x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2x7 .f32 := Host.absf main_arg6
  let main_cst_8 : FVec F S_ .f32 := constant S_ .f32 0x7F800000#32
  let main_v25 : FVec F S2x7 .f32 := broadcastInDim S2x7 ![] bcast_S_S2x7 main_cst_8
  let main_v26 : IVec S2x7 1 := cmpf .olt main_v24 main_v25
  let main_c_9 : IVec S_ 1 := constantI S_ 1 1#1
  let main_v27 : IVec S_ 1 := (fun x v => Host.reduce IntOp.andi x v reducesTo_S2x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S16384x16384 .f32) (main_arg1 : IVec S2x524288 32) (main_arg2 : FVec F S16384x50 .f32) (main_arg3 : FVec F S50 .f32) (main_arg4 : FVec F S50x2 .f32) (main_arg5 : FVec F S2 .f32) (main_arg6 : FVec F S2x7 .f32) (main_arg7 : FVec F S7 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x50 .f32 := Host.absf main_arg2
  let main_cst_0 : FVec F S_ .f32 := constant S_ .f32 0x7F800000#32
  let main_v5 : FVec F S16384x50 .f32 := broadcastInDim S16384x50 ![] bcast_S_S16384x50 main_cst_0
  let main_v6 : IVec S16384x50 1 := cmpf .olt main_v4 main_v5
  let main_c_1 : IVec S_ 1 := constantI S_ 1 1#1
  let main_v7 : IVec S_ 1 := (fun x v => Host.reduce IntOp.andi x v reducesTo_S16384x50_S_d0_1 h_S_) main_v6 main_c_1
  let main_v8 : IVec S_ 1 := andi main_v3 main_v7
  let main_v9 : FVec F S50 .f32 := Host.absf main_arg3
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x2 .f32 := Host.absf main_arg4
  let main_cst_4 : FVec F S_ .f32 := constant S_ .f32 0x7F800000#32
  let main_v15 : FVec F S50x2 .f32 := broadcastInDim S50x2 ![] bcast_S_S50x2 main_cst_4
  let main_v16 : IVec S50x2 1 := cmpf .olt main_v14 main_v15
  fn_part1 (F := F) main_arg5 main_arg6 main_arg7 main_v13 main_v16
-- ==== Kernel.lean ====
abbrev S16384x16384 : Shape := ⟨2, ![16384, 16384]⟩
abbrev S2x524288 : Shape := ⟨2, ![2, 524288]⟩
abbrev S16384x50 : Shape := ⟨2, ![16384, 50]⟩
abbrev S50 : Shape := ⟨1, ![50]⟩
abbrev S50x2 : Shape := ⟨2, ![50, 2]⟩
abbrev S2 : Shape := ⟨1, ![2]⟩
abbrev S2x7 : Shape := ⟨2, ![2, 7]⟩
abbrev S7 : Shape := ⟨1, ![7]⟩
abbrev S1024x2048 : Shape := ⟨2, ![1024, 2048]⟩
abbrev S2048x50 : Shape := ⟨2, ![2048, 50]⟩
abbrev S1024x50 : Shape := ⟨2, ![1024, 50]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x50 : Shape := ⟨2, ![540672, 50]⟩
abbrev S1x50 : Shape := ⟨2, ![1, 50]⟩
abbrev S16384x2 : Shape := ⟨2, ![16384, 2]⟩
abbrev S540672x2 : Shape := ⟨2, ![540672, 2]⟩
abbrev S1x2 : Shape := ⟨2, ![1, 2]⟩
abbrev S16384x7 : Shape := ⟨2, ![16384, 7]⟩
abbrev S1x7 : Shape := ⟨2, ![1, 7]⟩

abbrev nBuf : Space → Nat
  | .hbm => 134
  | .vmem => 7
  | .smem => 0
  | _ => 0

abbrev hbmTy0_0 (i : Nat) : BufTy := match i % 128 with
  | 0 => ⟨S16384x16384, .f32⟩
  | 1 => ⟨S2x524288, .i32⟩
  | 2 => ⟨S16384x50, .f32⟩
  | 3 => ⟨S50, .f32⟩
  | 4 => ⟨S50x2, .f32⟩
  | 5 => ⟨S2, .f32⟩
  | 6 => ⟨S2x7, .f32⟩
  | 7 => ⟨S7, .f32⟩
  | 8 => ⟨S16384x50, .f32⟩
  | 9 => ⟨S16384, .i32⟩
  | 10 => ⟨S1x524288, .i32⟩
  | 11 => ⟨S524288, .i32⟩
  | 12 => ⟨S540672, .i32⟩
  | 13 => ⟨S1x524288, .i32⟩
  | 14 => ⟨S524288, .i32⟩
  | 15 => ⟨S540672, .i32⟩
  | 16 => ⟨S_, .f32⟩
  | 17 => ⟨S540672, .f32⟩
  | 18 => ⟨S_, .f32⟩
  | 19 => ⟨S16384, .f32⟩
  | 20 => ⟨S540672x1, .i32⟩
  | 21 => ⟨S16384, .f32⟩
  | 22 => ⟨S_, .f32⟩
  | 23 => ⟨S16384, .f32⟩
  | 24 => ⟨S16384, .i1⟩
  | 25 => ⟨S16384, .f32⟩
  | 26 => ⟨S_, .f32⟩
  | 27 => ⟨S_, .f32⟩
  | 28 => ⟨S16384, .f32⟩
  | 29 => ⟨S16384, .f32⟩
  | 30 => ⟨S_, .i32⟩
  | 31 => ⟨S540672, .i32⟩
  | 32 => ⟨S540672, .i1⟩
  | 33 => ⟨S_, .i32⟩
  | 34 => ⟨S540672, .i32⟩
  | 35 => ⟨S540672, .i32⟩
  | 36 => ⟨S540672, .i32⟩
  | 37 => ⟨S540672x1, .i32⟩
  | 38 => ⟨S540672, .f32⟩
  | 39 => ⟨S_, .i32⟩
  | 40 => ⟨S540672, .i32⟩
  | 41 => ⟨S540672, .i1⟩
  | 42 => ⟨S_, .i32⟩
  | 43 => ⟨S540672, .i32⟩
  | 44 => ⟨S540672, .i32⟩
  | 45 => ⟨S540672, .i32⟩
  | 46 => ⟨S540672x1, .i32⟩
  | 47 => ⟨S540672, .f32⟩
  | 48 => ⟨S540672, .f32⟩
  | 49 => ⟨S_, .i32⟩
  | 50 => ⟨S540672, .i32⟩
  | 51 => ⟨S540672, .i1⟩
  | 52 => ⟨S_, .i32⟩
  | 53 => ⟨S540672, .i32⟩
  | 54 => ⟨S540672, .i32⟩
  | 55 => ⟨S540672, .i32⟩
  | 56 => ⟨S540672x1, .i32⟩
  | 57 => ⟨S540672x50, .f32⟩
  | 58 => ⟨S540672x1, .f32⟩
  | 59 => ⟨S540672x50, .f32⟩
  | 60 => ⟨S540672x50, .f32⟩
  | 61 => ⟨S_, .f32⟩
  | 62 => ⟨S16384x50, .f32⟩
  | 63 => ⟨S540672x1, .i32⟩
  | 64 => ⟨S16384x50, .f32⟩
  | 65 => ⟨S1x50, .f32⟩
  | 66 => ⟨S16384x50, .f32⟩
  | 67 => ⟨S16384x50, .f32⟩
  | 68 => ⟨S16384x50, .f32⟩
  | 69 => ⟨S16384x2, .f32⟩
  | 70 => ⟨S16384, .i32⟩
  | 71 => ⟨S1x524288, .i32⟩
  | 72 => ⟨S524288, .i32⟩
  | 73 => ⟨S540672, .i32⟩
  | 74 => ⟨S1x524288, .i32⟩
  | 75 => ⟨S524288, .i32⟩
  | 76 => ⟨S540672, .i32⟩
  | 77 => ⟨S_, .f32⟩
  | 78 => ⟨S540672, .f32⟩
  | 79 => ⟨S_, .f32⟩
  | 80 => ⟨S16384, .f32⟩
  | 81 => ⟨S540672x1, .i32⟩
  | 82 => ⟨S16384, .f32⟩
  | 83 => ⟨S_, .f32⟩
  | 84 => ⟨S16384, .f32⟩
  | 85 => ⟨S16384, .i1⟩
  | 86 => ⟨S16384, .f32⟩
  | 87 => ⟨S_, .f32⟩
  | 88 => ⟨S_, .f32⟩
  | 89 => ⟨S16384, .f32⟩
  | 90 => ⟨S16384, .f32⟩
  | 91 => ⟨S_, .i32⟩
  | 92 => ⟨S540672, .i32⟩
  | 93 => ⟨S540672, .i1⟩
  | 94 => ⟨S_, .i32⟩
  | 95 => ⟨S540672, .i32⟩
  | 96 => ⟨S540672, .i32⟩
  | 97 => ⟨S540672, .i32⟩
  | 98 => ⟨S540672x1, .i32⟩
  | 99 => ⟨S540672, .f32⟩
  | 100 => ⟨S_, .i32⟩
  | 101 => ⟨S540672, .i32⟩
  | 102 => ⟨S540672, .i1⟩
  | 103 => ⟨S_, .i32⟩
  | 104 => ⟨S540672, .i32⟩
  | 105 => ⟨S540672, .i32⟩
  | 106 => ⟨S540672, .i32⟩
  | 107 => ⟨S540672x1, .i32⟩
  | 108 => ⟨S540672, .f32⟩
  | 109 => ⟨S540672, .f32⟩
  | 110 => ⟨S_, .i32⟩
  | 111 => ⟨S540672, .i32⟩
  | 112 => ⟨S540672, .i1⟩
  | 113 => ⟨S_, .i32⟩
  | 114 => ⟨S540672, .i32⟩
  | 115 => ⟨S540672, .i32⟩
  | 116 => ⟨S540672, .i32⟩
  | 117 => ⟨S540672x1, .i32⟩
  | 118 => ⟨S540672x2, .f32⟩
  | 119 => ⟨S540672x1, .f32⟩
  | 120 => ⟨S540672x2, .f32⟩
  | 121 => ⟨S540672x2, .f32⟩
  | 122 => ⟨S_, .f32⟩
  | 123 => ⟨S16384x2, .f32⟩
  | 124 => ⟨S540672x1, .i32⟩
  | 125 => ⟨S16384x2, .f32⟩
  | 126 => ⟨S1x2, .f32⟩
  | 127 => ⟨S16384x2, .f32⟩
  | _ => ⟨S16384x16384, .f32⟩

abbrev hbmTy0_1 (i : Nat) : BufTy := match i % 128 with
  | 0 => ⟨S16384x2, .f32⟩
  | 1 => ⟨S16384x2, .f32⟩
  | 2 => ⟨S16384x7, .f32⟩
  | 3 => ⟨S1x7, .f32⟩
  | 4 => ⟨S16384x7, .f32⟩
  | 5 => ⟨S16384x7, .f32⟩
  | _ => ⟨S16384x16384, .f32⟩

abbrev hbmTy (i : Nat) : BufTy := match i / 128 with
  | 0 => hbmTy0_0 i
  | 1 => hbmTy0_1 i
  | _ => ⟨S16384x16384, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x50, .f32⟩
  | .local _ .vmem, ⟨3, _⟩ => ⟨S2048x50, .f32⟩
  | .local _ .vmem, ⟨4, _⟩ => ⟨S1024x50, .f32⟩
  | .local _ .vmem, ⟨5, _⟩ => ⟨S1024x50, .f32⟩
  | .local _ .vmem, ⟨6, _⟩ => ⟨S1024x50, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x50_S1024x50_0_0 : ∀ a, (![0, 0] : Fin 2 → Nat) a + S1024x50.size a ≤ S1024x50.size a
  h_S1024x50 : 0 < S1024x50.numel
  shapeCasts_S1024x50_S1024x50 : S1024x50.ShapeCasts S1024x50
  inb_S1024x2048_S1024x2048_0_0 : ∀ a, (![0, 0] : Fin 2 → Nat) a + S1024x2048.size a ≤ S1024x2048.size a
  h_S1024x2048 : 0 < S1024x2048.numel
  inb_S2048x50_S2048x50_0_0 : ∀ a, (![0, 0] : Fin 2 → Nat) a + S2048x50.size a ≤ S2048x50.size a
  h_S2048x50 : 0 < S2048x50.numel
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x50_0_1 : S540672x1.BroadcastsInDim S540672x50 (![0, 1] : Fin 2 → Fin S540672x50.rank)
  bcast_S_S16384x50 : S_.BroadcastsInDim S16384x50 (![] : Fin 0 → Fin S16384x50.rank)
  bcast_S50_S1x50_1 : S50.BroadcastsInDim S1x50 (![1] : Fin 1 → Fin S1x50.rank)
  bcast_S1x50_S16384x50_0_1 : S1x50.BroadcastsInDim S16384x50 (![0, 1] : Fin 2 → Fin S16384x50.rank)
  bcast_S540672x1_S540672x2_0_1 : S540672x1.BroadcastsInDim S540672x2 (![0, 1] : Fin 2 → Fin S540672x2.rank)
  bcast_S_S16384x2 : S_.BroadcastsInDim S16384x2 (![] : Fin 0 → Fin S16384x2.rank)
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S7_S1x7_1 : S7.BroadcastsInDim S1x7 (![1] : Fin 1 → Fin S1x7.rank)
  bcast_S1x7_S16384x7_0_1 : S1x7.BroadcastsInDim S16384x7 (![0, 1] : Fin 2 → Fin S16384x7.rank)
  dot_S1024x2048_S2048x50_S1024x50_1_0_0_1_n_n_wf : DotDims.WF S1024x2048 S2048x50 S1024x50 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x50_S540672x1_S540672x50_1_0_n_n_0_1_150_wf : GatherDims.WF S16384x50 S540672x1 S540672x50 [1] [0] [] [0] [] 1 ![1, 50]
  scatter_S16384x50_S540672x1_S540672x50_1_0_0_1_wf : ScatterDims.WF S16384x50 S540672x1 S540672x50 [1] [0] [0] 1
  dot_S16384x50_S50x2_S16384x2_1_0_0_1_n_n_wf : DotDims.WF S16384x50 S50x2 S16384x2 [1] [0] [0] [1] [] []
  gather_S16384x2_S540672x1_S540672x2_1_0_n_n_0_1_12_wf : GatherDims.WF S16384x2 S540672x1 S540672x2 [1] [0] [] [0] [] 1 ![1, 2]
  scatter_S16384x2_S540672x1_S540672x2_1_0_0_1_wf : ScatterDims.WF S16384x2 S540672x1 S540672x2 [1] [0] [0] 1
  dot_S16384x2_S2x7_S16384x7_1_0_0_1_n_n_wf : DotDims.WF S16384x2 S2x7 S16384x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x50.size a ≤ S16384x50.size a
  hwx0_1 : ∀ i : grid0.Coords, EltTy.bits .f32 = 32 ∨ (Rect.block (s := S16384x50) S2048x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x50.size a ≤ S16384x50.size a
  hwx0_2 : ∀ i : grid0.Coords, EltTy.bits .f32 = 32 ∨ (Rect.block (s := S16384x50) S1024x50.size (cc0_transform_2 i) (hinb0_2 i)).WholeWords (EltTy.packing .f32)

variable [Facts₀]

def dot_S1024x2048_S2048x50_S1024x50_1_0_0_1_n_n : DotDims S1024x2048 S2048x50 S1024x50 where
  lhsContracting := [1]
  rhsContracting := [0]
  lhsNonContracting := [0]
  rhsNonContracting := [1]
  lhsBatch := []
  rhsBatch := []
  wf := dot_S1024x2048_S2048x50_S1024x50_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x50_S540672x1_S540672x50_1_0_n_n_0_1_150 : GatherDims S16384x50 S540672x1 S540672x50 where
  offsetDims := [1]
  collapsedSliceDims := [0]
  operandBatchingDims := []
  startIndicesBatchingDims := []
  startIndexMap := [0]
  indexVectorDim := 1
  sliceSizes := ![1, 50]
  wf := gather_S16384x50_S540672x1_S540672x50_1_0_n_n_0_1_150_wf
def scatter_S16384x50_S540672x1_S540672x50_1_0_0_1 : ScatterDims S16384x50 S540672x1 S540672x50 where
  updateWindowDims := [1]
  insertedWindowDims := [0]
  scatterDimsToOperandDims := [0]
  indexVectorDim := 1
  wf := scatter_S16384x50_S540672x1_S540672x50_1_0_0_1_wf
def dot_S16384x50_S50x2_S16384x2_1_0_0_1_n_n : DotDims S16384x50 S50x2 S16384x2 where
  lhsContracting := [1]
  rhsContracting := [0]
  lhsNonContracting := [0]
  rhsNonContracting := [1]
  lhsBatch := []
  rhsBatch := []
  wf := dot_S16384x50_S50x2_S16384x2_1_0_0_1_n_n_wf
def gather_S16384x2_S540672x1_S540672x2_1_0_n_n_0_1_12 : GatherDims S16384x2 S540672x1 S540672x2 where
  offsetDims := [1]
  collapsedSliceDims := [0]
  operandBatchingDims := []
  startIndicesBatchingDims := []
  startIndexMap := [0]
  indexVectorDim := 1
  sliceSizes := ![1, 2]
  wf := gather_S16384x2_S540672x1_S540672x2_1_0_n_n_0_1_12_wf
def scatter_S16384x2_S540672x1_S540672x2_1_0_0_1 : ScatterDims S16384x2 S540672x1 S540672x2 where
  updateWindowDims := [1]
  insertedWindowDims := [0]
  scatterDimsToOperandDims := [0]
  indexVectorDim := 1
  wf := scatter_S16384x2_S540672x1_S540672x2_1_0_0_1_wf
def dot_S16384x2_S2x7_S16384x7_1_0_0_1_n_n : DotDims S16384x2 S2x7 S16384x7 where
  lhsContracting := [1]
  rhsContracting := [0]
  lhsNonContracting := [0]
  rhsNonContracting := [1]
  lhsBatch := []
  rhsBatch := []
  wf := dot_S16384x2_S2x7_S16384x7_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x50.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S2x524288 : Shape := ⟨2, ![2, 524288]⟩
abbrev S16384x50 : Shape := ⟨2, ![16384, 50]⟩
abbrev S50 : Shape := ⟨1, ![50]⟩
abbrev S50x2 : Shape := ⟨2, ![50, 2]⟩
abbrev S2 : Shape := ⟨1, ![2]⟩
abbrev S2x7 : Shape := ⟨2, ![2, 7]⟩
abbrev S7 : Shape := ⟨1, ![7]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x50 : Shape := ⟨2, ![540672, 50]⟩
abbrev S1x50 : Shape := ⟨2, ![1, 50]⟩
abbrev S16384x2 : Shape := ⟨2, ![16384, 2]⟩
abbrev S540672x2 : Shape := ⟨2, ![540672, 2]⟩
abbrev S1x2 : Shape := ⟨2, ![1, 2]⟩
abbrev S16384x7 : Shape := ⟨2, ![16384, 7]⟩
abbrev S1x7 : Shape := ⟨2, ![1, 7]⟩

abbrev nBuf : Space → Nat
  | .hbm => 134
  | .vmem => 0
  | .smem => 0
  | _ => 0

abbrev hbmTy0_0 (i : Nat) : BufTy := match i % 128 with
  | 0 => ⟨S16384x16384, .f32⟩
  | 1 => ⟨S2x524288, .i32⟩
  | 2 => ⟨S16384x50, .f32⟩
  | 3 => ⟨S50, .f32⟩
  | 4 => ⟨S50x2, .f32⟩
  | 5 => ⟨S2, .f32⟩
  | 6 => ⟨S2x7, .f32⟩
  | 7 => ⟨S7, .f32⟩
  | 8 => ⟨S16384x50, .f32⟩
  | 9 => ⟨S16384, .i32⟩
  | 10 => ⟨S1x524288, .i32⟩
  | 11 => ⟨S524288, .i32⟩
  | 12 => ⟨S540672, .i32⟩
  | 13 => ⟨S1x524288, .i32⟩
  | 14 => ⟨S524288, .i32⟩
  | 15 => ⟨S540672, .i32⟩
  | 16 => ⟨S_, .f32⟩
  | 17 => ⟨S540672, .f32⟩
  | 18 => ⟨S_, .f32⟩
  | 19 => ⟨S16384, .f32⟩
  | 20 => ⟨S540672x1, .i32⟩
  | 21 => ⟨S16384, .f32⟩
  | 22 => ⟨S_, .f32⟩
  | 23 => ⟨S16384, .f32⟩
  | 24 => ⟨S16384, .i1⟩
  | 25 => ⟨S16384, .f32⟩
  | 26 => ⟨S_, .f32⟩
  | 27 => ⟨S_, .f32⟩
  | 28 => ⟨S16384, .f32⟩
  | 29 => ⟨S16384, .f32⟩
  | 30 => ⟨S_, .i32⟩
  | 31 => ⟨S540672, .i32⟩
  | 32 => ⟨S540672, .i1⟩
  | 33 => ⟨S_, .i32⟩
  | 34 => ⟨S540672, .i32⟩
  | 35 => ⟨S540672, .i32⟩
  | 36 => ⟨S540672, .i32⟩
  | 37 => ⟨S540672x1, .i32⟩
  | 38 => ⟨S540672, .f32⟩
  | 39 => ⟨S_, .i32⟩
  | 40 => ⟨S540672, .i32⟩
  | 41 => ⟨S540672, .i1⟩
  | 42 => ⟨S_, .i32⟩
  | 43 => ⟨S540672, .i32⟩
  | 44 => ⟨S540672, .i32⟩
  | 45 => ⟨S540672, .i32⟩
  | 46 => ⟨S540672x1, .i32⟩
  | 47 => ⟨S540672, .f32⟩
  | 48 => ⟨S540672, .f32⟩
  | 49 => ⟨S_, .i32⟩
  | 50 => ⟨S540672, .i32⟩
  | 51 => ⟨S540672, .i1⟩
  | 52 => ⟨S_, .i32⟩
  | 53 => ⟨S540672, .i32⟩
  | 54 => ⟨S540672, .i32⟩
  | 55 => ⟨S540672, .i32⟩
  | 56 => ⟨S540672x1, .i32⟩
  | 57 => ⟨S540672x50, .f32⟩
  | 58 => ⟨S540672x1, .f32⟩
  | 59 => ⟨S540672x50, .f32⟩
  | 60 => ⟨S540672x50, .f32⟩
  | 61 => ⟨S_, .f32⟩
  | 62 => ⟨S16384x50, .f32⟩
  | 63 => ⟨S540672x1, .i32⟩
  | 64 => ⟨S16384x50, .f32⟩
  | 65 => ⟨S1x50, .f32⟩
  | 66 => ⟨S16384x50, .f32⟩
  | 67 => ⟨S16384x50, .f32⟩
  | 68 => ⟨S16384x50, .f32⟩
  | 69 => ⟨S16384x2, .f32⟩
  | 70 => ⟨S16384, .i32⟩
  | 71 => ⟨S1x524288, .i32⟩
  | 72 => ⟨S524288, .i32⟩
  | 73 => ⟨S540672, .i32⟩
  | 74 => ⟨S1x524288, .i32⟩
  | 75 => ⟨S524288, .i32⟩
  | 76 => ⟨S540672, .i32⟩
  | 77 => ⟨S_, .f32⟩
  | 78 => ⟨S540672, .f32⟩
  | 79 => ⟨S_, .f32⟩
  | 80 => ⟨S16384, .f32⟩
  | 81 => ⟨S540672x1, .i32⟩
  | 82 => ⟨S16384, .f32⟩
  | 83 => ⟨S_, .f32⟩
  | 84 => ⟨S16384, .f32⟩
  | 85 => ⟨S16384, .i1⟩
  | 86 => ⟨S16384, .f32⟩
  | 87 => ⟨S_, .f32⟩
  | 88 => ⟨S_, .f32⟩
  | 89 => ⟨S16384, .f32⟩
  | 90 => ⟨S16384, .f32⟩
  | 91 => ⟨S_, .i32⟩
  | 92 => ⟨S540672, .i32⟩
  | 93 => ⟨S540672, .i1⟩
  | 94 => ⟨S_, .i32⟩
  | 95 => ⟨S540672, .i32⟩
  | 96 => ⟨S540672, .i32⟩
  | 97 => ⟨S540672, .i32⟩
  | 98 => ⟨S540672x1, .i32⟩
  | 99 => ⟨S540672, .f32⟩
  | 100 => ⟨S_, .i32⟩
  | 101 => ⟨S540672, .i32⟩
  | 102 => ⟨S540672, .i1⟩
  | 103 => ⟨S_, .i32⟩
  | 104 => ⟨S540672, .i32⟩
  | 105 => ⟨S540672, .i32⟩
  | 106 => ⟨S540672, .i32⟩
  | 107 => ⟨S540672x1, .i32⟩
  | 108 => ⟨S540672, .f32⟩
  | 109 => ⟨S540672, .f32⟩
  | 110 => ⟨S_, .i32⟩
  | 111 => ⟨S540672, .i32⟩
  | 112 => ⟨S540672, .i1⟩
  | 113 => ⟨S_, .i32⟩
  | 114 => ⟨S540672, .i32⟩
  | 115 => ⟨S540672, .i32⟩
  | 116 => ⟨S540672, .i32⟩
  | 117 => ⟨S540672x1, .i32⟩
  | 118 => ⟨S540672x2, .f32⟩
  | 119 => ⟨S540672x1, .f32⟩
  | 120 => ⟨S540672x2, .f32⟩
  | 121 => ⟨S540672x2, .f32⟩
  | 122 => ⟨S_, .f32⟩
  | 123 => ⟨S16384x2, .f32⟩
  | 124 => ⟨S540672x1, .i32⟩
  | 125 => ⟨S16384x2, .f32⟩
  | 126 => ⟨S1x2, .f32⟩
  | 127 => ⟨S16384x2, .f32⟩
  | _ => ⟨S16384x16384, .f32⟩

abbrev hbmTy0_1 (i : Nat) : BufTy := match i % 128 with
  | 0 => ⟨S16384x2, .f32⟩
  | 1 => ⟨S16384x2, .f32⟩
  | 2 => ⟨S16384x7, .f32⟩
  | 3 => ⟨S1x7, .f32⟩
  | 4 => ⟨S16384x7, .f32⟩
  | 5 => ⟨S16384x7, .f32⟩
  | _ => ⟨S16384x16384, .f32⟩

abbrev hbmTy (i : Nat) : BufTy := match i / 128 with
  | 0 => hbmTy0_0 i
  | 1 => hbmTy0_1 i
  | _ => ⟨S16384x16384, .f32⟩

abbrev bufTy : (tb : Table) → Fin (tcTables nBuf tb) → BufTy
  | .hbm, ⟨i, _⟩ => hbmTy i
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x50_0_1 : S540672x1.BroadcastsInDim S540672x50 (![0, 1] : Fin 2 → Fin S540672x50.rank)
  bcast_S_S16384x50 : S_.BroadcastsInDim S16384x50 (![] : Fin 0 → Fin S16384x50.rank)
  bcast_S50_S1x50_1 : S50.BroadcastsInDim S1x50 (![1] : Fin 1 → Fin S1x50.rank)
  bcast_S1x50_S16384x50_0_1 : S1x50.BroadcastsInDim S16384x50 (![0, 1] : Fin 2 → Fin S16384x50.rank)
  bcast_S540672x1_S540672x2_0_1 : S540672x1.BroadcastsInDim S540672x2 (![0, 1] : Fin 2 → Fin S540672x2.rank)
  bcast_S_S16384x2 : S_.BroadcastsInDim S16384x2 (![] : Fin 0 → Fin S16384x2.rank)
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S7_S1x7_1 : S7.BroadcastsInDim S1x7 (![1] : Fin 1 → Fin S1x7.rank)
  bcast_S1x7_S16384x7_0_1 : S1x7.BroadcastsInDim S16384x7 (![0, 1] : Fin 2 → Fin S16384x7.rank)
  dot_S16384x16384_S16384x50_S16384x50_1_0_0_1_n_n_wf : DotDims.WF S16384x16384 S16384x50 S16384x50 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x50_S540672x1_S540672x50_1_0_n_n_0_1_150_wf : GatherDims.WF S16384x50 S540672x1 S540672x50 [1] [0] [] [0] [] 1 ![1, 50]
  scatter_S16384x50_S540672x1_S540672x50_1_0_0_1_wf : ScatterDims.WF S16384x50 S540672x1 S540672x50 [1] [0] [0] 1
  dot_S16384x50_S50x2_S16384x2_1_0_0_1_n_n_wf : DotDims.WF S16384x50 S50x2 S16384x2 [1] [0] [0] [1] [] []
  gather_S16384x2_S540672x1_S540672x2_1_0_n_n_0_1_12_wf : GatherDims.WF S16384x2 S540672x1 S540672x2 [1] [0] [] [0] [] 1 ![1, 2]
  scatter_S16384x2_S540672x1_S540672x2_1_0_0_1_wf : ScatterDims.WF S16384x2 S540672x1 S540672x2 [1] [0] [0] 1
  dot_S16384x2_S2x7_S16384x7_1_0_0_1_n_n_wf : DotDims.WF S16384x2 S2x7 S16384x7 [1] [0] [0] [1] [] []

variable [Facts₀]

def dot_S16384x16384_S16384x50_S16384x50_1_0_0_1_n_n : DotDims S16384x16384 S16384x50 S16384x50 where
  lhsContracting := [1]
  rhsContracting := [0]
  lhsNonContracting := [0]
  rhsNonContracting := [1]
  lhsBatch := []
  rhsBatch := []
  wf := dot_S16384x16384_S16384x50_S16384x50_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x50_S540672x1_S540672x50_1_0_n_n_0_1_150 : GatherDims S16384x50 S540672x1 S540672x50 where
  offsetDims := [1]
  collapsedSliceDims := [0]
  operandBatchingDims := []
  startIndicesBatchingDims := []
  startIndexMap := [0]
  indexVectorDim := 1
  sliceSizes := ![1, 50]
  wf := gather_S16384x50_S540672x1_S540672x50_1_0_n_n_0_1_150_wf
def scatter_S16384x50_S540672x1_S540672x50_1_0_0_1 : ScatterDims S16384x50 S540672x1 S540672x50 where
  updateWindowDims := [1]
  insertedWindowDims := [0]
  scatterDimsToOperandDims := [0]
  indexVectorDim := 1
  wf := scatter_S16384x50_S540672x1_S540672x50_1_0_0_1_wf
def dot_S16384x50_S50x2_S16384x2_1_0_0_1_n_n : DotDims S16384x50 S50x2 S16384x2 where
  lhsContracting := [1]
  rhsContracting := [0]
  lhsNonContracting := [0]
  rhsNonContracting := [1]
  lhsBatch := []
  rhsBatch := []
  wf := dot_S16384x50_S50x2_S16384x2_1_0_0_1_n_n_wf
def gather_S16384x2_S540672x1_S540672x2_1_0_n_n_0_1_12 : GatherDims S16384x2 S540672x1 S540672x2 where
  offsetDims := [1]
  collapsedSliceDims := [0]
  operandBatchingDims := []
  startIndicesBatchingDims := []
  startIndexMap := [0]
  indexVectorDim := 1
  sliceSizes := ![1, 2]
  wf := gather_S16384x2_S540672x1_S540672x2_1_0_n_n_0_1_12_wf
def scatter_S16384x2_S540672x1_S540672x2_1_0_0_1 : ScatterDims S16384x2 S540672x1 S540672x2 where
  updateWindowDims := [1]
  insertedWindowDims := [0]
  scatterDimsToOperandDims := [0]
  indexVectorDim := 1
  wf := scatter_S16384x2_S540672x1_S540672x2_1_0_0_1_wf
def dot_S16384x2_S2x7_S16384x7_1_0_0_1_n_n : DotDims S16384x2 S2x7 S16384x7 where
  lhsContracting := [1]
  rhsContracting := [0]
  lhsNonContracting := [0]
  rhsNonContracting := [1]
  lhsBatch := []
  rhsBatch := []
  wf := dot_S16384x2_S2x7_S16384x7_1_0_0_1_n_n_wf

class Facts : Prop extends Facts₀ where

variable [Facts]
-- ==== Proof.BitsShared.lean ====
/-
  The blocked matrix product `x @ W1` on a 16 × 8 grid: point `t` is row block `t / 8` at reduction step `t % 8`.
  What every part of the frame argument shares: the two branch conditions of the body as facts about `t % 8`
  (the accumulator is zeroed exactly at step 0, the output block is stored exactly at step 7), where the output
  window is idle, the staging and scratch memrefs by name, the block of an input array a point reads, and @main as
  the region followed by its five stretches of host operations.
-/
import proofs.«107587_j14465449853013_1_alg».proof.Proof.Gen.Kernel.Launch
import proofs.«107587_j14465449853013_1_alg».proof.Proof.Gen.Kernel.Skeleton
import proofs.«107587_j14465449853013_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host operations -/

/-- The five stretches of host operations after the region, in program order. -/
abbrev tailOps : List (List (HloOp τ sig (Elt F))) := [hostOps1, hostOps1_1, hostOps1_2, hostOps1_3, hostOps1_4]

/-- The buffers as the region finds them: no host operation comes before it, so they are the launch contents. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

/-- @main is the region continued by the five stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem V_main_arg0 (c : Dev nD) : V m c main_arg0 = m ((c : Thread nD τ).loc main_arg0) := rfl
theorem V_main_arg2 (c : Dev nD) : V m c main_arg2 = m ((c : Thread nD τ).loc main_arg2) := rfl

/-! ## The blocks a point reads -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of `x`'s window holds the point's block of `x`, fetched there or not. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of `W1`'s window holds the point's block of `W1`, fetched there or not. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, as facts about the reduction step `t % 8` -/

/-- "This is reduction step 0": the accumulator is zeroed. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is reduction step 7": the accumulator is copied to the output block. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_x : ∀ t : Fin cfg0.N, cfg0.idle 0 (grid0.coords t) = false := by decide +kernel
theorem live_w : ∀ t : Fin cfg0.N, cfg0.idle 1 (grid0.coords t) = false := by decide +kernel
/-- Before the last step the output window is idle (nothing is stored into it) and is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At the last step it is live. -/
theorem live_out : ∀ t : Fin cfg0.N, isLast (grid0.coords t) → cfg0.idle 2 (grid0.coords t) = false := by decide +kernel

/-! ## The memrefs the body is called with -/

/-- One staging buffer of the output window, through which its contents are stated. -/
abbrev VOut : View sig .tc .vmem S1024x50 .f32 := (Memref.whole cc0_stg2_0 : Memref sig .tc .vmem S1024x50 .f32).view
abbrev msX (t : Fin cfg0.N) : Memref sig .tc .vmem S1024x2048 .f32 := win0_0.stage (cfg0.slots t 0)
abbrev hsX (t : Fin cfg0.N) : (msX t).IsWhole := hstage0_0 ((cfg0.slots t 0).cast nbuf0_0)
abbrev msW (t : Fin cfg0.N) : Memref sig .tc .vmem S2048x50 .f32 := win0_1.stage (cfg0.slots t 1)
abbrev hsW (t : Fin cfg0.N) : (msW t).IsWhole := hstage0_1 ((cfg0.slots t 1).cast nbuf0_1)
abbrev msO (t : Fin cfg0.N) : Memref sig .tc .vmem S1024x50 .f32 := win0_2.stage (cfg0.slots t 2)
abbrev hsO (t : Fin cfg0.N) : (msO t).IsWhole := hstage0_2 ((cfg0.slots t 2).cast nbuf0_2)
/-- The accumulator: a whole scoped buffer of the kernel's own. -/
abbrev accM : Memref sig .tc .vmem S1024x50 .f32 := Memref.whole cc0_scratch0
abbrev VAcc : View sig .tc .vmem S1024x50 .f32 := accM.view

/-- What the region's invariant holds besides the windows: the accumulator at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Accum

end
-- ==== Proof.BitsRunFirst.lean ====
/-
  The body at reduction step 0 of a row block: the accumulator, whatever it held, is overwritten by zero and then by
  `0 + x_blk · w_blk`; the output window's buffer is not touched. The stores are found by running the body; the
  accumulator's pieces are this run's witness.
-/
import proofs.«107587_j14465449853013_1_alg».proof.Proof.BitsShared

set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFirst (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : isFirst i) (hc1 : ¬isLast i)
    (x0 : Vec F S1024x2048 .f32) (x1 : Vec F S2048x50 .f32) :
    { LS : List (View.Piece (Elt F) S1024x50 .f32) //
      ∀ (xi : Vec F S1024x50 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, fun xi E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Accum

end
-- ==== Proof.BitsRunMiddle.lean ====
/-
  The body at a reduction step 1 … 6: the accumulator, holding `xs`, is overwritten by `xs + x_blk · w_blk`;
  the output window's buffer is not touched.
-/
import proofs.«107587_j14465449853013_1_alg».proof.Proof.BitsRunFirst

set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runMiddle (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : ¬isLast i)
    (x0 : Vec F S1024x2048 .f32) (x1 : Vec F S2048x50 .f32) (xs : Vec F S1024x50 .f32) :
    { LS : List (View.Piece (Elt F) S1024x50 .f32) //
      ∀ (xi : Vec F S1024x50 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, fun xi E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Accum

end
-- ==== Proof.BitsRunLast.lean ====
/-
  The body at reduction step 7: the accumulator, holding `xs`, is overwritten by `xs + x_blk · w_blk`, and what it
  then holds is stored into the output window's buffer (whatever that held).
-/
import proofs.«107587_j14465449853013_1_alg».proof.Proof.BitsRunMiddle

set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runLast (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i)
    (x0 : Vec F S1024x2048 .f32) (x1 : Vec F S2048x50 .f32) (xs : Vec F S1024x50 .f32) :
    Σ' (LO : List (View.Piece (Elt F) S1024x50 .f32)), { LS : List (View.Piece (Elt F) S1024x50 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Accum

end
-- ==== Proof.BitsBody.lean ====
/-
  The frame of the blocked matrix product followed by its host operations. Point `t` of the 16 × 8 grid is row block
  `t / 8` at reduction step `t % 8`. After point `t` the accumulator holds what the step's run leaves in it — at step 0
  computed from the point's blocks alone, at a later step from the blocks and what the point before left — and the
  output window's buffer holds, at step 7, a copy of the accumulator; before step 7 it is idle and nothing is said of it.
  The region's invariant carries the accumulator at exactly these contents from one point to the next. With this proof
  data every point's body meets its obligation, so the program runs to the end: the arrays the pipeline stages end at
  what the write-backs leave, and every other buffer at what the host operations after the region compute.
-/
import proofs.«107587_j14465449853013_1_alg».proof.Proof.BitsRunLast

set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each step's run leaves -/

theorem coverFirst (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : isFirst i) (hc1 : ¬isLast i) (x0 : Vec F S1024x2048 .f32) (x1 : Vec F S2048x50 .f32) (y : S1024x50.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x50.size (by sl_kernel_rfl) y

/-- The accumulator after step 0. -/
def accFirst (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : isFirst i) (hc1 : ¬isLast i) (x0 : Vec F S1024x2048 .f32) (x1 : Vec F S2048x50 .f32) : Vec F S1024x50 .f32 :=
  VAcc.read (Elt F) (VAcc.writes (Elt F) VAcc.junk (runFirst c i arg2 harg2 arg3 harg3 arg4 harg4 arg5 harg5 hc0 hc1 x0 x1).1)

theorem coverMiddle (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : ¬isLast i) (x0 : Vec F S1024x2048 .f32) (x1 : Vec F S2048x50 .f32) (xs : Vec F S1024x50 .f32) (y : S1024x50.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S1024x50.size (by sl_kernel_rfl) y

/-- The accumulator after a step 1 … 6, from what the point before left in it. -/
def accMiddle (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : ¬isLast i) (x0 : Vec F S1024x2048 .f32) (x1 : Vec F S2048x50 .f32) (xs : Vec F S1024x50 .f32) : Vec F S1024x50 .f32 :=
  VAcc.read (Elt F) (VAcc.writes (Elt F) VAcc.junk (runMiddle c i arg2 harg2 arg3 harg3 arg4 harg4 arg5 harg5 hc0 hc1 x0 x1 xs).1)

theorem coverLastOut (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i) (x0 : Vec F S1024x2048 .f32) (x1 : Vec F S2048x50 .f32) (xs : Vec F S1024x50 .f32) (y : S1024x50.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x50.size (by sl_kernel_rfl) y

/-- The output window's buffer after step 7. -/
def outLast (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i) (x0 : Vec F S1024x2048 .f32) (x1 : Vec F S2048x50 .f32) (xs : Vec F S1024x50 .f32) : Vec F S1024x50 .f32 :=
  VOut.read (Elt F) (VOut.writes (Elt F) VOut.junk (runLast c i arg2 harg2 arg3 harg3 arg4 harg4 arg5 harg5 hc0 hc1 x0 x1 xs).1)

theorem coverLastAcc (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i) (x0 : Vec F S1024x2048 .f32) (x1 : Vec F S2048x50 .f32) (xs : Vec F S1024x50 .f32) (y : S1024x50.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x50.size (by sl_kernel_rfl) y

/-- The accumulator after step 7. -/
def accLast (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i) (x0 : Vec F S1024x2048 .f32) (x1 : Vec F S2048x50 .f32) (xs : Vec F S1024x50 .f32) : Vec F S1024x50 .f32 :=
  VAcc.read (Elt F) (VAcc.writes (Elt F) VAcc.junk (runLast c i arg2 harg2 arg3 harg3 arg4 harg4 arg5 harg5 hc0 hc1 x0 x1 xs).2.1)

/-- What the output window's buffer is said to hold where it is idle: nothing reads this. -/
def idleOut : Vec F S1024x50 .f32 := VOut.read (Elt F) VOut.junk

/-! ## Point by point -/

/-- After point `n`: the output window's buffer, and the accumulator. -/
def outsAt (c : Dev nD) : (n : ℕ) → n < cfg0.N → Vec F S1024x50 .f32 × Vec F S1024x50 .f32
  | 0, hn => (idleOut, accFirst c (grid0.coords ⟨0, hn⟩) (msX ⟨0, hn⟩) (hsX ⟨0, hn⟩) (msW ⟨0, hn⟩) (hsW ⟨0, hn⟩) (msO ⟨0, hn⟩) (hsO ⟨0, hn⟩) accM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩))
  | n + 1, hn =>
    if h0 : (n + 1) % 8 = 0 then
      if h1 : (n + 1) % 8 = 7 then False.elim (by omega)
      else (idleOut, accFirst c (grid0.coords ⟨n + 1, hn⟩) (msX ⟨n + 1, hn⟩) (hsX ⟨n + 1, hn⟩) (msW ⟨n + 1, hn⟩) (hsW ⟨n + 1, hn⟩) (msO ⟨n + 1, hn⟩) (hsO ⟨n + 1, hn⟩) accM (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩))
    else
      if h1 : (n + 1) % 8 = 7 then
        (outLast c (grid0.coords ⟨n + 1, hn⟩) (msX ⟨n + 1, hn⟩) (hsX ⟨n + 1, hn⟩) (msW ⟨n + 1, hn⟩) (hsW ⟨n + 1, hn⟩) (msO ⟨n + 1, hn⟩) (hsO ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2,
         accLast c (grid0.coords ⟨n + 1, hn⟩) (msX ⟨n + 1, hn⟩) (hsX ⟨n + 1, hn⟩) (msW ⟨n + 1, hn⟩) (hsW ⟨n + 1, hn⟩) (msO ⟨n + 1, hn⟩) (hsO ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2)
      else
        (idleOut, accMiddle c (grid0.coords ⟨n + 1, hn⟩) (msX ⟨n + 1, hn⟩) (hsX ⟨n + 1, hn⟩) (msW ⟨n + 1, hn⟩) (hsW ⟨n + 1, hn⟩) (msO ⟨n + 1, hn⟩) (hsO ⟨n + 1, hn⟩) accM (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (outsAt c n (Nat.lt_of_succ_lt hn)).2)

theorem outsAt_first (c : Dev nD) (t : Fin cfg0.N) (h0 : t.val % 8 = 0) (h1 : ¬t.val % 8 = 7) :
    outsAt m c t.val t.isLt = (idleOut, accFirst c (grid0.coords t) (msX t) (hsX t) (msW t) (hsW t) (msO t) (hsO t) accM (Memref.isWhole_whole _) ((isFirst_iff t).mpr h0) (fun h => h1 ((isLast_iff t).mp h)) (iblk m c 0 t) (iblk m c 1 t)) := by
  obtain ⟨n, hn⟩ := t
  cases n with
  | zero => exact rfl
  | succ n => exact (dif_pos h0).trans ((dif_neg h1).trans rfl)

theorem outsAt_middle (c : Dev nD) (t : Fin cfg0.N) (h0 : ¬t.val % 8 = 0) (h1 : ¬t.val % 8 = 7) :
    outsAt m c t.val t.isLt = (idleOut, accMiddle c (grid0.coords t) (msX t) (hsX t) (msW t) (hsW t) (msO t) (hsO t) accM (Memref.isWhole_whole _) (fun h => h0 ((isFirst_iff t).mp h)) (fun h => h1 ((isLast_iff t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (msX t) (hsX t) (msW t) (hsW t) (msO t) (hsO t) accM (Memref.isWhole_whole _) (fun h => h0 ((isFirst_iff t).mp h)) ((isLast_iff t).mpr h1) (iblk m c 0 t) (iblk m c 1 t) (outsAt m c (t.val - 1) (Nat.lt_of_le_of_lt (Nat.sub_le _ _) t.isLt)).2,
      accLast c (grid0.coords t) (msX t) (hsX t) (msW t) (hsW t) (msO t) (hsO t) accM (Memref.isWhole_whole _) (fun h => h0 ((isFirst_iff t).mp h)) ((isLast_iff t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards
    what the point before left in it. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_out (c : Dev nD) (t : Fin cfg0.N) : (dats m 0 c).after 2 t = (outsAt m c t.val t.isLt).1 := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msX t) fullShare ((dats m 0 c).before 0 t d))
    ∗ (∃ d, owns (c : Thread nD τ) (msW t) fullShare ((dats m 0 c).before 1 t d))
    ∗ (∃ d, owns (c : Thread nD τ) (msO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- At every point the body, called on the point's blocks and the accumulator as the invariant holds it, returns the
    blocks as they were, the accumulator at this point's contents, and the output buffer untouched (before step 7) or at
    the accumulator's copy (at step 7). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (msX t) fullShare ((dats m 0 c).after 0 t) from by
    unfold Dat.leavesExact; rw [live_x t], after_x]
  rw [show (dats m 0 c).leavesExact 1 t = owns (c : Thread nD τ) (msW t) fullShare ((dats m 0 c).after 1 t) from by
    unfold Dat.leavesExact; rw [live_w t], after_w]
  by_cases h0 : t.val % 8 = 0
  · by_cases h1 : t.val % 8 = 7
    · exfalso; omega
    · rw [Dat.leavesExact_idle (dats m 0 c) 2 t (idle_out t (fun h => h1 ((isLast_iff t).mp h))) (noFlush_out t (fun h => h1 ((isLast_iff t).mp h)))]
      rw [outsAt_first m c t h0 h1]
      unfold accFirst; (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩⟩
        iapply ((runFirst c (grid0.coords t) _ _ _ _ _ _ _ _ ((isFirst_iff t).mpr h0) (fun h => h1 ((isLast_iff t).mp h)) (iblk m c 0 t) (iblk m c 1 t)).2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS, Hg⟩, Ho, ⟨%d0, H0⟩, ⟨%d1, H1⟩, ⟨%d2, H2⟩⟩
        iapply ((runFirst c (grid0.coords t) _ _ _ _ _ _ _ _ ((isFirst_iff t).mpr h0) (fun h => h1 ((isLast_iff t).mp h)) (iblk m c 0 t) (iblk m c 1 t)).2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dats m 0 c).leavesExact 2 t = owns (c : Thread nD τ) (msO t) fullShare ((dats m 0 c).after 2 t) from by
        unfold Dat.leavesExact; rw [live_out t ((isLast_iff t).mpr h1)], after_out]
      rw [outsAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · rw [Dat.leavesExact_idle (dats m 0 c) 2 t (idle_out t (fun h => h1 ((isLast_iff t).mp h))) (noFlush_out t (fun h => h1 ((isLast_iff t).mp h)))]
      rw [outsAt_middle m c t h0 h1]
      unfold accMiddle; (try dsimp only)
      rw [PhiS_castSucc m c t, PhiS_pos m c _ _ hz]
      iintro ⟨⟨HS, Hg⟩, Ho, ⟨%d0, H0⟩, ⟨%d1, H1⟩, ⟨%d2, H2⟩⟩
      iapply ((runMiddle c (grid0.coords t) _ _ _ _ _ _ _ _ (fun h => h0 ((isFirst_iff t).mp h)) (fun h => h1 ((isLast_iff t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMiddle c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Accum

end
-- ==== Proof.TailKeepBits.lean ====
import proofs.«107587_j14465449853013_1_alg».proof.Proof.Gen.Kernel.Launch
import Idealize.ShloMosaic.Lib.Pipeline.FrameSuffix

/-!
Bookkeeping for the 125 host operations that follow the matrix-product region: they are five
straight stretches of operations; each operation allocates nothing and writes exactly its own
result buffer, and no result buffer is one of the eight arguments or the product's buffer. So
those nine buffers hold after the stretches what they held before.
-/

noncomputable section

namespace Cert.Kernel.Tail

open Idealize.ShloMosaic Idealize.ShloMosaic.TcCoe Idealize.SL.Sem
open Cert.Kernel Cert.Kernel.Gen

variable {F : FTy → Type} [FloatOps F]

/-- The five stretches of host operations after the region, in order. -/
abbrev stretches : List (List (HloOp τ sig (Elt F))) :=
  [hostOps1, hostOps1_1, hostOps1_2, hostOps1_3, hostOps1_4]

/-- Every operation touches TensorCore references only. -/
theorem stretches_sub :
    (stretches (F := F)).Forall fun ops => ops.Forall fun op => op.bufs ⊆ StableHlo.tcRefs τ sig :=
  ⟨hostOps1_sub, hostOps1_1_sub, hostOps1_2_sub, hostOps1_3_sub, hostOps1_4_sub⟩

/-! ## No operation allocates -/

theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl⟩

theorem hostOps1_1_fresh : (hostOps1_1 : List (HloOp τ sig (Elt F))).Forall fun op => op.fresh = ∅ :=
  ⟨rfl, rfl, rfl⟩

theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl⟩

theorem hostOps1_3_fresh : (hostOps1_3 : List (HloOp τ sig (Elt F))).Forall fun op => op.fresh = ∅ :=
  ⟨rfl, rfl, rfl⟩

theorem hostOps1_4_fresh : (hostOps1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl⟩

/-- No operation of the stretches allocates. -/
theorem stretches_fresh : ∀ ops ∈ (stretches (F := F)), ∀ op ∈ ops, op.fresh = ∅ := by
  intro ops hops
  simp only [List.mem_cons, List.mem_nil_iff, or_false] at hops
  rcases hops with rfl | rfl | rfl | rfl | rfl
  · exact List.forall_iff_forall_mem.mp hostOps1_fresh
  · exact List.forall_iff_forall_mem.mp hostOps1_1_fresh
  · exact List.forall_iff_forall_mem.mp hostOps1_2_fresh
  · exact List.forall_iff_forall_mem.mp hostOps1_3_fresh
  · exact List.forall_iff_forall_mem.mp hostOps1_4_fresh

/-! ## What the operations write -/

/-- The result buffers of the 125 operations, in order. -/
abbrev W : List (Ref sig .tc) :=
  [main_v1, main_v2, main_v3, main_v4, main_v5, main_v6, main_v7, main_cst,
   main_v8, main_cst_0, main_v9, main_v10, main_v11, main_cst_1, main_v12, main_v13,
   main_v14, main_cst_2, main_call0_v0, main_call0_v1, main_v15, main_c, main_v16, main_v17,
   main_c_3, main_v18, main_v19, main_v20, main_v21, main_v22, main_c_4, main_v23,
   main_v24, main_c_5, main_v25, main_v26, main_v27, main_v28, main_v29, main_v30,
   main_c_6, main_v31, main_v32, main_c_7, main_v33, main_v34, main_v35, main_v36,
   main_v37, main_v38, main_v39, main_v40, main_cst_8, main_v41, main_v42, main_v43,
   main_v44, main_v45, main_v46, main_v47, main_v48, main_v49, main_v50, main_v51,
   main_v52, main_v53, main_v54, main_v55, main_cst_9, main_v56, main_cst_10, main_v57,
   main_v58, main_v59, main_cst_11, main_v60, main_v61, main_v62, main_cst_12, main_call1_v0,
   main_call1_v1, main_v63, main_c_13, main_v64, main_v65, main_c_14, main_v66, main_v67,
   main_v68, main_v69, main_v70, main_c_15, main_v71, main_v72, main_c_16, main_v73,
   main_v74, main_v75, main_v76, main_v77, main_v78, main_c_17, main_v79, main_v80,
   main_c_18, main_v81, main_v82, main_v83, main_v84, main_v85, main_v86, main_v87,
   main_v88, main_cst_19, main_v89, main_v90, main_v91, main_v92, main_v93, main_v94,
   main_v95, main_v96, main_v97, main_v98, main_v99]

/-- The buffers to be kept: the eight arguments and the product's buffer. -/
abbrev kept : List (Ref sig .tc) :=
  [main_arg0, main_arg1, main_arg2, main_arg3, main_arg4, main_arg5, main_arg6, main_arg7, main_v0]

/-- None of the kept buffers is a result buffer. -/
theorem kept_not_mem : ∀ r ∈ kept, r ∉ W := by decide

/-- An operation that writes exactly one result buffer of the list writes inside the list. -/
theorem writes_sub_of {op : HloOp τ sig (Elt F)} {y : Ref sig .tc}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

theorem hostOps1_writes : (hostOps1 : List (HloOp τ sig (Elt F))).Forall fun op =>
    op.writes ⊆ (W.map (Proc.devRef (τ := τ) .tc)).toFinset :=
  ⟨writes_sub_of (y := main_v1) rfl (by decide),
   writes_sub_of (y := main_v2) rfl (by decide),
   writes_sub_of (y := main_v3) rfl (by decide),
   writes_sub_of (y := main_v4) rfl (by decide),
   writes_sub_of (y := main_v5) rfl (by decide),
   writes_sub_of (y := main_v6) rfl (by decide),
   writes_sub_of (y := main_v7) rfl (by decide),
   writes_sub_of (y := main_cst) rfl (by decide),
   writes_sub_of (y := main_v8) rfl (by decide),
   writes_sub_of (y := main_cst_0) rfl (by decide),
   writes_sub_of (y := main_v9) rfl (by decide),
   writes_sub_of (y := main_v10) rfl (by decide),
   writes_sub_of (y := main_v11) rfl (by decide),
   writes_sub_of (y := main_cst_1) rfl (by decide),
   writes_sub_of (y := main_v12) rfl (by decide),
   writes_sub_of (y := main_v13) rfl (by decide),
   writes_sub_of (y := main_v14) rfl (by decide),
   writes_sub_of (y := main_cst_2) rfl (by decide)⟩

theorem hostOps1_1_writes : (hostOps1_1 : List (HloOp τ sig (Elt F))).Forall fun op =>
    op.writes ⊆ (W.map (Proc.devRef (τ := τ) .tc)).toFinset :=
  ⟨writes_sub_of (y := main_call0_v0) rfl (by decide),
   writes_sub_of (y := main_call0_v1) rfl (by decide),
   writes_sub_of (y := main_v15) rfl (by decide)⟩

theorem hostOps1_2_writes : (hostOps1_2 : List (HloOp τ sig (Elt F))).Forall fun op =>
    op.writes ⊆ (W.map (Proc.devRef (τ := τ) .tc)).toFinset :=
  ⟨writes_sub_of (y := main_c) rfl (by decide),
   writes_sub_of (y := main_v16) rfl (by decide),
   writes_sub_of (y := main_v17) rfl (by decide),
   writes_sub_of (y := main_c_3) rfl (by decide),
   writes_sub_of (y := main_v18) rfl (by decide),
   writes_sub_of (y := main_v19) rfl (by decide),
   writes_sub_of (y := main_v20) rfl (by decide),
   writes_sub_of (y := main_v21) rfl (by decide),
   writes_sub_of (y := main_v22) rfl (by decide),
   writes_sub_of (y := main_c_4) rfl (by decide),
   writes_sub_of (y := main_v23) rfl (by decide),
   writes_sub_of (y := main_v24) rfl (by decide),
   writes_sub_of (y := main_c_5) rfl (by decide),
   writes_sub_of (y := main_v25) rfl (by decide),
   writes_sub_of (y := main_v26) rfl (by decide),
   writes_sub_of (y := main_v27) rfl (by decide),
   writes_sub_of (y := main_v28) rfl (by decide),
   writes_sub_of (y := main_v29) rfl (by decide),
   writes_sub_of (y := main_v30) rfl (by decide),
   writes_sub_of (y := main_c_6) rfl (by decide),
   writes_sub_of (y := main_v31) rfl (by decide),
   writes_sub_of (y := main_v32) rfl (by decide),
   writes_sub_of (y := main_c_7) rfl (by decide),
   writes_sub_of (y := main_v33) rfl (by decide),
   writes_sub_of (y := main_v34) rfl (by decide),
   writes_sub_of (y := main_v35) rfl (by decide),
   writes_sub_of (y := main_v36) rfl (by decide),
   writes_sub_of (y := main_v37) rfl (by decide),
   writes_sub_of (y := main_v38) rfl (by decide),
   writes_sub_of (y := main_v39) rfl (by decide),
   writes_sub_of (y := main_v40) rfl (by decide),
   writes_sub_of (y := main_cst_8) rfl (by decide),
   writes_sub_of (y := main_v41) rfl (by decide),
   writes_sub_of (y := main_v42) rfl (by decide),
   writes_sub_of (y := main_v43) rfl (by decide),
   writes_sub_of (y := main_v44) rfl (by decide),
   writes_sub_of (y := main_v45) rfl (by decide),
   writes_sub_of (y := main_v46) rfl (by decide),
   writes_sub_of (y := main_v47) rfl (by decide),
   writes_sub_of (y := main_v48) rfl (by decide),
   writes_sub_of (y := main_v49) rfl (by decide),
   writes_sub_of (y := main_v50) rfl (by decide),
   writes_sub_of (y := main_v51) rfl (by decide),
   writes_sub_of (y := main_v52) rfl (by decide),
   writes_sub_of (y := main_v53) rfl (by decide),
   writes_sub_of (y := main_v54) rfl (by decide),
   writes_sub_of (y := main_v55) rfl (by decide),
   writes_sub_of (y := main_cst_9) rfl (by decide),
   writes_sub_of (y := main_v56) rfl (by decide),
   writes_sub_of (y := main_cst_10) rfl (by decide),
   writes_sub_of (y := main_v57) rfl (by decide),
   writes_sub_of (y := main_v58) rfl (by decide),
   writes_sub_of (y := main_v59) rfl (by decide),
   writes_sub_of (y := main_cst_11) rfl (by decide),
   writes_sub_of (y := main_v60) rfl (by decide),
   writes_sub_of (y := main_v61) rfl (by decide),
   writes_sub_of (y := main_v62) rfl (by decide),
   writes_sub_of (y := main_cst_12) rfl (by decide)⟩

theorem hostOps1_3_writes : (hostOps1_3 : List (HloOp τ sig (Elt F))).Forall fun op =>
    op.writes ⊆ (W.map (Proc.devRef (τ := τ) .tc)).toFinset :=
  ⟨writes_sub_of (y := main_call1_v0) rfl (by decide),
   writes_sub_of (y := main_call1_v1) rfl (by decide),
   writes_sub_of (y := main_v63) rfl (by decide)⟩

theorem hostOps1_4_writes : (hostOps1_4 : List (HloOp τ sig (Elt F))).Forall fun op =>
    op.writes ⊆ (W.map (Proc.devRef (τ := τ) .tc)).toFinset :=
  ⟨writes_sub_of (y := main_c_13) rfl (by decide),
   writes_sub_of (y := main_v64) rfl (by decide),
   writes_sub_of (y := main_v65) rfl (by decide),
   writes_sub_of (y := main_c_14) rfl (by decide),
   writes_sub_of (y := main_v66) rfl (by decide),
   writes_sub_of (y := main_v67) rfl (by decide),
   writes_sub_of (y := main_v68) rfl (by decide),
   writes_sub_of (y := main_v69) rfl (by decide),
   writes_sub_of (y := main_v70) rfl (by decide),
   writes_sub_of (y := main_c_15) rfl (by decide),
   writes_sub_of (y := main_v71) rfl (by decide),
   writes_sub_of (y := main_v72) rfl (by decide),
   writes_sub_of (y := main_c_16) rfl (by decide),
   writes_sub_of (y := main_v73) rfl (by decide),
   writes_sub_of (y := main_v74) rfl (by decide),
   writes_sub_of (y := main_v75) rfl (by decide),
   writes_sub_of (y := main_v76) rfl (by decide),
   writes_sub_of (y := main_v77) rfl (by decide),
   writes_sub_of (y := main_v78) rfl (by decide),
   writes_sub_of (y := main_c_17) rfl (by decide),
   writes_sub_of (y := main_v79) rfl (by decide),
   writes_sub_of (y := main_v80) rfl (by decide),
   writes_sub_of (y := main_c_18) rfl (by decide),
   writes_sub_of (y := main_v81) rfl (by decide),
   writes_sub_of (y := main_v82) rfl (by decide),
   writes_sub_of (y := main_v83) rfl (by decide),
   writes_sub_of (y := main_v84) rfl (by decide),
   writes_sub_of (y := main_v85) rfl (by decide),
   writes_sub_of (y := main_v86) rfl (by decide),
   writes_sub_of (y := main_v87) rfl (by decide),
   writes_sub_of (y := main_v88) rfl (by decide),
   writes_sub_of (y := main_cst_19) rfl (by decide),
   writes_sub_of (y := main_v89) rfl (by decide),
   writes_sub_of (y := main_v90) rfl (by decide),
   writes_sub_of (y := main_v91) rfl (by decide),
   writes_sub_of (y := main_v92) rfl (by decide),
   writes_sub_of (y := main_v93) rfl (by decide),
   writes_sub_of (y := main_v94) rfl (by decide),
   writes_sub_of (y := main_v95) rfl (by decide),
   writes_sub_of (y := main_v96) rfl (by decide),
   writes_sub_of (y := main_v97) rfl (by decide),
   writes_sub_of (y := main_v98) rfl (by decide),
   writes_sub_of (y := main_v99) rfl (by decide)⟩

/-- Every operation of the stretches writes inside the list of result buffers. -/
theorem stretches_writes : ∀ ops ∈ (stretches (F := F)), ∀ op ∈ ops,
    op.writes ⊆ (W.map (Proc.devRef (τ := τ) .tc)).toFinset := by
  intro ops hops
  simp only [List.mem_cons, List.mem_nil_iff, or_false] at hops
  rcases hops with rfl | rfl | rfl | rfl | rfl
  · exact List.forall_iff_forall_mem.mp hostOps1_writes
  · exact List.forall_iff_forall_mem.mp hostOps1_1_writes
  · exact List.forall_iff_forall_mem.mp hostOps1_2_writes
  · exact List.forall_iff_forall_mem.mp hostOps1_3_writes
  · exact List.forall_iff_forall_mem.mp hostOps1_4_writes

/-- No operation of the stretches writes a kept buffer. -/
theorem stretches_keep : ∀ ops ∈ (stretches (F := F)), ∀ op ∈ ops, ∀ r ∈ kept,
    Proc.devRef (τ := τ) .tc r ∉ op.writes := by
  intro ops hops op hop r hr hw
  obtain ⟨y, hy, he⟩ := List.mem_map.mp (List.mem_toFinset.mp (stretches_writes ops hops op hop hw))
  exact kept_not_mem r hr (Proc.devRef_injective _ he ▸ hy)

/-- A kept buffer holds after the five stretches what it held before them. -/
theorem after_kept (V : Valuation τ sig (Elt F)) (r : Ref sig .tc) (hr : r ∈ kept) :
    StableHlo.after (stretches (F := F)).flatten V (Proc.devRef .tc r) = V (Proc.devRef .tc r) :=
  StableHlo.after_of_writes_sub _ V
    (List.forall_iff_forall_mem.mpr fun op hop => by
      obtain ⟨ops, hops, hop'⟩ := List.mem_flatten.mp hop
      exact stretches_writes ops hops op hop')
    (kept_not_mem r hr)

end Cert.Kernel.Tail
-- ==== Proof.BitsFrame.lean ====
/-
  The run of the blocked matrix product followed by its host operations: every point's body meets its obligation
  (the module before this one), the host operations after the region touch no array the pipeline stages and allocate
  nothing, so the program runs to the end — the staged arrays end at what the write-backs leave, every other buffer at
  what the host operations compute from there — and in particular the eight argument arrays end unchanged.
-/
import proofs.«107587_j14465449853013_1_alg».proof.Proof.BitsBody
import proofs.«107587_j14465449853013_1_alg».proof.Proof.TailKeepBits

set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region -/

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp Cert.Kernel.Tail.stretches_sub) ops hops)) op hop)

theorem sfx_fresh : ∀ ops ∈ (tailOps : List (List (HloOp τ sig (Elt F)))), ∀ op ∈ ops, op.fresh = ∅ :=
  Cert.Kernel.Tail.stretches_fresh

theorem sfx_keeps : ∀ ops ∈ (tailOps : List (List (HloOp τ sig (Elt F)))), ∀ op ∈ ops,
    ∀ w, Proc.devRef .tc (Pipeline.arrRef spec0 w) ∉ op.writes := by
  intro ops hops op hop w
  refine Cert.Kernel.Tail.stretches_keep ops hops op hop (Pipeline.arrRef spec0 w) ?_
  fin_cases w <;> decide

/-! ## The run -/

set_option backward.isDefEq.respectTransparency.types false in
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-! ## The argument arrays end unchanged -/

/-- A buffer the host operations after the region do not write, and the pipeline does not stage, ends at its launch contents. -/
theorem tail_kept (c : Dev nD) (r : Ref sig .tc) (hr : r ∈ Cert.Kernel.Tail.kept) (hne : ∀ w, Pipeline.arrRef spec0 w ≠ r) :
    Pipeline.afterTail₀ cfgs (dats m) 0 (V0 m) tailOps c r = m ((c : Thread nD τ).loc r) := by
  unfold Pipeline.afterTail₀
  rw [Cert.Kernel.Tail.after_kept _ r hr, Pipeline.withArrays_of_ne _ c _ _ r hne]
  rfl

theorem rest_mem (r : Ref sig .tc) (hs : r.isScoped = false) (hne : ∀ w, Pipeline.arrRef spec0 w ≠ r) :
    r ∈ Pipeline.restRefs sig (cfgs 0).spec :=
  Pipeline.mem_restRefs_of r hs hne

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats m 0 c).arrAt_in 0 rfl _).trans ((A_eq m c 0).trans (V_main_arg0 m c))),
    ((h c).2 main_arg1 (rest_mem main_arg1 rfl (by intro w; fin_cases w <;> decide))).trans (tail_kept m c main_arg1 (by decide) (by intro w; fin_cases w <;> decide)),
    ((h c).1 1).trans (((dats m 0 c).arrAt_in 1 rfl _).trans ((A_eq m c 1).trans (V_main_arg2 m c))),
    ((h c).2 main_arg3 (rest_mem main_arg3 rfl (by intro w; fin_cases w <;> decide))).trans (tail_kept m c main_arg3 (by decide) (by intro w; fin_cases w <;> decide)),
    ((h c).2 main_arg4 (rest_mem main_arg4 rfl (by intro w; fin_cases w <;> decide))).trans (tail_kept m c main_arg4 (by decide) (by intro w; fin_cases w <;> decide)),
    ((h c).2 main_arg5 (rest_mem main_arg5 rfl (by intro w; fin_cases w <;> decide))).trans (tail_kept m c main_arg5 (by decide) (by intro w; fin_cases w <;> decide)),
    ((h c).2 main_arg6 (rest_mem main_arg6 rfl (by intro w; fin_cases w <;> decide))).trans (tail_kept m c main_arg6 (by decide) (by intro w; fin_cases w <;> decide)),
    ((h c).2 main_arg7 (rest_mem main_arg7 rfl (by intro w; fin_cases w <;> decide))).trans (tail_kept m c main_arg7 (by decide) (by intro w; fin_cases w <;> decide))⟩) (run_main m ρ)

end Cert.Kernel.Accum

end
-- ==== Proof.IdealShared.lean ====
/-
  The blocked matrix product `x @ W1` on a 16 × 8 grid: point `t` is row block `t / 8` at reduction step `t % 8`.
  What every part of the frame argument shares: the two branch conditions of the body as facts about `t % 8`
  (the accumulator is zeroed exactly at step 0, the output block is stored exactly at step 7), where the output
  window is idle, the staging and scratch memrefs by name, the block of an input array a point reads, and @main as
  the region followed by its five stretches of host operations.
-/
import proofs.«107587_j14465449853013_1_alg».proof.Proof.Gen.KernelIdeal.Launch
import proofs.«107587_j14465449853013_1_alg».proof.Proof.Gen.KernelIdeal.Skeleton
import proofs.«107587_j14465449853013_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host operations -/

/-- The five stretches of host operations after the region, in program order. -/
abbrev tailOps : List (List (HloOp τ sig (Elt F))) := [hostOps1, hostOps1_1, hostOps1_2, hostOps1_3, hostOps1_4]

/-- The buffers as the region finds them: no host operation comes before it, so they are the launch contents. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

/-- @main is the region continued by the five stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem V_main_arg0 (c : Dev nD) : V m c main_arg0 = m ((c : Thread nD τ).loc main_arg0) := rfl
theorem V_main_arg2 (c : Dev nD) : V m c main_arg2 = m ((c : Thread nD τ).loc main_arg2) := rfl

/-! ## The blocks a point reads -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of `x`'s window holds the point's block of `x`, fetched there or not. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of `W1`'s window holds the point's block of `W1`, fetched there or not. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, as facts about the reduction step `t % 8` -/

/-- "This is reduction step 0": the accumulator is zeroed. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is reduction step 7": the accumulator is copied to the output block. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_x : ∀ t : Fin cfg0.N, cfg0.idle 0 (grid0.coords t) = false := by decide +kernel
theorem live_w : ∀ t : Fin cfg0.N, cfg0.idle 1 (grid0.coords t) = false := by decide +kernel
/-- Before the last step the output window is idle (nothing is stored into it) and is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At the last step it is live. -/
theorem live_out : ∀ t : Fin cfg0.N, isLast (grid0.coords t) → cfg0.idle 2 (grid0.coords t) = false := by decide +kernel

/-! ## The memrefs the body is called with -/

/-- One staging buffer of the output window, through which its contents are stated. -/
abbrev VOut : View sig .tc .vmem S1024x50 .f32 := (Memref.whole cc0_stg2_0 : Memref sig .tc .vmem S1024x50 .f32).view
abbrev msX (t : Fin cfg0.N) : Memref sig .tc .vmem S1024x2048 .f32 := win0_0.stage (cfg0.slots t 0)
abbrev hsX (t : Fin cfg0.N) : (msX t).IsWhole := hstage0_0 ((cfg0.slots t 0).cast nbuf0_0)
abbrev msW (t : Fin cfg0.N) : Memref sig .tc .vmem S2048x50 .f32 := win0_1.stage (cfg0.slots t 1)
abbrev hsW (t : Fin cfg0.N) : (msW t).IsWhole := hstage0_1 ((cfg0.slots t 1).cast nbuf0_1)
abbrev msO (t : Fin cfg0.N) : Memref sig .tc .vmem S1024x50 .f32 := win0_2.stage (cfg0.slots t 2)
abbrev hsO (t : Fin cfg0.N) : (msO t).IsWhole := hstage0_2 ((cfg0.slots t 2).cast nbuf0_2)
/-- The accumulator: a whole scoped buffer of the kernel's own. -/
abbrev accM : Memref sig .tc .vmem S1024x50 .f32 := Memref.whole cc0_scratch0
abbrev VAcc : View sig .tc .vmem S1024x50 .f32 := accM.view

/-- What the region's invariant holds besides the windows: the accumulator at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Accum

end
-- ==== Proof.IdealRunFirst.lean ====
/-
  The body at reduction step 0 of a row block: the accumulator, whatever it held, is overwritten by zero and then by
  `0 + x_blk · w_blk`; the output window's buffer is not touched. The stores are found by running the body; the
  accumulator's pieces are this run's witness.
-/
import proofs.«107587_j14465449853013_1_alg».proof.Proof.IdealShared

set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFirst (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : isFirst i) (hc1 : ¬isLast i)
    (x0 : Vec F S1024x2048 .f32) (x1 : Vec F S2048x50 .f32) :
    { LS : List (View.Piece (Elt F) S1024x50 .f32) //
      ∀ (xi : Vec F S1024x50 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, fun xi E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Accum

end
-- ==== Proof.IdealRunMiddle.lean ====
/-
  The body at a reduction step 1 … 6: the accumulator, holding `xs`, is overwritten by `xs + x_blk · w_blk`;
  the output window's buffer is not touched.
-/
import proofs.«107587_j14465449853013_1_alg».proof.Proof.IdealRunFirst

set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runMiddle (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : ¬isLast i)
    (x0 : Vec F S1024x2048 .f32) (x1 : Vec F S2048x50 .f32) (xs : Vec F S1024x50 .f32) :
    { LS : List (View.Piece (Elt F) S1024x50 .f32) //
      ∀ (xi : Vec F S1024x50 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, fun xi E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Accum

end
-- ==== Proof.IdealRunLast.lean ====
/-
  The body at reduction step 7: the accumulator, holding `xs`, is overwritten by `xs + x_blk · w_blk`, and what it
  then holds is stored into the output window's buffer (whatever that held).
-/
import proofs.«107587_j14465449853013_1_alg».proof.Proof.IdealRunMiddle

set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runLast (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i)
    (x0 : Vec F S1024x2048 .f32) (x1 : Vec F S2048x50 .f32) (xs : Vec F S1024x50 .f32) :
    Σ' (LO : List (View.Piece (Elt F) S1024x50 .f32)), { LS : List (View.Piece (Elt F) S1024x50 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Accum

end
-- ==== Proof.IdealBody.lean ====
/-
  The frame of the blocked matrix product followed by its host operations. Point `t` of the 16 × 8 grid is row block
  `t / 8` at reduction step `t % 8`. After point `t` the accumulator holds what the step's run leaves in it — at step 0
  computed from the point's blocks alone, at a later step from the blocks and what the point before left — and the
  output window's buffer holds, at step 7, a copy of the accumulator; before step 7 it is idle and nothing is said of it.
  The region's invariant carries the accumulator at exactly these contents from one point to the next. With this proof
  data every point's body meets its obligation, so the program runs to the end: the arrays the pipeline stages end at
  what the write-backs leave, and every other buffer at what the host operations after the region compute.
-/
import proofs.«107587_j14465449853013_1_alg».proof.Proof.IdealRunLast

set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each step's run leaves -/

theorem coverFirst (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : isFirst i) (hc1 : ¬isLast i) (x0 : Vec F S1024x2048 .f32) (x1 : Vec F S2048x50 .f32) (y : S1024x50.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x50.size (by sl_kernel_rfl) y

/-- The accumulator after step 0. -/
def accFirst (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : isFirst i) (hc1 : ¬isLast i) (x0 : Vec F S1024x2048 .f32) (x1 : Vec F S2048x50 .f32) : Vec F S1024x50 .f32 :=
  VAcc.read (Elt F) (VAcc.writes (Elt F) VAcc.junk (runFirst c i arg2 harg2 arg3 harg3 arg4 harg4 arg5 harg5 hc0 hc1 x0 x1).1)

theorem coverMiddle (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : ¬isLast i) (x0 : Vec F S1024x2048 .f32) (x1 : Vec F S2048x50 .f32) (xs : Vec F S1024x50 .f32) (y : S1024x50.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S1024x50.size (by sl_kernel_rfl) y

/-- The accumulator after a step 1 … 6, from what the point before left in it. -/
def accMiddle (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : ¬isLast i) (x0 : Vec F S1024x2048 .f32) (x1 : Vec F S2048x50 .f32) (xs : Vec F S1024x50 .f32) : Vec F S1024x50 .f32 :=
  VAcc.read (Elt F) (VAcc.writes (Elt F) VAcc.junk (runMiddle c i arg2 harg2 arg3 harg3 arg4 harg4 arg5 harg5 hc0 hc1 x0 x1 xs).1)

theorem coverLastOut (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i) (x0 : Vec F S1024x2048 .f32) (x1 : Vec F S2048x50 .f32) (xs : Vec F S1024x50 .f32) (y : S1024x50.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x50.size (by sl_kernel_rfl) y

/-- The output window's buffer after step 7. -/
def outLast (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i) (x0 : Vec F S1024x2048 .f32) (x1 : Vec F S2048x50 .f32) (xs : Vec F S1024x50 .f32) : Vec F S1024x50 .f32 :=
  VOut.read (Elt F) (VOut.writes (Elt F) VOut.junk (runLast c i arg2 harg2 arg3 harg3 arg4 harg4 arg5 harg5 hc0 hc1 x0 x1 xs).1)

theorem coverLastAcc (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i) (x0 : Vec F S1024x2048 .f32) (x1 : Vec F S2048x50 .f32) (xs : Vec F S1024x50 .f32) (y : S1024x50.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x50.size (by sl_kernel_rfl) y

/-- The accumulator after step 7. -/
def accLast (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i) (x0 : Vec F S1024x2048 .f32) (x1 : Vec F S2048x50 .f32) (xs : Vec F S1024x50 .f32) : Vec F S1024x50 .f32 :=
  VAcc.read (Elt F) (VAcc.writes (Elt F) VAcc.junk (runLast c i arg2 harg2 arg3 harg3 arg4 harg4 arg5 harg5 hc0 hc1 x0 x1 xs).2.1)

/-- What the output window's buffer is said to hold where it is idle: nothing reads this. -/
def idleOut : Vec F S1024x50 .f32 := VOut.read (Elt F) VOut.junk

/-! ## Point by point -/

/-- After point `n`: the output window's buffer, and the accumulator. -/
def outsAt (c : Dev nD) : (n : ℕ) → n < cfg0.N → Vec F S1024x50 .f32 × Vec F S1024x50 .f32
  | 0, hn => (idleOut, accFirst c (grid0.coords ⟨0, hn⟩) (msX ⟨0, hn⟩) (hsX ⟨0, hn⟩) (msW ⟨0, hn⟩) (hsW ⟨0, hn⟩) (msO ⟨0, hn⟩) (hsO ⟨0, hn⟩) accM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩))
  | n + 1, hn =>
    if h0 : (n + 1) % 8 = 0 then
      if h1 : (n + 1) % 8 = 7 then False.elim (by omega)
      else (idleOut, accFirst c (grid0.coords ⟨n + 1, hn⟩) (msX ⟨n + 1, hn⟩) (hsX ⟨n + 1, hn⟩) (msW ⟨n + 1, hn⟩) (hsW ⟨n + 1, hn⟩) (msO ⟨n + 1, hn⟩) (hsO ⟨n + 1, hn⟩) accM (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩))
    else
      if h1 : (n + 1) % 8 = 7 then
        (outLast c (grid0.coords ⟨n + 1, hn⟩) (msX ⟨n + 1, hn⟩) (hsX ⟨n + 1, hn⟩) (msW ⟨n + 1, hn⟩) (hsW ⟨n + 1, hn⟩) (msO ⟨n + 1, hn⟩) (hsO ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2,
         accLast c (grid0.coords ⟨n + 1, hn⟩) (msX ⟨n + 1, hn⟩) (hsX ⟨n + 1, hn⟩) (msW ⟨n + 1, hn⟩) (hsW ⟨n + 1, hn⟩) (msO ⟨n + 1, hn⟩) (hsO ⟨n + 1, hn⟩) accM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2)
      else
        (idleOut, accMiddle c (grid0.coords ⟨n + 1, hn⟩) (msX ⟨n + 1, hn⟩) (hsX ⟨n + 1, hn⟩) (msW ⟨n + 1, hn⟩) (hsW ⟨n + 1, hn⟩) (msO ⟨n + 1, hn⟩) (hsO ⟨n + 1, hn⟩) accM (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (outsAt c n (Nat.lt_of_succ_lt hn)).2)

theorem outsAt_first (c : Dev nD) (t : Fin cfg0.N) (h0 : t.val % 8 = 0) (h1 : ¬t.val % 8 = 7) :
    outsAt m c t.val t.isLt = (idleOut, accFirst c (grid0.coords t) (msX t) (hsX t) (msW t) (hsW t) (msO t) (hsO t) accM (Memref.isWhole_whole _) ((isFirst_iff t).mpr h0) (fun h => h1 ((isLast_iff t).mp h)) (iblk m c 0 t) (iblk m c 1 t)) := by
  obtain ⟨n, hn⟩ := t
  cases n with
  | zero => exact rfl
  | succ n => exact (dif_pos h0).trans ((dif_neg h1).trans rfl)

theorem outsAt_middle (c : Dev nD) (t : Fin cfg0.N) (h0 : ¬t.val % 8 = 0) (h1 : ¬t.val % 8 = 7) :
    outsAt m c t.val t.isLt = (idleOut, accMiddle c (grid0.coords t) (msX t) (hsX t) (msW t) (hsW t) (msO t) (hsO t) accM (Memref.isWhole_whole _) (fun h => h0 ((isFirst_iff t).mp h)) (fun h => h1 ((isLast_iff t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (msX t) (hsX t) (msW t) (hsW t) (msO t) (hsO t) accM (Memref.isWhole_whole _) (fun h => h0 ((isFirst_iff t).mp h)) ((isLast_iff t).mpr h1) (iblk m c 0 t) (iblk m c 1 t) (outsAt m c (t.val - 1) (Nat.lt_of_le_of_lt (Nat.sub_le _ _) t.isLt)).2,
      accLast c (grid0.coords t) (msX t) (hsX t) (msW t) (hsW t) (msO t) (hsO t) accM (Memref.isWhole_whole _) (fun h => h0 ((isFirst_iff t).mp h)) ((isLast_iff t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards
    what the point before left in it. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_out (c : Dev nD) (t : Fin cfg0.N) : (dats m 0 c).after 2 t = (outsAt m c t.val t.isLt).1 := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msX t) fullShare ((dats m 0 c).before 0 t d))
    ∗ (∃ d, owns (c : Thread nD τ) (msW t) fullShare ((dats m 0 c).before 1 t d))
    ∗ (∃ d, owns (c : Thread nD τ) (msO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- At every point the body, called on the point's blocks and the accumulator as the invariant holds it, returns the
    blocks as they were, the accumulator at this point's contents, and the output buffer untouched (before step 7) or at
    the accumulator's copy (at step 7). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (msX t) fullShare ((dats m 0 c).after 0 t) from by
    unfold Dat.leavesExact; rw [live_x t], after_x]
  rw [show (dats m 0 c).leavesExact 1 t = owns (c : Thread nD τ) (msW t) fullShare ((dats m 0 c).after 1 t) from by
    unfold Dat.leavesExact; rw [live_w t], after_w]
  by_cases h0 : t.val % 8 = 0
  · by_cases h1 : t.val % 8 = 7
    · exfalso; omega
    · rw [Dat.leavesExact_idle (dats m 0 c) 2 t (idle_out t (fun h => h1 ((isLast_iff t).mp h))) (noFlush_out t (fun h => h1 ((isLast_iff t).mp h)))]
      rw [outsAt_first m c t h0 h1]
      unfold accFirst; (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩⟩
        iapply ((runFirst c (grid0.coords t) _ _ _ _ _ _ _ _ ((isFirst_iff t).mpr h0) (fun h => h1 ((isLast_iff t).mp h)) (iblk m c 0 t) (iblk m c 1 t)).2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS, Hg⟩, Ho, ⟨%d0, H0⟩, ⟨%d1, H1⟩, ⟨%d2, H2⟩⟩
        iapply ((runFirst c (grid0.coords t) _ _ _ _ _ _ _ _ ((isFirst_iff t).mpr h0) (fun h => h1 ((isLast_iff t).mp h)) (iblk m c 0 t) (iblk m c 1 t)).2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dats m 0 c).leavesExact 2 t = owns (c : Thread nD τ) (msO t) fullShare ((dats m 0 c).after 2 t) from by
        unfold Dat.leavesExact; rw [live_out t ((isLast_iff t).mpr h1)], after_out]
      rw [outsAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · rw [Dat.leavesExact_idle (dats m 0 c) 2 t (idle_out t (fun h => h1 ((isLast_iff t).mp h))) (noFlush_out t (fun h => h1 ((isLast_iff t).mp h)))]
      rw [outsAt_middle m c t h0 h1]
      unfold accMiddle; (try dsimp only)
      rw [PhiS_castSucc m c t, PhiS_pos m c _ _ hz]
      iintro ⟨⟨HS, Hg⟩, Ho, ⟨%d0, H0⟩, ⟨%d1, H1⟩, ⟨%d2, H2⟩⟩
      iapply ((runMiddle c (grid0.coords t) _ _ _ _ _ _ _ _ (fun h => h0 ((isFirst_iff t).mp h)) (fun h => h1 ((isLast_iff t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMiddle c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Accum

end
-- ==== Proof.TailKeep.lean ====
import proofs.«107587_j14465449853013_1_alg».proof.Proof.Gen.KernelIdeal.Launch
import Idealize.ShloMosaic.Lib.Pipeline.FrameSuffix

/-!
Bookkeeping for the 125 host operations that follow the matrix-product region: they are five
straight stretches of operations; each operation allocates nothing and writes exactly its own
result buffer, and no result buffer is one of the eight arguments or the product's buffer. So
those nine buffers hold after the stretches what they held before.
-/

noncomputable section

namespace Cert.KernelIdeal.Tail

open Idealize.ShloMosaic Idealize.ShloMosaic.TcCoe Idealize.SL.Sem
open Cert.KernelIdeal Cert.KernelIdeal.Gen

variable {F : FTy → Type} [FloatOps F]

/-- The five stretches of host operations after the region, in order. -/
abbrev stretches : List (List (HloOp τ sig (Elt F))) :=
  [hostOps1, hostOps1_1, hostOps1_2, hostOps1_3, hostOps1_4]

/-- Every operation touches TensorCore references only. -/
theorem stretches_sub :
    (stretches (F := F)).Forall fun ops => ops.Forall fun op => op.bufs ⊆ StableHlo.tcRefs τ sig :=
  ⟨hostOps1_sub, hostOps1_1_sub, hostOps1_2_sub, hostOps1_3_sub, hostOps1_4_sub⟩

/-! ## No operation allocates -/

theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl⟩

theorem hostOps1_1_fresh : (hostOps1_1 : List (HloOp τ sig (Elt F))).Forall fun op => op.fresh = ∅ :=
  ⟨rfl, rfl, rfl⟩

theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl⟩

theorem hostOps1_3_fresh : (hostOps1_3 : List (HloOp τ sig (Elt F))).Forall fun op => op.fresh = ∅ :=
  ⟨rfl, rfl, rfl⟩

theorem hostOps1_4_fresh : (hostOps1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl⟩

/-- No operation of the stretches allocates. -/
theorem stretches_fresh : ∀ ops ∈ (stretches (F := F)), ∀ op ∈ ops, op.fresh = ∅ := by
  intro ops hops
  simp only [List.mem_cons, List.mem_nil_iff, or_false] at hops
  rcases hops with rfl | rfl | rfl | rfl | rfl
  · exact List.forall_iff_forall_mem.mp hostOps1_fresh
  · exact List.forall_iff_forall_mem.mp hostOps1_1_fresh
  · exact List.forall_iff_forall_mem.mp hostOps1_2_fresh
  · exact List.forall_iff_forall_mem.mp hostOps1_3_fresh
  · exact List.forall_iff_forall_mem.mp hostOps1_4_fresh

/-! ## What the operations write -/

/-- The result buffers of the 125 operations, in order. -/
abbrev W : List (Ref sig .tc) :=
  [main_v1, main_v2, main_v3, main_v4, main_v5, main_v6, main_v7, main_cst,
   main_v8, main_cst_0, main_v9, main_v10, main_v11, main_cst_1, main_v12, main_v13,
   main_v14, main_cst_2, main_call0_v0, main_call0_v1, main_v15, main_c, main_v16, main_v17,
   main_c_3, main_v18, main_v19, main_v20, main_v21, main_v22, main_c_4, main_v23,
   main_v24, main_c_5, main_v25, main_v26, main_v27, main_v28, main_v29, main_v30,
   main_c_6, main_v31, main_v32, main_c_7, main_v33, main_v34, main_v35, main_v36,
   main_v37, main_v38, main_v39, main_v40, main_cst_8, main_v41, main_v42, main_v43,
   main_v44, main_v45, main_v46, main_v47, main_v48, main_v49, main_v50, main_v51,
   main_v52, main_v53, main_v54, main_v55, main_cst_9, main_v56, main_cst_10, main_v57,
   main_v58, main_v59, main_cst_11, main_v60, main_v61, main_v62, main_cst_12, main_call1_v0,
   main_call1_v1, main_v63, main_c_13, main_v64, main_v65, main_c_14, main_v66, main_v67,
   main_v68, main_v69, main_v70, main_c_15, main_v71, main_v72, main_c_16, main_v73,
   main_v74, main_v75, main_v76, main_v77, main_v78, main_c_17, main_v79, main_v80,
   main_c_18, main_v81, main_v82, main_v83, main_v84, main_v85, main_v86, main_v87,
   main_v88, main_cst_19, main_v89, main_v90, main_v91, main_v92, main_v93, main_v94,
   main_v95, main_v96, main_v97, main_v98, main_v99]

/-- The buffers to be kept: the eight arguments and the product's buffer. -/
abbrev kept : List (Ref sig .tc) :=
  [main_arg0, main_arg1, main_arg2, main_arg3, main_arg4, main_arg5, main_arg6, main_arg7, main_v0]

/-- None of the kept buffers is a result buffer. -/
theorem kept_not_mem : ∀ r ∈ kept, r ∉ W := by decide

/-- An operation that writes exactly one result buffer of the list writes inside the list. -/
theorem writes_sub_of {op : HloOp τ sig (Elt F)} {y : Ref sig .tc}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

theorem hostOps1_writes : (hostOps1 : List (HloOp τ sig (Elt F))).Forall fun op =>
    op.writes ⊆ (W.map (Proc.devRef (τ := τ) .tc)).toFinset :=
  ⟨writes_sub_of (y := main_v1) rfl (by decide),
   writes_sub_of (y := main_v2) rfl (by decide),
   writes_sub_of (y := main_v3) rfl (by decide),
   writes_sub_of (y := main_v4) rfl (by decide),
   writes_sub_of (y := main_v5) rfl (by decide),
   writes_sub_of (y := main_v6) rfl (by decide),
   writes_sub_of (y := main_v7) rfl (by decide),
   writes_sub_of (y := main_cst) rfl (by decide),
   writes_sub_of (y := main_v8) rfl (by decide),
   writes_sub_of (y := main_cst_0) rfl (by decide),
   writes_sub_of (y := main_v9) rfl (by decide),
   writes_sub_of (y := main_v10) rfl (by decide),
   writes_sub_of (y := main_v11) rfl (by decide),
   writes_sub_of (y := main_cst_1) rfl (by decide),
   writes_sub_of (y := main_v12) rfl (by decide),
   writes_sub_of (y := main_v13) rfl (by decide),
   writes_sub_of (y := main_v14) rfl (by decide),
   writes_sub_of (y := main_cst_2) rfl (by decide)⟩

theorem hostOps1_1_writes : (hostOps1_1 : List (HloOp τ sig (Elt F))).Forall fun op =>
    op.writes ⊆ (W.map (Proc.devRef (τ := τ) .tc)).toFinset :=
  ⟨writes_sub_of (y := main_call0_v0) rfl (by decide),
   writes_sub_of (y := main_call0_v1) rfl (by decide),
   writes_sub_of (y := main_v15) rfl (by decide)⟩

theorem hostOps1_2_writes : (hostOps1_2 : List (HloOp τ sig (Elt F))).Forall fun op =>
    op.writes ⊆ (W.map (Proc.devRef (τ := τ) .tc)).toFinset :=
  ⟨writes_sub_of (y := main_c) rfl (by decide),
   writes_sub_of (y := main_v16) rfl (by decide),
   writes_sub_of (y := main_v17) rfl (by decide),
   writes_sub_of (y := main_c_3) rfl (by decide),
   writes_sub_of (y := main_v18) rfl (by decide),
   writes_sub_of (y := main_v19) rfl (by decide),
   writes_sub_of (y := main_v20) rfl (by decide),
   writes_sub_of (y := main_v21) rfl (by decide),
   writes_sub_of (y := main_v22) rfl (by decide),
   writes_sub_of (y := main_c_4) rfl (by decide),
   writes_sub_of (y := main_v23) rfl (by decide),
   writes_sub_of (y := main_v24) rfl (by decide),
   writes_sub_of (y := main_c_5) rfl (by decide),
   writes_sub_of (y := main_v25) rfl (by decide),
   writes_sub_of (y := main_v26) rfl (by decide),
   writes_sub_of (y := main_v27) rfl (by decide),
   writes_sub_of (y := main_v28) rfl (by decide),
   writes_sub_of (y := main_v29) rfl (by decide),
   writes_sub_of (y := main_v30) rfl (by decide),
   writes_sub_of (y := main_c_6) rfl (by decide),
   writes_sub_of (y := main_v31) rfl (by decide),
   writes_sub_of (y := main_v32) rfl (by decide),
   writes_sub_of (y := main_c_7) rfl (by decide),
   writes_sub_of (y := main_v33) rfl (by decide),
   writes_sub_of (y := main_v34) rfl (by decide),
   writes_sub_of (y := main_v35) rfl (by decide),
   writes_sub_of (y := main_v36) rfl (by decide),
   writes_sub_of (y := main_v37) rfl (by decide),
   writes_sub_of (y := main_v38) rfl (by decide),
   writes_sub_of (y := main_v39) rfl (by decide),
   writes_sub_of (y := main_v40) rfl (by decide),
   writes_sub_of (y := main_cst_8) rfl (by decide),
   writes_sub_of (y := main_v41) rfl (by decide),
   writes_sub_of (y := main_v42) rfl (by decide),
   writes_sub_of (y := main_v43) rfl (by decide),
   writes_sub_of (y := main_v44) rfl (by decide),
   writes_sub_of (y := main_v45) rfl (by decide),
   writes_sub_of (y := main_v46) rfl (by decide),
   writes_sub_of (y := main_v47) rfl (by decide),
   writes_sub_of (y := main_v48) rfl (by decide),
   writes_sub_of (y := main_v49) rfl (by decide),
   writes_sub_of (y := main_v50) rfl (by decide),
   writes_sub_of (y := main_v51) rfl (by decide),
   writes_sub_of (y := main_v52) rfl (by decide),
   writes_sub_of (y := main_v53) rfl (by decide),
   writes_sub_of (y := main_v54) rfl (by decide),
   writes_sub_of (y := main_v55) rfl (by decide),
   writes_sub_of (y := main_cst_9) rfl (by decide),
   writes_sub_of (y := main_v56) rfl (by decide),
   writes_sub_of (y := main_cst_10) rfl (by decide),
   writes_sub_of (y := main_v57) rfl (by decide),
   writes_sub_of (y := main_v58) rfl (by decide),
   writes_sub_of (y := main_v59) rfl (by decide),
   writes_sub_of (y := main_cst_11) rfl (by decide),
   writes_sub_of (y := main_v60) rfl (by decide),
   writes_sub_of (y := main_v61) rfl (by decide),
   writes_sub_of (y := main_v62) rfl (by decide),
   writes_sub_of (y := main_cst_12) rfl (by decide)⟩

theorem hostOps1_3_writes : (hostOps1_3 : List (HloOp τ sig (Elt F))).Forall fun op =>
    op.writes ⊆ (W.map (Proc.devRef (τ := τ) .tc)).toFinset :=
  ⟨writes_sub_of (y := main_call1_v0) rfl (by decide),
   writes_sub_of (y := main_call1_v1) rfl (by decide),
   writes_sub_of (y := main_v63) rfl (by decide)⟩

theorem hostOps1_4_writes : (hostOps1_4 : List (HloOp τ sig (Elt F))).Forall fun op =>
    op.writes ⊆ (W.map (Proc.devRef (τ := τ) .tc)).toFinset :=
  ⟨writes_sub_of (y := main_c_13) rfl (by decide),
   writes_sub_of (y := main_v64) rfl (by decide),
   writes_sub_of (y := main_v65) rfl (by decide),
   writes_sub_of (y := main_c_14) rfl (by decide),
   writes_sub_of (y := main_v66) rfl (by decide),
   writes_sub_of (y := main_v67) rfl (by decide),
   writes_sub_of (y := main_v68) rfl (by decide),
   writes_sub_of (y := main_v69) rfl (by decide),
   writes_sub_of (y := main_v70) rfl (by decide),
   writes_sub_of (y := main_c_15) rfl (by decide),
   writes_sub_of (y := main_v71) rfl (by decide),
   writes_sub_of (y := main_v72) rfl (by decide),
   writes_sub_of (y := main_c_16) rfl (by decide),
   writes_sub_of (y := main_v73) rfl (by decide),
   writes_sub_of (y := main_v74) rfl (by decide),
   writes_sub_of (y := main_v75) rfl (by decide),
   writes_sub_of (y := main_v76) rfl (by decide),
   writes_sub_of (y := main_v77) rfl (by decide),
   writes_sub_of (y := main_v78) rfl (by decide),
   writes_sub_of (y := main_c_17) rfl (by decide),
   writes_sub_of (y := main_v79) rfl (by decide),
   writes_sub_of (y := main_v80) rfl (by decide),
   writes_sub_of (y := main_c_18) rfl (by decide),
   writes_sub_of (y := main_v81) rfl (by decide),
   writes_sub_of (y := main_v82) rfl (by decide),
   writes_sub_of (y := main_v83) rfl (by decide),
   writes_sub_of (y := main_v84) rfl (by decide),
   writes_sub_of (y := main_v85) rfl (by decide),
   writes_sub_of (y := main_v86) rfl (by decide),
   writes_sub_of (y := main_v87) rfl (by decide),
   writes_sub_of (y := main_v88) rfl (by decide),
   writes_sub_of (y := main_cst_19) rfl (by decide),
   writes_sub_of (y := main_v89) rfl (by decide),
   writes_sub_of (y := main_v90) rfl (by decide),
   writes_sub_of (y := main_v91) rfl (by decide),
   writes_sub_of (y := main_v92) rfl (by decide),
   writes_sub_of (y := main_v93) rfl (by decide),
   writes_sub_of (y := main_v94) rfl (by decide),
   writes_sub_of (y := main_v95) rfl (by decide),
   writes_sub_of (y := main_v96) rfl (by decide),
   writes_sub_of (y := main_v97) rfl (by decide),
   writes_sub_of (y := main_v98) rfl (by decide),
   writes_sub_of (y := main_v99) rfl (by decide)⟩

/-- Every operation of the stretches writes inside the list of result buffers. -/
theorem stretches_writes : ∀ ops ∈ (stretches (F := F)), ∀ op ∈ ops,
    op.writes ⊆ (W.map (Proc.devRef (τ := τ) .tc)).toFinset := by
  intro ops hops
  simp only [List.mem_cons, List.mem_nil_iff, or_false] at hops
  rcases hops with rfl | rfl | rfl | rfl | rfl
  · exact List.forall_iff_forall_mem.mp hostOps1_writes
  · exact List.forall_iff_forall_mem.mp hostOps1_1_writes
  · exact List.forall_iff_forall_mem.mp hostOps1_2_writes
  · exact List.forall_iff_forall_mem.mp hostOps1_3_writes
  · exact List.forall_iff_forall_mem.mp hostOps1_4_writes

/-- No operation of the stretches writes a kept buffer. -/
theorem stretches_keep : ∀ ops ∈ (stretches (F := F)), ∀ op ∈ ops, ∀ r ∈ kept,
    Proc.devRef (τ := τ) .tc r ∉ op.writes := by
  intro ops hops op hop r hr hw
  obtain ⟨y, hy, he⟩ := List.mem_map.mp (List.mem_toFinset.mp (stretches_writes ops hops op hop hw))
  exact kept_not_mem r hr (Proc.devRef_injective _ he ▸ hy)

/-- A kept buffer holds after the five stretches what it held before them. -/
theorem after_kept (V : Valuation τ sig (Elt F)) (r : Ref sig .tc) (hr : r ∈ kept) :
    StableHlo.after (stretches (F := F)).flatten V (Proc.devRef .tc r) = V (Proc.devRef .tc r) :=
  StableHlo.after_of_writes_sub _ V
    (List.forall_iff_forall_mem.mpr fun op hop => by
      obtain ⟨ops, hops, hop'⟩ := List.mem_flatten.mp hop
      exact stretches_writes ops hops op hop')
    (kept_not_mem r hr)

end Cert.KernelIdeal.Tail
-- ==== Proof.IdealFrame.lean ====
/-
  The run of the blocked matrix product followed by its host operations: every point's body meets its obligation
  (the module before this one), the host operations after the region touch no array the pipeline stages and allocate
  nothing, so the program runs to the end — the staged arrays end at what the write-backs leave, every other buffer at
  what the host operations compute from there — and in particular the eight argument arrays end unchanged.
-/
import proofs.«107587_j14465449853013_1_alg».proof.Proof.IdealBody
import proofs.«107587_j14465449853013_1_alg».proof.Proof.TailKeep

set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region -/

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp Cert.KernelIdeal.Tail.stretches_sub) ops hops)) op hop)

theorem sfx_fresh : ∀ ops ∈ (tailOps : List (List (HloOp τ sig (Elt F)))), ∀ op ∈ ops, op.fresh = ∅ :=
  Cert.KernelIdeal.Tail.stretches_fresh

theorem sfx_keeps : ∀ ops ∈ (tailOps : List (List (HloOp τ sig (Elt F)))), ∀ op ∈ ops,
    ∀ w, Proc.devRef .tc (Pipeline.arrRef spec0 w) ∉ op.writes := by
  intro ops hops op hop w
  refine Cert.KernelIdeal.Tail.stretches_keep ops hops op hop (Pipeline.arrRef spec0 w) ?_
  fin_cases w <;> decide

/-! ## The run -/

set_option backward.isDefEq.respectTransparency.types false in
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-! ## The argument arrays end unchanged -/

/-- A buffer the host operations after the region do not write, and the pipeline does not stage, ends at its launch contents. -/
theorem tail_kept (c : Dev nD) (r : Ref sig .tc) (hr : r ∈ Cert.KernelIdeal.Tail.kept) (hne : ∀ w, Pipeline.arrRef spec0 w ≠ r) :
    Pipeline.afterTail₀ cfgs (dats m) 0 (V0 m) tailOps c r = m ((c : Thread nD τ).loc r) := by
  unfold Pipeline.afterTail₀
  rw [Cert.KernelIdeal.Tail.after_kept _ r hr, Pipeline.withArrays_of_ne _ c _ _ r hne]
  rfl

theorem rest_mem (r : Ref sig .tc) (hs : r.isScoped = false) (hne : ∀ w, Pipeline.arrRef spec0 w ≠ r) :
    r ∈ Pipeline.restRefs sig (cfgs 0).spec :=
  Pipeline.mem_restRefs_of r hs hne

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats m 0 c).arrAt_in 0 rfl _).trans ((A_eq m c 0).trans (V_main_arg0 m c))),
    ((h c).2 main_arg1 (rest_mem main_arg1 rfl (by intro w; fin_cases w <;> decide))).trans (tail_kept m c main_arg1 (by decide) (by intro w; fin_cases w <;> decide)),
    ((h c).1 1).trans (((dats m 0 c).arrAt_in 1 rfl _).trans ((A_eq m c 1).trans (V_main_arg2 m c))),
    ((h c).2 main_arg3 (rest_mem main_arg3 rfl (by intro w; fin_cases w <;> decide))).trans (tail_kept m c main_arg3 (by decide) (by intro w; fin_cases w <;> decide)),
    ((h c).2 main_arg4 (rest_mem main_arg4 rfl (by intro w; fin_cases w <;> decide))).trans (tail_kept m c main_arg4 (by decide) (by intro w; fin_cases w <;> decide)),
    ((h c).2 main_arg5 (rest_mem main_arg5 rfl (by intro w; fin_cases w <;> decide))).trans (tail_kept m c main_arg5 (by decide) (by intro w; fin_cases w <;> decide)),
    ((h c).2 main_arg6 (rest_mem main_arg6 rfl (by intro w; fin_cases w <;> decide))).trans (tail_kept m c main_arg6 (by decide) (by intro w; fin_cases w <;> decide)),
    ((h c).2 main_arg7 (rest_mem main_arg7 rfl (by intro w; fin_cases w <;> decide))).trans (tail_kept m c main_arg7 (by decide) (by intro w; fin_cases w <;> decide))⟩) (run_main m ρ)

end Cert.KernelIdeal.Accum

end
-- ==== Proof.BlockPayload.lean ====
import proofs.«107587_j14465449853013_1_alg».proof.Proof.Gen.KernelIdeal.Skeleton
import Idealize.ShloMosaic.PureOps.Ideal.Laws
import Idealize.ShloMosaic.Lib.ValueIdx
import Idealize.ShloMosaic.Lib.Pipeline.Value

/-!
The two values the kernel body stores into its accumulator block, read at one element, over the
extended reals: the zero fill, and the old accumulator plus one block product
`∑ q, A (r, q) * B (q, c)`.
-/

noncomputable section

namespace Cert.KernelIdeal.BlockPayload

open Idealize.ShloMosaic Idealize.ShloMosaic.TcCoe Idealize.SL.Sem
open Cert.KernelIdeal Cert.KernelIdeal.Gen Idealize.ShloMosaic.ValueIdx

/-- The zero fill is zero at every element. -/
theorem pay1_apply (r : Fin 1024) (c : Fin 50) : k0_pay1 (F := Ideal) (ix2 r c) = 0 := by
  simp only [k0_pay1, shapeCast_self]
  exact Ideal.ofBits_zero_f32

/-- The left operand's index of the block product at output `(r, c)` and contraction position `q`
is `(r, q)`. -/
theorem lhsIdx_eq (r : Fin 1024) (c : Fin 50) (q : Fin 2048) :
    dot_S1024x2048_S2048x50_S1024x50_1_0_0_1_n_n.lhsIdx (ix2 r c)
      ((contrEquiv1 dot_S1024x2048_S2048x50_S1024x50_1_0_0_1_n_n 2048 rfl rfl).symm q) = ix2 r q := by
  have c2 := contrEquiv1_symm_val dot_S1024x2048_S2048x50_S1024x50_1_0_0_1_n_n 2048 rfl rfl q
  funext ax; apply Fin.ext
  match ax with
  | ⟨0, _⟩ => simp [DotDims.lhsIdx, dot_S1024x2048_S2048x50_S1024x50_1_0_0_1_n_n]; rfl
  | ⟨1, _⟩ => simp [DotDims.lhsIdx, dot_S1024x2048_S2048x50_S1024x50_1_0_0_1_n_n]; exact c2

/-- The right operand's index there is `(q, c)`. -/
theorem rhsIdx_eq (r : Fin 1024) (c : Fin 50) (q : Fin 2048) :
    dot_S1024x2048_S2048x50_S1024x50_1_0_0_1_n_n.rhsIdx (ix2 r c)
      ((contrEquiv1 dot_S1024x2048_S2048x50_S1024x50_1_0_0_1_n_n 2048 rfl rfl).symm q) = ix2 q c := by
  have c2 := contrEquiv1_symm_val dot_S1024x2048_S2048x50_S1024x50_1_0_0_1_n_n 2048 rfl rfl q
  funext ax; apply Fin.ext
  match ax with
  | ⟨0, _⟩ => simp [DotDims.rhsIdx, dot_S1024x2048_S2048x50_S1024x50_1_0_0_1_n_n]; exact c2
  | ⟨1, _⟩ => simp [DotDims.rhsIdx, dot_S1024x2048_S2048x50_S1024x50_1_0_0_1_n_n]; rfl

/-- The accumulated value at an element: the old accumulator there plus the block product. -/
theorem pay2_apply (v3 : Vec Ideal S1024x50 .f32) (v4 : Vec Ideal S1024x2048 .f32)
    (v5 : Vec Ideal S2048x50 .f32) (r : Fin 1024) (c : Fin 50) :
    k0_pay2 (F := Ideal) v3 v4 v5 (ix2 r c)
      = v3 (ix2 r c) + ∑ q : Fin 2048, v4 (ix2 r q) * v5 (ix2 q c) := by
  simp only [k0_pay2, shapeCast_self]
  rw [addf_apply]
  refine congrArg (v3 (ix2 r c) + ·) ?_
  show FloatOps.matmul dot_S1024x2048_S2048x50_S1024x50_1_0_0_1_n_n (some .fp32) v4 v5
      (constant (F := Ideal) S1024x50 .f32 0x00000000#32) (ix2 r c) = _
  rw [Ideal.matmul_constant_zero_apply,
    ← Equiv.sum_comp (contrEquiv1 dot_S1024x2048_S2048x50_S1024x50_1_0_0_1_n_n 2048 rfl rfl).symm]
  refine Finset.sum_congr rfl fun q _ => ?_
  rw [lhsIdx_eq, rhsIdx_eq]

end Cert.KernelIdeal.BlockPayload
-- ==== Proof.BlockSum.lean ====
import Mathlib.Data.EReal.Basic
import Mathlib.Algebra.BigOperators.Fin
import Mathlib.Logic.Equiv.Fin.Basic

/-!
Sums over the extended reals regrouped by blocks.

Only associativity and commutativity of addition are used (the extended reals are an additive
commutative monoid), so nothing about finiteness of the summands is assumed.
-/

noncomputable section

namespace Cert.BlockSum

open Finset

/-- What a zeroed accumulator holds after the block sums `s 0, …, s n` have been added in order. -/
def acc (s : ℕ → EReal) : ℕ → EReal
  | 0 => 0 + s 0
  | n + 1 => acc s n + s (n + 1)

@[simp] theorem acc_zero (s : ℕ → EReal) : acc s 0 = 0 + s 0 := rfl

@[simp] theorem acc_succ (s : ℕ → EReal) (n : ℕ) : acc s (n + 1) = acc s n + s (n + 1) := rfl

/-- The accumulator is the sum of the block sums added so far. -/
theorem acc_eq_sum (s : ℕ → EReal) (n : ℕ) : acc s n = ∑ k ∈ Finset.range (n + 1), s k := by
  induction n with
  | zero => rw [acc_zero, zero_add, Finset.sum_range_one]
  | succ n ih => rw [acc_succ, ih, Finset.sum_range_succ _ (n + 1)]

/-- The sum of block `kb` of a family of 16384 terms cut into 8 blocks of 2048 (zero outside the
eight blocks). -/
def blk (f : Fin 16384 → EReal) (kb : ℕ) : EReal :=
  if h : kb < 8 then ∑ q : Fin 2048, f ⟨kb * 2048 + q.val, by omega⟩ else 0

theorem blk_of_lt (f : Fin 16384 → EReal) (kb : ℕ) (h : kb < 8) :
    blk f kb = ∑ q : Fin 2048, f ⟨kb * 2048 + q.val, by omega⟩ := by
  rw [blk, dif_pos h]

/-- Regrouping 16384 terms as 8 blocks of 2048, the blocks indexed by `Fin 8`. -/
theorem sum_blocks_fin (f : Fin 16384 → EReal) :
    (∑ kb : Fin 8, ∑ q : Fin 2048, f ⟨kb.val * 2048 + q.val, by omega⟩) = ∑ k : Fin 16384, f k := by
  let e : Fin 8 × Fin 2048 ≃ Fin 16384 := finProdFinEquiv
  rw [← Equiv.sum_comp e f, Fintype.sum_prod_type]
  refine Finset.sum_congr rfl fun kb _ => Finset.sum_congr rfl fun q _ => ?_
  congr 1
  apply Fin.ext
  show kb.val * 2048 + q.val = q.val + 2048 * kb.val
  omega

/-- Regrouping 16384 terms as 8 blocks of 2048, the blocks indexed by the naturals below 8. -/
theorem sum_blocks (f : Fin 16384 → EReal) :
    (∑ kb ∈ Finset.range 8, blk f kb) = ∑ k : Fin 16384, f k := by
  rw [← sum_blocks_fin f, Finset.sum_range]
  exact Finset.sum_congr rfl fun kb _ => blk_of_lt f kb.val kb.isLt

/-- A zeroed accumulator that has received the eight block sums in order holds the whole sum. -/
theorem acc_blocks (f : Fin 16384 → EReal) :
    acc (fun kb => if h : kb < 8 then ∑ q : Fin 2048, f ⟨kb * 2048 + q.val, by omega⟩ else 0) 7
      = ∑ k : Fin 16384, f k := by
  rw [acc_eq_sum]
  exact sum_blocks f

end Cert.BlockSum
-- ==== Proof.IdealValue.lean ====
/-
  The value of the blocked matrix product at the ideal instance. At every grid point the body's one covering store
  into the accumulator is `acc + x_blk · w_blk` (at reduction step 0 over a freshly stored zero), so after point `t` —
  row block `t / 8`, step `t % 8` — the accumulator's entry `(r, c)` is the zeroed running sum
  `0 + s 0 + … + s (t % 8)` of the block sums `s kb = ∑ q < 2048, x (1024·(t/8) + r, 2048·kb + q) · w (2048·kb + q, c)`
  (induction on the point). Step 7 copies the accumulator to the output block, and eight block sums of 2048 terms are
  the whole sum of 16384 terms; the row blocks tile the output, so the result array is the whole product
  `∑ k, x (p, k) · w (k, c)`, index by index.
-/
import proofs.«107587_j14465449853013_1_alg».proof.Proof.IdealBody
import proofs.«107587_j14465449853013_1_alg».proof.Proof.BlockPayload
import proofs.«107587_j14465449853013_1_alg».proof.Proof.BlockSum
import Idealize.ShloMosaic.Lib.Pipeline.Value
import Idealize.ShloMosaic.Lib.ValueIdx

set_option maxRecDepth 16384

noncomputable section

namespace Cert.KernelIdeal.Accum

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## What each step's stores amount to -/

/-- Step 0: the zero block is stored, read back, and `0 + x_blk · w_blk` stored over it. -/
theorem accFirst_eq (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : isFirst i) (hc1 : ¬isLast i) (x0 : Vec F S1024x2048 .f32) (x1 : Vec F S2048x50 .f32) :
    accFirst c i arg2 harg2 arg3 harg3 arg4 harg4 arg5 harg5 hc0 hc1 x0 x1 = k0_pay2 (k0_pay1 (F := F)) x0 x1 := by
  unfold accFirst
  rw [View.read_writes_eq_canon _ _ _ (coverFirst c i arg2 harg2 arg3 harg3 arg4 harg4 arg5 harg5 hc0 hc1 x0 x1)]
  unfold runFirst
  dsimp only
  sl_unfold_words
  rw [View.canon_cons_unit_zero (S := S1024x50) hz, View.readCov_unit_zero (S := S1024x50) _ hz]
  simp only [View.readAt_eq_ld, harg2.read_unread, harg3.read_unread, View.ld_unit_zero (S := S1024x2048) hz, View.ld_unit_zero (S := S2048x50) hz]

/-- Steps 1 … 6: `acc + x_blk · w_blk` is stored over the accumulator. -/
theorem accMiddle_eq (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : ¬isLast i) (x0 : Vec F S1024x2048 .f32) (x1 : Vec F S2048x50 .f32) (xs : Vec F S1024x50 .f32) :
    accMiddle c i arg2 harg2 arg3 harg3 arg4 harg4 arg5 harg5 hc0 hc1 x0 x1 xs = k0_pay2 xs x0 x1 := by
  unfold accMiddle
  rw [View.read_writes_eq_canon _ _ _ (coverMiddle c i arg2 harg2 arg3 harg3 arg4 harg4 arg5 harg5 hc0 hc1 x0 x1 xs)]
  unfold runMiddle
  dsimp only
  rw [View.canon_unit_zero hz]
  simp only [View.readAt_eq_ld, harg2.read_unread, harg3.read_unread, harg5.read_unread, View.ld_unit_zero (S := S1024x2048) hz, View.ld_unit_zero (S := S2048x50) hz, View.ld_unit_zero (S := S1024x50) hz]

/-- Step 7: the same store into the accumulator … -/
theorem accLast_eq (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i) (x0 : Vec F S1024x2048 .f32) (x1 : Vec F S2048x50 .f32) (xs : Vec F S1024x50 .f32) :
    accLast c i arg2 harg2 arg3 harg3 arg4 harg4 arg5 harg5 hc0 hc1 x0 x1 xs = k0_pay2 xs x0 x1 := by
  unfold accLast
  rw [View.read_writes_eq_canon _ _ _ (coverLastAcc c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S1024x2048) hz, View.ld_unit_zero (S := S2048x50) hz, View.ld_unit_zero (S := S1024x50) hz]

/-- … and the output block is a copy of what the accumulator then holds. -/
theorem outLast_eq (c : Dev nD) (i : grid0.Coords) (arg2 : Memref sig .tc .vmem S1024x2048 .f32) (harg2 : arg2.IsWhole) (arg3 : Memref sig .tc .vmem S2048x50 .f32) (harg3 : arg3.IsWhole) (arg4 : Memref sig .tc .vmem S1024x50 .f32) (harg4 : arg4.IsWhole) (arg5 : Memref sig .tc .vmem S1024x50 .f32) (harg5 : arg5.IsWhole) (hc0 : ¬isFirst i) (hc1 : isLast i) (x0 : Vec F S1024x2048 .f32) (x1 : Vec F S2048x50 .f32) (xs : Vec F S1024x50 .f32) :
    outLast c i arg2 harg2 arg3 harg3 arg4 harg4 arg5 harg5 hc0 hc1 x0 x1 xs = k0_pay2 xs x0 x1 := by
  unfold outLast
  rw [View.read_writes_eq_canon _ _ _ (coverLastOut c i arg2 harg2 arg3 harg3 arg4 harg4 arg5 harg5 hc0 hc1 x0 x1 xs)]
  unfold runLast
  dsimp only
  sl_unfold_words
  rw [View.canon_unit_zero hz, View.readCov_unit_zero (S := S1024x50) _ hz]
  simp only [View.readAt_eq_ld, harg2.read_unread, harg3.read_unread, harg5.read_unread, View.ld_unit_zero (S := S1024x2048) hz, View.ld_unit_zero (S := S2048x50) hz, View.ld_unit_zero (S := S1024x50) hz]

/-! ## The blocks a point reads, at coordinates -/

/-- Point `t` reads row block `t / 8`, reduction block `t % 8` of `x`; reduction block `t % 8` of `w`; and writes row
    block `t / 8` of the result. -/
theorem idx_facts : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

theorem lt128 (t : Fin cfg0.N) : t.val < 128 := lt_of_lt_of_eq t.isLt N_0

/-- Row `r` of row block `n / 8`. -/
def rowOf (n : ℕ) (hn : n < 128) (r : Fin 1024) : Fin 16384 := ⟨n / 8 * 1024 + r.val, by omega⟩
/-- Term `q` of reduction block `kb`. -/
def redOf (kb : ℕ) (hkb : kb < 8) (q : Fin 2048) : Fin 16384 := ⟨kb * 2048 + q.val, by omega⟩

theorem xblk_apply (c : Dev nD) (t : Fin cfg0.N) (r : Fin 1024) (q : Fin 2048) :
    (iblk m c 0 t : Vec F S1024x2048 .f32) (ix2 r q)
      = m ((c : Thread nD τ).loc main_arg0) (ix2 (rowOf t.val (lt128 t) r) (redOf (t.val % 8) (Nat.mod_lt _ (by decide)) q)) := by
  obtain ⟨e0, e1, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 1024 + 1 * r.val = t.val / 8 * 1024 + r.val; rw [e0]; omega
  | ⟨1, _⟩ => show win0_0.index t (1 : Fin 2) * 2048 + 1 * q.val = t.val % 8 * 2048 + q.val; rw [e1]; omega

theorem wblk_apply (c : Dev nD) (t : Fin cfg0.N) (q : Fin 2048) (cc : Fin 50) :
    (iblk m c 1 t : Vec F S2048x50 .f32) (ix2 q cc)
      = m ((c : Thread nD τ).loc main_arg2) (ix2 (redOf (t.val % 8) (Nat.mod_lt _ (by decide)) q) cc) := by
  obtain ⟨-, -, e2, e3, -⟩ := idx_facts t
  unfold iblk
  rw [View.read_apply]
  show V m c main_arg2 _ = m ((c : Thread nD τ).loc main_arg2) _
  unfold V
  congr 1
  funext a
  apply Fin.ext
  match a with
  | ⟨0, _⟩ => show win0_1.index t (0 : Fin 2) * 2048 + 1 * q.val = t.val % 8 * 2048 + q.val; rw [e2]; omega
  | ⟨1, _⟩ => show win0_1.index t (1 : Fin 2) * 50 + 1 * cc.val = cc.val; rw [e3]; omega

/-! ## The accumulator's closed form, at the ideal instance -/

section Ideal

variable (mI : (ℓ : Loc nD τ sig) → Buf (Elt Ideal) ℓ)

/-- The argument arrays, as functions into the extended reals. -/
abbrev Xarr (c : Dev nD) : S16384x16384.Idx → EReal := mI ((c : Thread nD τ).loc main_arg0)
abbrev Warr (c : Dev nD) : S16384x50.Idx → EReal := mI ((c : Thread nD τ).loc main_arg2)

/-- The products summed for entry `(p, cc)` of `x · w`. -/
def term (c : Dev nD) (p : Fin 16384) (cc : Fin 50) : Fin 16384 → EReal := fun k =>
  Xarr mI c (ix2 p k) * Warr mI c (ix2 k cc)

/-- The block product a point adds at `(r, cc)` is the block sum of its reduction block. -/
theorem block_sum (c : Dev nD) (t : Fin cfg0.N) (r : Fin 1024) (cc : Fin 50)
    (x0 : Vec Ideal S1024x2048 .f32) (x1 : Vec Ideal S2048x50 .f32) (h0 : x0 = iblk mI c 0 t) (h1 : x1 = iblk mI c 1 t) :
    (∑ q : Fin 2048, x0 (ix2 r q) * x1 (ix2 q cc))
      = Cert.BlockSum.blk (term mI c (rowOf t.val (lt128 t) r) cc) (t.val % 8) := by
  subst h0 h1
  rw [Cert.BlockSum.blk_of_lt _ _ (Nat.mod_lt _ (by decide))]
  refine Finset.sum_congr rfl fun q _ => ?_
  rw [xblk_apply, wblk_apply]
  rfl

/-- The running sum starts as `0 + s 0` … -/
theorem acc_first (s : ℕ → EReal) (k : ℕ) (hk : k = 0) (b : EReal) (hb : b = s k) :
    (0 : EReal) + b = Cert.BlockSum.acc s k := by subst hk hb; rfl
/-- … and grows by the next block sum. -/
theorem acc_next (s : ℕ → EReal) (k j : ℕ) (hk : k = j + 1) (a b : EReal) (ha : a = Cert.BlockSum.acc s j) (hb : b = s k) :
    a + b = Cert.BlockSum.acc s k := by subst hk ha hb; rfl

set_option maxHeartbeats 4000000 in
/-- The accumulator after a step-0 point, as a value. -/
theorem snd_first (c : Dev nD) (t : Fin cfg0.N) (h0 : t.val % 8 = 0) (h1 : ¬t.val % 8 = 7) :
    (outsAt mI c t.val t.isLt).2 = k0_pay2 (k0_pay1 (F := Ideal)) (iblk mI c 0 t) (iblk mI c 1 t) :=
  (congrArg Prod.snd (outsAt_first mI c t h0 h1)).trans
    (accFirst_eq (F := Ideal) c (grid0.coords t) (msX t) (hsX t) (msW t) (hsW t) (msO t) (hsO t) accM (Memref.isWhole_whole _) ((isFirst_iff t).mpr h0) (fun h => h1 ((isLast_iff t).mp h)) (iblk mI c 0 t) (iblk mI c 1 t))
set_option maxHeartbeats 4000000 in
theorem snd_middle (c : Dev nD) (t : Fin cfg0.N) (h0 : ¬t.val % 8 = 0) (h1 : ¬t.val % 8 = 7) :
    (outsAt mI c t.val t.isLt).2 = k0_pay2 (outsAt mI c (t.val - 1) (Nat.lt_of_le_of_lt (Nat.sub_le _ _) t.isLt)).2 (iblk mI c 0 t) (iblk mI c 1 t) :=
  (congrArg Prod.snd (outsAt_middle mI c t h0 h1)).trans
    (accMiddle_eq (F := Ideal) c (grid0.coords t) (msX t) (hsX t) (msW t) (hsW t) (msO t) (hsO t) accM (Memref.isWhole_whole _) (fun h => h0 ((isFirst_iff t).mp h)) (fun h => h1 ((isLast_iff t).mp h)) (iblk mI c 0 t) (iblk mI c 1 t) (outsAt mI c (t.val - 1) (Nat.lt_of_le_of_lt (Nat.sub_le _ _) t.isLt)).2)
set_option maxHeartbeats 4000000 in
theorem snd_last (c : Dev nD) (t : Fin cfg0.N) (h0 : ¬t.val % 8 = 0) (h1 : t.val % 8 = 7) :
    (outsAt mI c t.val t.isLt).2 = k0_pay2 (outsAt mI c (t.val - 1) (Nat.lt_of_le_of_lt (Nat.sub_le _ _) t.isLt)).2 (iblk mI c 0 t) (iblk mI c 1 t) :=
  (congrArg Prod.snd (outsAt_last mI c t h0 h1)).trans
    (accLast_eq (F := Ideal) c (grid0.coords t) (msX t) (hsX t) (msW t) (hsW t) (msO t) (hsO t) accM (Memref.isWhole_whole _) (fun h => h0 ((isFirst_iff t).mp h)) ((isLast_iff t).mpr h1) (iblk mI c 0 t) (iblk mI c 1 t) (outsAt mI c (t.val - 1) (Nat.lt_of_le_of_lt (Nat.sub_le _ _) t.isLt)).2)
set_option maxHeartbeats 4000000 in
theorem fst_last (c : Dev nD) (t : Fin cfg0.N) (h0 : ¬t.val % 8 = 0) (h1 : t.val % 8 = 7) :
    (outsAt mI c t.val t.isLt).1 = k0_pay2 (outsAt mI c (t.val - 1) (Nat.lt_of_le_of_lt (Nat.sub_le _ _) t.isLt)).2 (iblk mI c 0 t) (iblk mI c 1 t) :=
  (congrArg Prod.fst (outsAt_last mI c t h0 h1)).trans
    (outLast_eq (F := Ideal) c (grid0.coords t) (msX t) (hsX t) (msW t) (hsW t) (msO t) (hsO t) accM (Memref.isWhole_whole _) (fun h => h0 ((isFirst_iff t).mp h)) ((isLast_iff t).mpr h1) (iblk mI c 0 t) (iblk mI c 1 t) (outsAt mI c (t.val - 1) (Nat.lt_of_le_of_lt (Nat.sub_le _ _) t.isLt)).2)

/-- After point `t` the accumulator's entry `(r, cc)` is the zeroed running sum of the block sums `0 … t % 8` of row
    `1024 · (t / 8) + r`. -/
theorem acc_at (c : Dev nD) : ∀ (n : ℕ) (hn : n < cfg0.N) (r : Fin 1024) (cc : Fin 50),
    (outsAt mI c n hn).2 (ix2 r cc)
      = Cert.BlockSum.acc (Cert.BlockSum.blk (term mI c (rowOf n (lt_of_lt_of_eq hn N_0) r) cc)) (n % 8) := by
  intro n
  induction n with
  | zero =>
    intro hn r cc
    have e := snd_first mI c ⟨0, hn⟩ (Nat.zero_mod _) (by show ¬(0 % 8 = 7); decide)
    rw [show (outsAt mI c 0 hn).2 = _ from e, Cert.KernelIdeal.BlockPayload.pay2_apply, Cert.KernelIdeal.BlockPayload.pay1_apply]
    exact acc_first _ _ (Nat.zero_mod _) _ (block_sum mI c ⟨0, hn⟩ r cc _ _ rfl rfl)
  | succ n ih =>
    intro hn r cc
    have hN : n + 1 < 128 := lt_of_lt_of_eq hn N_0
    by_cases h0 : (n + 1) % 8 = 0
    · have h1 : ¬(n + 1) % 8 = 7 := by omega
      have e := snd_first mI c ⟨n + 1, hn⟩ h0 h1
      rw [show (outsAt mI c (n + 1) hn).2 = _ from e, Cert.KernelIdeal.BlockPayload.pay2_apply, Cert.KernelIdeal.BlockPayload.pay1_apply]
      exact acc_first _ _ h0 _ (block_sum mI c ⟨n + 1, hn⟩ r cc _ _ rfl rfl)
    · have hrow : rowOf n (by omega) r = rowOf (n + 1) hN r := by
        unfold rowOf; apply Fin.ext; show n / 8 * 1024 + r.val = (n + 1) / 8 * 1024 + r.val; omega
      have hstep : (n + 1) % 8 = n % 8 + 1 := by omega
      have ihn := ih (Nat.lt_of_succ_lt hn) r cc
      rw [hrow] at ihn
      have e : (outsAt mI c (n + 1) hn).2 = k0_pay2 (outsAt mI c n (Nat.lt_of_succ_lt hn)).2 (iblk mI c 0 ⟨n + 1, hn⟩) (iblk mI c 1 ⟨n + 1, hn⟩) := by
        by_cases h1 : (n + 1) % 8 = 7
        · exact snd_last mI c ⟨n + 1, hn⟩ h0 h1
        · exact snd_middle mI c ⟨n + 1, hn⟩ h0 h1
      rw [e, Cert.KernelIdeal.BlockPayload.pay2_apply]
      exact acc_next _ _ _ hstep _ _ ihn (block_sum mI c ⟨n + 1, hn⟩ r cc _ _ rfl rfl)

/-! ## The result array -/

/-- Entry `(p, cc)` of the whole product. -/
def wholeAt (X : S16384x16384.Idx → EReal) (Wt : S16384x50.Idx → EReal) (p : Fin 16384) (cc : Fin 50) : EReal :=
  ∑ k : Fin 16384, X (ix2 p k) * Wt (ix2 k cc)

/-- The whole product, index by index. -/
def whole (X : S16384x16384.Idx → EReal) (Wt : S16384x50.Idx → EReal) : S16384x50.Idx → EReal := fun i =>
  wholeAt X Wt (i 0) (i 1)

theorem whole_ix2 (X : S16384x16384.Idx → EReal) (Wt : S16384x50.Idx → EReal) (p : Fin 16384) (cc : Fin 50) :
    whole X Wt (ix2 p cc) = wholeAt X Wt p cc := rfl

/-- What a step-7 point leaves in the output block at `(r, cc)`: the whole sum for row `1024 · (t / 8) + r`. -/
theorem out_at (c : Dev nD) (t : Fin cfg0.N) (h1 : t.val % 8 = 7) (r : Fin 1024) (cc : Fin 50) :
    (outsAt mI c t.val t.isLt).1 (ix2 r cc) = wholeAt (Xarr mI c) (Warr mI c) (rowOf t.val (lt128 t) r) cc := by
  have h0 : ¬t.val % 8 = 0 := by omega
  have hlt := lt128 t
  have hrow : rowOf (t.val - 1) (by omega) r = rowOf t.val hlt r := by
    unfold rowOf; apply Fin.ext; show (t.val - 1) / 8 * 1024 + r.val = t.val / 8 * 1024 + r.val; omega
  have ih := acc_at mI c (t.val - 1) (Nat.lt_of_le_of_lt (Nat.sub_le _ _) t.isLt) r cc
  rw [hrow] at ih
  rw [fst_last mI c t h0 h1, Cert.KernelIdeal.BlockPayload.pay2_apply]
  rw [acc_next _ _ _ (show t.val % 8 = (t.val - 1) % 8 + 1 from by omega) _ _ ih (block_sum mI c t r cc _ _ rfl rfl), h1]
  exact Cert.BlockSum.acc_blocks _

/-- A block of the result array read at `(r, cc)` is the array at the block's embedded index. -/
theorem read_out_apply (t : Fin cfg0.N) (r : Fin 1024) (cc : Fin 50) (G : S16384x50.Idx → EReal) :
    ((cfg0.win 2).blk t).view.read (Elt Ideal) G (ix2 r cc) = G (((cfg0.win 2).blk t).view.emb (ix2 r cc)) := rfl

/-- At a step-7 point the block written back is that row block of the whole product. -/
theorem flushed_eq (c : Dev nD) (t : Fin cfg0.N) (hf : (cfg0.win 2).flush t = true) :
    (dats mI 0 c).flushed 2 t = ((cfg0.win 2).blk t).view.read (Elt Ideal) (whole (Xarr mI c) (Warr mI c)) := by
  have h1 : t.val % 8 = 7 := (flush0_2 t).mp hf
  obtain ⟨-, -, -, -, e4, e5⟩ := idx_facts t
  show (cfg0.win 2).cut (grid0.coords t) ((dats mI 0 c).after 2 t) = _
  rw [after_out]
  funext j
  obtain ⟨r, cc, rfl⟩ : ∃ (r : Fin 1024) (cc : Fin 50), j = ix2 r cc := ⟨j 0, j 1, eq_ix2 j⟩
  show (outsAt mI c t.val t.isLt).1 (ix2 r cc) = _
  rw [out_at mI c t h1]
  have hemb : ((cfg0.win 2).blk t).view.emb (ix2 r cc) = ix2 (rowOf t.val (lt128 t) r) cc := by
    funext a; apply Fin.ext
    match a with
    | ⟨0, _⟩ => show win0_2.index t (0 : Fin 2) * 1024 + 1 * r.val = t.val / 8 * 1024 + r.val; rw [e4]; omega
    | ⟨1, _⟩ => show win0_2.index t (1 : Fin 2) * 50 + 1 * cc.val = cc.val; rw [e5]; omega
  rw [read_out_apply, hemb, whole_ix2]

theorem mem_blk_out (t : Fin cfg0.N) (i : S16384x50.Idx) :
    i ∈ ((cfg0.win 2).blk t).view.set ↔ ∀ a : Fin 2, win0_2.index t a * S1024x50.size a ≤ (i a).val ∧ (i a).val < win0_2.index t a * S1024x50.size a + S1024x50.size a := by
  show i ∈ ((View.whole main_v0).slice (win0_2.rect t)).set ↔ _
  rw [View.set_slice_whole, Rect.mem_set_unit]
  exact Iff.rfl

/-- Every index of the result lies in the block some step-7 point writes back: row `p` in that of row block `p / 1024`. -/
theorem covered (i : S16384x50.Idx) : ∃ t : Fin cfg0.N, (cfg0.win 2).flush t = true ∧ i ∈ ((cfg0.win 2).blk t).view.set := by
  have hi0 : (i 0).val < 16384 := (i 0).isLt
  have hi1 : (i 1).val < 50 := (i 1).isLt
  let t : Fin cfg0.N := ⟨(i 0).val / 1024 * 8 + 7, by rw [show cfg0.N = 128 from N_0]; omega⟩
  have ht : t.val = (i 0).val / 1024 * 8 + 7 := rfl
  obtain ⟨-, -, -, -, e4, e5⟩ := idx_facts t
  refine ⟨t, (flush0_2 t).mpr (by rw [ht]; omega), ?_⟩
  rw [mem_blk_out]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 50 ≤ (i 1).val ∧ (i 1).val < win0_2.index t (1 : Fin 2) * 50 + 50; rw [e5]; omega

/-- The result array after the region is the whole product of the argument arrays. -/
theorem final_out (c : Dev nD) : (dats mI 0 c).arrAt 2 cfg0.N = whole (Xarr mI c) (Warr mI c) :=
  (dats mI 0 c).arrAt_eq_of_cover 2 _ (flushed_eq mI c) covered

end Ideal

end Cert.KernelIdeal.Accum

end
-- ==== Proof.IdealResult.lean ====
/-
  The idealized kernel's run with its two results named. The host operations after the region start from the buffers
  as the region leaves them: `%0` at the whole product `x · w` (the module before this one), every argument at its launch
  contents. The two results are what the 125 host operations compute from there; they are kept as that computation,
  unopened, because the reference applies the same operations to the same inputs.
-/
import proofs.«107587_j14465449853013_1_alg».proof.Proof.IdealFrame
import proofs.«107587_j14465449853013_1_alg».proof.Proof.IdealValue

set_option maxRecDepth 16384

noncomputable section

namespace Cert.KernelIdeal.Accum

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (mI : (ℓ : Loc nD τ sig) → Buf (Elt Ideal) ℓ)

/-- The buffers as the region leaves them. -/
abbrev exitVal (c : Dev nD) : Valuation τ sig (Elt Ideal) :=
  Pipeline.withArrays (cfgs 0).spec c (V0 mI c) fun w => (dats mI 0 c).arrAt w (cfgs 0).N

/-- `%0` there is the whole product. -/
theorem exitVal_v0 (c : Dev nD) : exitVal mI c (Proc.devRef .tc main_v0) = whole (Xarr mI c) (Warr mI c) :=
  (Pipeline.withArrays_arr spec0 launch0.win.arr_inj c _ _ 2).trans (final_out mI c)

/-- A buffer the pipeline does not stage is there at its launch contents. -/
theorem exitVal_rest (c : Dev nD) (r : Ref sig .tc) (hne : ∀ w, Pipeline.arrRef spec0 w ≠ r) :
    exitVal mI c (Proc.devRef .tc r) = mI ((c : Thread nD τ).loc r) :=
  Pipeline.withArrays_of_ne _ c _ _ r hne

/-- The two results: the host operations' values at `%99` and `%95`. -/
def res99 (c : Dev nD) : Buf (Elt Ideal) ((c.tc : Thread nD τ).loc main_v99) :=
  StableHlo.after (tailOps (F := Ideal)).flatten (exitVal mI c) (Proc.devRef .tc main_v99)
def res95 (c : Dev nD) : Buf (Elt Ideal) ((c.tc : Thread nD τ).loc main_v95) :=
  StableHlo.after (tailOps (F := Ideal)).flatten (exitVal mI c) (Proc.devRef .tc main_v95)

theorem run_results : θ_run defs (onTc (τ := τ) (main (F := Ideal))) ⟨mI, fun _ => 0, ρ⟩ (fun r => ∀ c : Dev nD,
      r.2.mem ((c.tc : Thread nD τ).loc main_v99) = res99 mI c
      ∧ r.2.mem ((c.tc : Thread nD τ).loc main_v95) = res95 mI c
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4)
      ∧ r.2.mem ((c.tc : Thread nD τ).loc main_arg5) = mI ((c.tc : Thread nD τ).loc main_arg5)
      ∧ r.2.mem ((c.tc : Thread nD τ).loc main_arg6) = mI ((c.tc : Thread nD τ).loc main_arg6)
      ∧ r.2.mem ((c.tc : Thread nD τ).loc main_arg7) = mI ((c.tc : Thread nD τ).loc main_arg7)) :=
  (θ_run defs _ _).mono (fun _ h c => ⟨(h c).2 main_v99 (rest_mem main_v99 rfl (by intro w; fin_cases w <;> decide)),
    (h c).2 main_v95 (rest_mem main_v95 rfl (by intro w; fin_cases w <;> decide)),
    ((h c).1 0).trans (((dats mI 0 c).arrAt_in 0 rfl _).trans ((A_eq mI c 0).trans (V_main_arg0 mI c))),
    ((h c).2 main_arg1 (rest_mem main_arg1 rfl (by intro w; fin_cases w <;> decide))).trans (tail_kept mI c main_arg1 (by decide) (by intro w; fin_cases w <;> decide)),
    ((h c).1 1).trans (((dats mI 0 c).arrAt_in 1 rfl _).trans ((A_eq mI c 1).trans (V_main_arg2 mI c))),
    ((h c).2 main_arg3 (rest_mem main_arg3 rfl (by intro w; fin_cases w <;> decide))).trans (tail_kept mI c main_arg3 (by decide) (by intro w; fin_cases w <;> decide)),
    ((h c).2 main_arg4 (rest_mem main_arg4 rfl (by intro w; fin_cases w <;> decide))).trans (tail_kept mI c main_arg4 (by decide) (by intro w; fin_cases w <;> decide)),
    ((h c).2 main_arg5 (rest_mem main_arg5 rfl (by intro w; fin_cases w <;> decide))).trans (tail_kept mI c main_arg5 (by decide) (by intro w; fin_cases w <;> decide)),
    ((h c).2 main_arg6 (rest_mem main_arg6 rfl (by intro w; fin_cases w <;> decide))).trans (tail_kept mI c main_arg6 (by decide) (by intro w; fin_cases w <;> decide)),
    ((h c).2 main_arg7 (rest_mem main_arg7 rfl (by intro w; fin_cases w <;> decide))).trans (tail_kept mI c main_arg7 (by decide) (by intro w; fin_cases w <;> decide))⟩) (run_main mI ρ)

end Cert.KernelIdeal.Accum

end
-- ==== Proof.RefLine.lean ====
/- The reference program's @main as ONE straight line of host operations, and its run: the first operation
   is the dense product of the first and third arguments, the other 125 are the aggregation tail (the callee
   @_where's three operations listed at each of its two call sites, over that call's buffers). Every weakly fair
   execution ends with each buffer at the fold of the operations' results over the launch contents; the eight
   arguments are never written. -/
import proofs.«107587_j14465449853013_1_alg».proof.Proof.Gen.ReferenceIdeal
import Idealize.ShloMosaic.Lib.StableHlo.Run
import Idealize.ShloMosaic.Lib.Pipeline.Regions

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 126 operations, in order. -/
abbrev ops : List (HloOp τ sig (Elt F)) :=
  ( StableHlo.binary main_arg0 main_arg2 main_v0 ((fun l r => Host.dotGeneral dot_S16384x16384_S16384x50_S16384x50_1_0_0_1_n_n none l r) : (⟨S16384x16384, .f32⟩ : BufTy).Contents (Elt F) → (⟨S16384x50, .f32⟩ : BufTy).Contents (Elt F) → (⟨S16384x50, .f32⟩ : BufTy).Contents (Elt F))
  :: StableHlo.nullary main_v1 (iotaInDim S16384 32 0)
  :: StableHlo.unary main_arg1 main_v2 ((extractStridedSlice S1x524288 ![0, 0] · slices_S2x524288_S1x524288_0_0) : (⟨S2x524288, .i32⟩ : BufTy).Contents (Elt F) → (⟨S1x524288, .i32⟩ : BufTy).Contents (Elt F))
  :: StableHlo.reshape main_v2 main_v3 rfl shapeCasts_S1x524288_S524288
  :: StableHlo.binary main_v3 main_v1 main_v4 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F))
  :: StableHlo.unary main_arg1 main_v5 ((extractStridedSlice S1x524288 ![1, 0] · slices_S2x524288_S1x524288_1_0) : (⟨S2x524288, .i32⟩ : BufTy).Contents (Elt F) → (⟨S1x524288, .i32⟩ : BufTy).Contents (Elt F))
  :: StableHlo.reshape main_v5 main_v6 rfl shapeCasts_S1x524288_S524288
  :: StableHlo.binary main_v6 main_v1 main_v7 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F))
  :: StableHlo.nullary main_cst (constant S_ .f32 0x3F800000#32)
  :: StableHlo.unary main_cst main_v8 (broadcastInDim S540672 ![] bcast_S_S540672 : (⟨S_, .f32⟩ : BufTy).Contents (Elt F) → (⟨S540672, .f32⟩ : BufTy).Contents (Elt F))
  :: StableHlo.nullary main_cst_0 (constant S_ .f32 0x00000000#32)
  :: StableHlo.unary main_cst_0 main_v9 (broadcastInDim S16384 ![] bcast_S_S16384 : (⟨S_, .f32⟩ : BufTy).Contents (Elt F) → (⟨S16384, .f32⟩ : BufTy).Contents (Elt F))
  :: StableHlo.unary main_v7 main_v10 (broadcastInDim S540672x1 ![0] bcast_S540672_S540672x1_0 : (⟨S540672, .i32⟩ : BufTy).Contents (Elt F) → (⟨S540672x1, .i32⟩ : BufTy).Contents (Elt F))
  :: StableHlo.ternary main_v9 main_v10 main_v8 main_v11 ((fun x i u => Host.scatterAdd scatter_S16384_S540672x1_S540672_n_0_0_1 x i u) : (⟨S16384, .f32⟩ : BufTy).Contents (Elt F) → (⟨S540672x1, .i32⟩ : BufTy).Contents (Elt F) → (⟨S540672, .f32⟩ : BufTy).Contents (Elt F) → (⟨S16384, .f32⟩ : BufTy).Contents (Elt F))
  :: StableHlo.nullary main_cst_1 (constant S_ .f32 0x00000000#32)
  :: StableHlo.unary main_cst_1 main_v12 (broadcastInDim S16384 ![] bcast_S_S16384 : (⟨S_, .f32⟩ : BufTy).Contents (Elt F) → (⟨S16384, .f32⟩ : BufTy).Contents (Elt F))
  :: StableHlo.binary main_v11 main_v12 main_v13 (cmpf .ogt : (⟨S16384, .f32⟩ : BufTy).Contents (Elt F) → (⟨S16384, .f32⟩ : BufTy).Contents (Elt F) → (⟨S16384, .i1⟩ : BufTy).Contents (Elt F))
  :: StableHlo.unary main_v11 main_v14 (Host.rsqrt : (⟨S16384, .f32⟩ : BufTy).Contents (Elt F) → (⟨S16384, .f32⟩ : BufTy).Contents (Elt F))
  :: StableHlo.nullary main_cst_2 (constant S_ .f32 0x00000000#32)
  :: StableHlo.TRef.unary (.of main_cst_2 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S16384, .f32⟩) (broadcastInDim S16384 ![] bcast_S_S16384)
  :: StableHlo.TRef.ternary (.of main_v13 : StableHlo.TRef sig ⟨S16384, .i1⟩) (.of main_v14 : StableHlo.TRef sig ⟨S16384, .f32⟩) (.of main_call0_v1 : StableHlo.TRef sig ⟨S16384, .f32⟩) (.of main_v15 : StableHlo.TRef sig ⟨S16384, .f32⟩) select
  :: StableHlo.nullary main_c (constantI S_ 32 0#32)
  :: StableHlo.unary main_c main_v16 (broadcastInDim S540672 ![] bcast_S_S540672 : (⟨S_, .i32⟩ : BufTy).Contents (Elt F) → (⟨S540672, .i32⟩ : BufTy).Contents (Elt F))
  :: StableHlo.binary main_v4 main_v16 main_v17 (cmpi .slt : (⟨S540672, .i32⟩ : BufTy).Contents (Elt F) → (⟨S540672, .i32⟩ : BufTy).Contents (Elt F) → (⟨S540672, .i1⟩ : BufTy).Contents (Elt F))
  :: StableHlo.nullary main_c_3 (constantI S_ 32 16384#32)
  :: StableHlo.unary main_c_3 main_v18 (broadcastInDim S540672 ![] bcast_S_S540672 : (⟨S_, .i32⟩ : BufTy).Contents (Elt F) → (⟨S540672, .i32⟩ : BufTy).Contents (Elt F))
  :: StableHlo.binary main_v4 main_v18 main_v19 (addi : (⟨S540672, .i32⟩ : BufTy).Contents (Elt F) → (⟨S540672, .i32⟩ : BufTy).Contents (Elt F) → (⟨S540672, .i32⟩ : BufTy).Contents (Elt F))
  :: StableHlo.ternary main_v17 main_v19 main_v4 main_v20 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F))
  :: StableHlo.unary main_v20 main_v21 (broadcastInDim S540672x1 ![0] bcast_S540672_S540672x1_0 : (⟨S540672, .i32⟩ : BufTy).Contents (Elt F) → (⟨S540672x1, .i32⟩ : BufTy).Contents (Elt F))
  :: StableHlo.binary main_v15 main_v21 main_v22 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F))
  :: StableHlo.nullary main_c_4 (constantI S_ 32 0#32)
  :: StableHlo.unary main_c_4 main_v23 (broadcastInDim S540672 ![] bcast_S_S540672 : (⟨S_, .i32⟩ : BufTy).Contents (Elt F) → (⟨S540672, .i32⟩ : BufTy).Contents (Elt F))
  :: StableHlo.binary main_v7 main_v23 main_v24 (cmpi .slt : (⟨S540672, .i32⟩ : BufTy).Contents (Elt F) → (⟨S540672, .i32⟩ : BufTy).Contents (Elt F) → (⟨S540672, .i1⟩ : BufTy).Contents (Elt F))
  :: StableHlo.nullary main_c_5 (constantI S_ 32 16384#32)
  :: StableHlo.unary main_c_5 main_v25 (broadcastInDim S540672 ![] bcast_S_S540672 : (⟨S_, .i32⟩ : BufTy).Contents (Elt F) → (⟨S540672, .i32⟩ : BufTy).Contents (Elt F))
  :: StableHlo.binary main_v7 main_v25 main_v26 (addi : (⟨S540672, .i32⟩ : BufTy).Contents (Elt F) → (⟨S540672, .i32⟩ : BufTy).Contents (Elt F) → (⟨S540672, .i32⟩ : BufTy).Contents (Elt F))
  :: StableHlo.ternary main_v24 main_v26 main_v7 main_v27 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F))
  :: StableHlo.unary main_v27 main_v28 (broadcastInDim S540672x1 ![0] bcast_S540672_S540672x1_0 : (⟨S540672, .i32⟩ : BufTy).Contents (Elt F) → (⟨S540672x1, .i32⟩ : BufTy).Contents (Elt F))
  :: StableHlo.binary main_v15 main_v28 main_v29 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F))
  :: StableHlo.binary main_v22 main_v29 main_v30 (mulf : (⟨S540672, .f32⟩ : BufTy).Contents (Elt F) → (⟨S540672, .f32⟩ : BufTy).Contents (Elt F) → (⟨S540672, .f32⟩ : BufTy).Contents (Elt F))
  :: StableHlo.nullary main_c_6 (constantI S_ 32 0#32)
  :: StableHlo.unary main_c_6 main_v31 (broadcastInDim S540672 ![] bcast_S_S540672 : (⟨S_, .i32⟩ : BufTy).Contents (Elt F) → (⟨S540672, .i32⟩ : BufTy).Contents (Elt F))
  :: StableHlo.binary main_v4 main_v31 main_v32 (cmpi .slt : (⟨S540672, .i32⟩ : BufTy).Contents (Elt F) → (⟨S540672, .i32⟩ : BufTy).Contents (Elt F) → (⟨S540672, .i1⟩ : BufTy).Contents (Elt F))
  :: StableHlo.nullary main_c_7 (constantI S_ 32 16384#32)
  :: StableHlo.unary main_c_7 main_v33 (broadcastInDim S540672 ![] bcast_S_S540672 : (⟨S_, .i32⟩ : BufTy).Contents (Elt F) → (⟨S540672, .i32⟩ : BufTy).Contents (Elt F))
  :: StableHlo.binary main_v4 main_v33 main_v34 (addi : (⟨S540672, .i32⟩ : BufTy).Contents (Elt F) → (⟨S540672, .i32⟩ : BufTy).Contents (Elt F) → (⟨S540672, .i32⟩ : BufTy).Contents (Elt F))
  :: StableHlo.ternary main_v32 main_v34 main_v4 main_v35 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F))
  :: StableHlo.unary main_v35 main_v36 (broadcastInDim S540672x1 ![0] bcast_S540672_S540672x1_0 : (⟨S540672, .i32⟩ : BufTy).Contents (Elt F) → (⟨S540672x1, .i32⟩ : BufTy).Contents (Elt F))
  :: StableHlo.binary main_v0 main_v36 main_v37 ((fun x i => Host.gather gather_S16384x50_S540672x1_S540672x50_1_0_n_n_0_1_150 x i) : (⟨S16384x50, .f32⟩ : BufTy).Contents (Elt F) → (⟨S540672x1, .i32⟩ : BufTy).Contents (Elt F) → (⟨S540672x50, .f32⟩ : BufTy).Contents (Elt F))
  :: StableHlo.unary main_v30 main_v38 (broadcastInDim S540672x1 ![0] bcast_S540672_S540672x1_0 : (⟨S540672, .f32⟩ : BufTy).Contents (Elt F) → (⟨S540672x1, .f32⟩ : BufTy).Contents (Elt F))
  :: StableHlo.unary main_v38 main_v39 (broadcastInDim S540672x50 ![0, 1] bcast_S540672x1_S540672x50_0_1 : (⟨S540672x1, .f32⟩ : BufTy).Contents (Elt F) → (⟨S540672x50, .f32⟩ : BufTy).Contents (Elt F))
  :: StableHlo.binary main_v37 main_v39 main_v40 (mulf : (⟨S540672x50, .f32⟩ : BufTy).Contents (Elt F) → (⟨S540672x50, .f32⟩ : BufTy).Contents (Elt F) → (⟨S540672x50, .f32⟩ : BufTy).Contents (Elt F))
  :: StableHlo.nullary main_cst_8 (constant S_ .f32 0x00000000#32)
  :: StableHlo.unary main_cst_8 main_v41 (broadcastInDim S16384x50 ![] bcast_S_S16384x50 : (⟨S_, .f32⟩ : BufTy).Contents (Elt F) → (⟨S16384x50, .f32⟩ : BufTy).Contents (Elt F))
  :: StableHlo.unary main_v7 main_v42 (broadcastInDim S540672x1 ![0] bcast_S540672_S540672x1_0 : (⟨S540672, .i32⟩ : BufTy).Contents (Elt F) → (⟨S540672x1, .i32⟩ : BufTy).Contents (Elt F))
  :: StableHlo.ternary main_v41 main_v42 main_v40 main_v43 ((fun x i u => Host.scatterAdd scatter_S16384x50_S540672x1_S540672x50_1_0_0_1 x i u) : (⟨S16384x50, .f32⟩ : BufTy).Contents (Elt F) → (⟨S540672x1, .i32⟩ : BufTy).Contents (Elt F) → (⟨S540672x50, .f32⟩ : BufTy).Contents (Elt F) → (⟨S16384x50, .f32⟩ : BufTy).Contents (Elt F))
  :: StableHlo.unary main_arg3 main_v44 (broadcastInDim S1x50 ![1] bcast_S50_S1x50_1 : (⟨S50, .f32⟩ : BufTy).Contents (Elt F) → (⟨S1x50, .f32⟩ : BufTy).Contents (Elt F))
  :: StableHlo.unary main_v44 main_v45 (broadcastInDim S16384x50 ![0, 1] bcast_S1x50_S16384x50_0_1 : (⟨S1x50, .f32⟩ : BufTy).Contents (Elt F) → (⟨S16384x50, .f32⟩ : BufTy).Contents (Elt F))
  :: StableHlo.binary main_v43 main_v45 main_v46 (addf : (⟨S16384x50, .f32⟩ : BufTy).Contents (Elt F) → (⟨S16384x50, .f32⟩ : BufTy).Contents (Elt F) → (⟨S16384x50, .f32⟩ : BufTy).Contents (Elt F))
  :: StableHlo.unary main_v46 main_v47 (Host.tanh : (⟨S16384x50, .f32⟩ : BufTy).Contents (Elt F) → (⟨S16384x50, .f32⟩ : BufTy).Contents (Elt F))
  :: StableHlo.binary main_v47 main_arg4 main_v48 ((fun l r => Host.dotGeneral dot_S16384x50_S50x2_S16384x2_1_0_0_1_n_n none l r) : (⟨S16384x50, .f32⟩ : BufTy).Contents (Elt F) → (⟨S50x2, .f32⟩ : BufTy).Contents (Elt F) → (⟨S16384x2, .f32⟩ : BufTy).Contents (Elt F))
  :: StableHlo.nullary main_v49 (iotaInDim S16384 32 0)
  :: StableHlo.unary main_arg1 main_v50 ((extractStridedSlice S1x524288 ![0, 0] · slices_S2x524288_S1x524288_0_0) : (⟨S2x524288, .i32⟩ : BufTy).Contents (Elt F) → (⟨S1x524288, .i32⟩ : BufTy).Contents (Elt F))
  :: StableHlo.reshape main_v50 main_v51 rfl shapeCasts_S1x524288_S524288
  :: StableHlo.binary main_v51 main_v49 main_v52 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F))
  :: StableHlo.unary main_arg1 main_v53 ((extractStridedSlice S1x524288 ![1, 0] · slices_S2x524288_S1x524288_1_0) : (⟨S2x524288, .i32⟩ : BufTy).Contents (Elt F) → (⟨S1x524288, .i32⟩ : BufTy).Contents (Elt F))
  :: StableHlo.reshape main_v53 main_v54 rfl shapeCasts_S1x524288_S524288
  :: StableHlo.binary main_v54 main_v49 main_v55 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F))
  :: StableHlo.nullary main_cst_9 (constant S_ .f32 0x3F800000#32)
  :: StableHlo.unary main_cst_9 main_v56 (broadcastInDim S540672 ![] bcast_S_S540672 : (⟨S_, .f32⟩ : BufTy).Contents (Elt F) → (⟨S540672, .f32⟩ : BufTy).Contents (Elt F))
  :: StableHlo.nullary main_cst_10 (constant S_ .f32 0x00000000#32)
  :: StableHlo.unary main_cst_10 main_v57 (broadcastInDim S16384 ![] bcast_S_S16384 : (⟨S_, .f32⟩ : BufTy).Contents (Elt F) → (⟨S16384, .f32⟩ : BufTy).Contents (Elt F))
  :: StableHlo.unary main_v55 main_v58 (broadcastInDim S540672x1 ![0] bcast_S540672_S540672x1_0 : (⟨S540672, .i32⟩ : BufTy).Contents (Elt F) → (⟨S540672x1, .i32⟩ : BufTy).Contents (Elt F))
  :: StableHlo.ternary main_v57 main_v58 main_v56 main_v59 ((fun x i u => Host.scatterAdd scatter_S16384_S540672x1_S540672_n_0_0_1 x i u) : (⟨S16384, .f32⟩ : BufTy).Contents (Elt F) → (⟨S540672x1, .i32⟩ : BufTy).Contents (Elt F) → (⟨S540672, .f32⟩ : BufTy).Contents (Elt F) → (⟨S16384, .f32⟩ : BufTy).Contents (Elt F))
  :: StableHlo.nullary main_cst_11 (constant S_ .f32 0x00000000#32)
  :: StableHlo.unary main_cst_11 main_v60 (broadcastInDim S16384 ![] bcast_S_S16384 : (⟨S_, .f32⟩ : BufTy).Contents (Elt F) → (⟨S16384, .f32⟩ : BufTy).Contents (Elt F))
  :: StableHlo.binary main_v59 main_v60 main_v61 (cmpf .ogt : (⟨S16384, .f32⟩ : BufTy).Contents (Elt F) → (⟨S16384, .f32⟩ : BufTy).Contents (Elt F) → (⟨S16384, .i1⟩ : BufTy).Contents (Elt F))
  :: StableHlo.unary main_v59 main_v62 (Host.rsqrt : (⟨S16384, .f32⟩ : BufTy).Contents (Elt F) → (⟨S16384, .f32⟩ : BufTy).Contents (Elt F))
  :: StableHlo.nullary main_cst_12 (constant S_ .f32 0x00000000#32)
  :: StableHlo.TRef.unary (.of main_cst_12 : StableHlo.TRef sig ⟨S_, .f32⟩) (.of main_call1_v0 : StableHlo.TRef sig ⟨S_, .f32⟩) id
  :: StableHlo.TRef.unary (.of main_call1_v0 : StableHlo.TRef sig ⟨S_, .f32⟩) (.of main_call1_v1 : StableHlo.TRef sig ⟨S16384, .f32⟩) (broadcastInDim S16384 ![] bcast_S_S16384)
  :: StableHlo.TRef.ternary (.of main_v61 : StableHlo.TRef sig ⟨S16384, .i1⟩) (.of main_v62 : StableHlo.TRef sig ⟨S16384, .f32⟩) (.of main_call1_v1 : StableHlo.TRef sig ⟨S16384, .f32⟩) (.of main_v63 : StableHlo.TRef sig ⟨S16384, .f32⟩) select
  :: StableHlo.nullary main_c_13 (constantI S_ 32 0#32)
  :: StableHlo.unary main_c_13 main_v64 (broadcastInDim S540672 ![] bcast_S_S540672 : (⟨S_, .i32⟩ : BufTy).Contents (Elt F) → (⟨S540672, .i32⟩ : BufTy).Contents (Elt F))
  :: StableHlo.binary main_v52 main_v64 main_v65 (cmpi .slt : (⟨S540672, .i32⟩ : BufTy).Contents (Elt F) → (⟨S540672, .i32⟩ : BufTy).Contents (Elt F) → (⟨S540672, .i1⟩ : BufTy).Contents (Elt F))
  :: StableHlo.nullary main_c_14 (constantI S_ 32 16384#32)
  :: StableHlo.unary main_c_14 main_v66 (broadcastInDim S540672 ![] bcast_S_S540672 : (⟨S_, .i32⟩ : BufTy).Contents (Elt F) → (⟨S540672, .i32⟩ : BufTy).Contents (Elt F))
  :: StableHlo.binary main_v52 main_v66 main_v67 (addi : (⟨S540672, .i32⟩ : BufTy).Contents (Elt F) → (⟨S540672, .i32⟩ : BufTy).Contents (Elt F) → (⟨S540672, .i32⟩ : BufTy).Contents (Elt F))
  :: StableHlo.ternary main_v65 main_v67 main_v52 main_v68 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F))
  :: StableHlo.unary main_v68 main_v69 (broadcastInDim S540672x1 ![0] bcast_S540672_S540672x1_0 : (⟨S540672, .i32⟩ : BufTy).Contents (Elt F) → (⟨S540672x1, .i32⟩ : BufTy).Contents (Elt F))
  :: StableHlo.binary main_v63 main_v69 main_v70 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F))
  :: StableHlo.nullary main_c_15 (constantI S_ 32 0#32)
  :: StableHlo.unary main_c_15 main_v71 (broadcastInDim S540672 ![] bcast_S_S540672 : (⟨S_, .i32⟩ : BufTy).Contents (Elt F) → (⟨S540672, .i32⟩ : BufTy).Contents (Elt F))
  :: StableHlo.binary main_v55 main_v71 main_v72 (cmpi .slt : (⟨S540672, .i32⟩ : BufTy).Contents (Elt F) → (⟨S540672, .i32⟩ : BufTy).Contents (Elt F) → (⟨S540672, .i1⟩ : BufTy).Contents (Elt F))
  :: StableHlo.nullary main_c_16 (constantI S_ 32 16384#32)
  :: StableHlo.unary main_c_16 main_v73 (broadcastInDim S540672 ![] bcast_S_S540672 : (⟨S_, .i32⟩ : BufTy).Contents (Elt F) → (⟨S540672, .i32⟩ : BufTy).Contents (Elt F))
  :: StableHlo.binary main_v55 main_v73 main_v74 (addi : (⟨S540672, .i32⟩ : BufTy).Contents (Elt F) → (⟨S540672, .i32⟩ : BufTy).Contents (Elt F) → (⟨S540672, .i32⟩ : BufTy).Contents (Elt F))
  :: StableHlo.ternary main_v72 main_v74 main_v55 main_v75 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F))
  :: StableHlo.unary main_v75 main_v76 (broadcastInDim S540672x1 ![0] bcast_S540672_S540672x1_0 : (⟨S540672, .i32⟩ : BufTy).Contents (Elt F) → (⟨S540672x1, .i32⟩ : BufTy).Contents (Elt F))
  :: StableHlo.binary main_v63 main_v76 main_v77 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F))
  :: StableHlo.binary main_v70 main_v77 main_v78 (mulf : (⟨S540672, .f32⟩ : BufTy).Contents (Elt F) → (⟨S540672, .f32⟩ : BufTy).Contents (Elt F) → (⟨S540672, .f32⟩ : BufTy).Contents (Elt F))
  :: StableHlo.nullary main_c_17 (constantI S_ 32 0#32)
  :: StableHlo.unary main_c_17 main_v79 (broadcastInDim S540672 ![] bcast_S_S540672 : (⟨S_, .i32⟩ : BufTy).Contents (Elt F) → (⟨S540672, .i32⟩ : BufTy).Contents (Elt F))
  :: StableHlo.binary main_v52 main_v79 main_v80 (cmpi .slt : (⟨S540672, .i32⟩ : BufTy).Contents (Elt F) → (⟨S540672, .i32⟩ : BufTy).Contents (Elt F) → (⟨S540672, .i1⟩ : BufTy).Contents (Elt F))
  :: StableHlo.nullary main_c_18 (constantI S_ 32 16384#32)
  :: StableHlo.unary main_c_18 main_v81 (broadcastInDim S540672 ![] bcast_S_S540672 : (⟨S_, .i32⟩ : BufTy).Contents (Elt F) → (⟨S540672, .i32⟩ : BufTy).Contents (Elt F))
  :: StableHlo.binary main_v52 main_v81 main_v82 (addi : (⟨S540672, .i32⟩ : BufTy).Contents (Elt F) → (⟨S540672, .i32⟩ : BufTy).Contents (Elt F) → (⟨S540672, .i32⟩ : BufTy).Contents (Elt F))
  :: StableHlo.ternary main_v80 main_v82 main_v52 main_v83 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F))
  :: StableHlo.unary main_v83 main_v84 (broadcastInDim S540672x1 ![0] bcast_S540672_S540672x1_0 : (⟨S540672, .i32⟩ : BufTy).Contents (Elt F) → (⟨S540672x1, .i32⟩ : BufTy).Contents (Elt F))
  :: StableHlo.binary main_v48 main_v84 main_v85 ((fun x i => Host.gather gather_S16384x2_S540672x1_S540672x2_1_0_n_n_0_1_12 x i) : (⟨S16384x2, .f32⟩ : BufTy).Contents (Elt F) → (⟨S540672x1, .i32⟩ : BufTy).Contents (Elt F) → (⟨S540672x2, .f32⟩ : BufTy).Contents (Elt F))
  :: StableHlo.unary main_v78 main_v86 (broadcastInDim S540672x1 ![0] bcast_S540672_S540672x1_0 : (⟨S540672, .f32⟩ : BufTy).Contents (Elt F) → (⟨S540672x1, .f32⟩ : BufTy).Contents (Elt F))
  :: StableHlo.unary main_v86 main_v87 (broadcastInDim S540672x2 ![0, 1] bcast_S540672x1_S540672x2_0_1 : (⟨S540672x1, .f32⟩ : BufTy).Contents (Elt F) → (⟨S540672x2, .f32⟩ : BufTy).Contents (Elt F))
  :: StableHlo.binary main_v85 main_v87 main_v88 (mulf : (⟨S540672x2, .f32⟩ : BufTy).Contents (Elt F) → (⟨S540672x2, .f32⟩ : BufTy).Contents (Elt F) → (⟨S540672x2, .f32⟩ : BufTy).Contents (Elt F))
  :: StableHlo.nullary main_cst_19 (constant S_ .f32 0x00000000#32)
  :: StableHlo.unary main_cst_19 main_v89 (broadcastInDim S16384x2 ![] bcast_S_S16384x2 : (⟨S_, .f32⟩ : BufTy).Contents (Elt F) → (⟨S16384x2, .f32⟩ : BufTy).Contents (Elt F))
  :: StableHlo.unary main_v55 main_v90 (broadcastInDim S540672x1 ![0] bcast_S540672_S540672x1_0 : (⟨S540672, .i32⟩ : BufTy).Contents (Elt F) → (⟨S540672x1, .i32⟩ : BufTy).Contents (Elt F))
  :: StableHlo.ternary main_v89 main_v90 main_v88 main_v91 ((fun x i u => Host.scatterAdd scatter_S16384x2_S540672x1_S540672x2_1_0_0_1 x i u) : (⟨S16384x2, .f32⟩ : BufTy).Contents (Elt F) → (⟨S540672x1, .i32⟩ : BufTy).Contents (Elt F) → (⟨S540672x2, .f32⟩ : BufTy).Contents (Elt F) → (⟨S16384x2, .f32⟩ : BufTy).Contents (Elt F))
  :: StableHlo.unary main_arg5 main_v92 (broadcastInDim S1x2 ![1] bcast_S2_S1x2_1 : (⟨S2, .f32⟩ : BufTy).Contents (Elt F) → (⟨S1x2, .f32⟩ : BufTy).Contents (Elt F))
  :: StableHlo.unary main_v92 main_v93 (broadcastInDim S16384x2 ![0, 1] bcast_S1x2_S16384x2_0_1 : (⟨S1x2, .f32⟩ : BufTy).Contents (Elt F) → (⟨S16384x2, .f32⟩ : BufTy).Contents (Elt F))
  :: StableHlo.binary main_v91 main_v93 main_v94 (addf : (⟨S16384x2, .f32⟩ : BufTy).Contents (Elt F) → (⟨S16384x2, .f32⟩ : BufTy).Contents (Elt F) → (⟨S16384x2, .f32⟩ : BufTy).Contents (Elt F))
  :: StableHlo.unary main_v94 main_v95 (Host.tanh : (⟨S16384x2, .f32⟩ : BufTy).Contents (Elt F) → (⟨S16384x2, .f32⟩ : BufTy).Contents (Elt F))
  :: StableHlo.binary main_v95 main_arg6 main_v96 ((fun l r => Host.dotGeneral dot_S16384x2_S2x7_S16384x7_1_0_0_1_n_n none l r) : (⟨S16384x2, .f32⟩ : BufTy).Contents (Elt F) → (⟨S2x7, .f32⟩ : BufTy).Contents (Elt F) → (⟨S16384x7, .f32⟩ : BufTy).Contents (Elt F))
  :: StableHlo.unary main_arg7 main_v97 (broadcastInDim S1x7 ![1] bcast_S7_S1x7_1 : (⟨S7, .f32⟩ : BufTy).Contents (Elt F) → (⟨S1x7, .f32⟩ : BufTy).Contents (Elt F))
  :: StableHlo.unary main_v97 main_v98 (broadcastInDim S16384x7 ![0, 1] bcast_S1x7_S16384x7_0_1 : (⟨S1x7, .f32⟩ : BufTy).Contents (Elt F) → (⟨S16384x7, .f32⟩ : BufTy).Contents (Elt F))
  :: StableHlo.binary main_v96 main_v98 main_v99 (addf : (⟨S16384x7, .f32⟩ : BufTy).Contents (Elt F) → (⟨S16384x7, .f32⟩ : BufTy).Contents (Elt F) → (⟨S16384x7, .f32⟩ : BufTy).Contents (Elt F))
  :: [] )

/-- The buffers the line writes, one per operation, in order. -/
abbrev written : List (Ref sig .tc) :=
  [ main_v0, main_v1, main_v2, main_v3, main_v4, main_v5, main_v6, main_v7,
    main_cst, main_v8, main_cst_0, main_v9, main_v10, main_v11, main_cst_1, main_v12,
    main_v13, main_v14, main_cst_2, main_call0_v0, main_call0_v1, main_v15, main_c, main_v16,
    main_v17, main_c_3, main_v18, main_v19, main_v20, main_v21, main_v22, main_c_4,
    main_v23, main_v24, main_c_5, main_v25, main_v26, main_v27, main_v28, main_v29,
    main_v30, main_c_6, main_v31, main_v32, main_c_7, main_v33, main_v34, main_v35,
    main_v36, main_v37, main_v38, main_v39, main_v40, main_cst_8, main_v41, main_v42,
    main_v43, main_v44, main_v45, main_v46, main_v47, main_v48, main_v49, main_v50,
    main_v51, main_v52, main_v53, main_v54, main_v55, main_cst_9, main_v56, main_cst_10,
    main_v57, main_v58, main_v59, main_cst_11, main_v60, main_v61, main_v62, main_cst_12,
    main_call1_v0, main_call1_v1, main_v63, main_c_13, main_v64, main_v65, main_c_14, main_v66,
    main_v67, main_v68, main_v69, main_v70, main_c_15, main_v71, main_v72, main_c_16,
    main_v73, main_v74, main_v75, main_v76, main_v77, main_v78, main_c_17, main_v79,
    main_v80, main_c_18, main_v81, main_v82, main_v83, main_v84, main_v85, main_v86,
    main_v87, main_v88, main_cst_19, main_v89, main_v90, main_v91, main_v92, main_v93,
    main_v94, main_v95, main_v96, main_v97, main_v98, main_v99 ]

/-- Each operation touches TensorCore references only. -/
theorem ops_sub : (ops : List (HloOp τ sig (Elt F))).Forall fun op => op.bufs ⊆ tcRefs τ sig :=
  ⟨binary_bufs_sub .., nullary_bufs_sub .., unary_bufs_sub .., reshape_bufs_sub .., binary_bufs_sub .., unary_bufs_sub ..,
    reshape_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    unary_bufs_sub .., binary_bufs_sub .., nullary_bufs_sub .., unary_bufs_sub .., reshape_bufs_sub .., binary_bufs_sub ..,
    unary_bufs_sub .., reshape_bufs_sub .., binary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub .., unary_bufs_sub .., binary_bufs_sub .., unary_bufs_sub .., unary_bufs_sub .., binary_bufs_sub ..⟩

/-- @main is that straight line: its three windows in order, the callee's body at each call, every step one
    operation continued by nothing; the two sides unfold to the same chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- On the device, for any float values, from any memory with zero counters: every weakly fair execution of @main
    terminates, and every final state has each TensorCore buffer at the fold of the operations' results over the
    launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-- An operation that writes exactly one reference of a list writes inside the list. -/
theorem writes_sub_of_mem {W : List (Ref sig .tc)} {y : Ref sig .tc} {op : HloOp τ sig (Elt F)}
    (h : op.writes = {Proc.devRef .tc y}) (hy : y ∈ W) :
    op.writes ⊆ (W.map (Proc.devRef (τ := τ) .tc)).toFinset := by
  rw [h, Finset.singleton_subset_iff, List.mem_toFinset]
  exact List.mem_map.mpr ⟨y, hy, rfl⟩

/-- Every operation of the line writes one of the listed buffers. -/
theorem ops_writes : (ops : List (HloOp τ sig (Elt F))).Forall fun op =>
    op.writes ⊆ (written.map (Proc.devRef (τ := τ) .tc)).toFinset :=
  ⟨writes_sub_of_mem (y := main_v0) rfl (by decide), writes_sub_of_mem (y := main_v1) rfl (by decide),
    writes_sub_of_mem (y := main_v2) rfl (by decide), writes_sub_of_mem (y := main_v3) rfl (by decide),
    writes_sub_of_mem (y := main_v4) rfl (by decide), writes_sub_of_mem (y := main_v5) rfl (by decide),
    writes_sub_of_mem (y := main_v6) rfl (by decide), writes_sub_of_mem (y := main_v7) rfl (by decide),
    writes_sub_of_mem (y := main_cst) rfl (by decide), writes_sub_of_mem (y := main_v8) rfl (by decide),
    writes_sub_of_mem (y := main_cst_0) rfl (by decide), writes_sub_of_mem (y := main_v9) rfl (by decide),
    writes_sub_of_mem (y := main_v10) rfl (by decide), writes_sub_of_mem (y := main_v11) rfl (by decide),
    writes_sub_of_mem (y := main_cst_1) rfl (by decide), writes_sub_of_mem (y := main_v12) rfl (by decide),
    writes_sub_of_mem (y := main_v13) rfl (by decide), writes_sub_of_mem (y := main_v14) rfl (by decide),
    writes_sub_of_mem (y := main_cst_2) rfl (by decide), writes_sub_of_mem (y := main_call0_v0) rfl (by decide),
    writes_sub_of_mem (y := main_call0_v1) rfl (by decide), writes_sub_of_mem (y := main_v15) rfl (by decide),
    writes_sub_of_mem (y := main_c) rfl (by decide), writes_sub_of_mem (y := main_v16) rfl (by decide),
    writes_sub_of_mem (y := main_v17) rfl (by decide), writes_sub_of_mem (y := main_c_3) rfl (by decide),
    writes_sub_of_mem (y := main_v18) rfl (by decide), writes_sub_of_mem (y := main_v19) rfl (by decide),
    writes_sub_of_mem (y := main_v20) rfl (by decide), writes_sub_of_mem (y := main_v21) rfl (by decide),
    writes_sub_of_mem (y := main_v22) rfl (by decide), writes_sub_of_mem (y := main_c_4) rfl (by decide),
    writes_sub_of_mem (y := main_v23) rfl (by decide), writes_sub_of_mem (y := main_v24) rfl (by decide),
    writes_sub_of_mem (y := main_c_5) rfl (by decide), writes_sub_of_mem (y := main_v25) rfl (by decide),
    writes_sub_of_mem (y := main_v26) rfl (by decide), writes_sub_of_mem (y := main_v27) rfl (by decide),
    writes_sub_of_mem (y := main_v28) rfl (by decide), writes_sub_of_mem (y := main_v29) rfl (by decide),
    writes_sub_of_mem (y := main_v30) rfl (by decide), writes_sub_of_mem (y := main_c_6) rfl (by decide),
    writes_sub_of_mem (y := main_v31) rfl (by decide), writes_sub_of_mem (y := main_v32) rfl (by decide),
    writes_sub_of_mem (y := main_c_7) rfl (by decide), writes_sub_of_mem (y := main_v33) rfl (by decide),
    writes_sub_of_mem (y := main_v34) rfl (by decide), writes_sub_of_mem (y := main_v35) rfl (by decide),
    writes_sub_of_mem (y := main_v36) rfl (by decide), writes_sub_of_mem (y := main_v37) rfl (by decide),
    writes_sub_of_mem (y := main_v38) rfl (by decide), writes_sub_of_mem (y := main_v39) rfl (by decide),
    writes_sub_of_mem (y := main_v40) rfl (by decide), writes_sub_of_mem (y := main_cst_8) rfl (by decide),
    writes_sub_of_mem (y := main_v41) rfl (by decide), writes_sub_of_mem (y := main_v42) rfl (by decide),
    writes_sub_of_mem (y := main_v43) rfl (by decide), writes_sub_of_mem (y := main_v44) rfl (by decide),
    writes_sub_of_mem (y := main_v45) rfl (by decide), writes_sub_of_mem (y := main_v46) rfl (by decide),
    writes_sub_of_mem (y := main_v47) rfl (by decide), writes_sub_of_mem (y := main_v48) rfl (by decide),
    writes_sub_of_mem (y := main_v49) rfl (by decide), writes_sub_of_mem (y := main_v50) rfl (by decide),
    writes_sub_of_mem (y := main_v51) rfl (by decide), writes_sub_of_mem (y := main_v52) rfl (by decide),
    writes_sub_of_mem (y := main_v53) rfl (by decide), writes_sub_of_mem (y := main_v54) rfl (by decide),
    writes_sub_of_mem (y := main_v55) rfl (by decide), writes_sub_of_mem (y := main_cst_9) rfl (by decide),
    writes_sub_of_mem (y := main_v56) rfl (by decide), writes_sub_of_mem (y := main_cst_10) rfl (by decide),
    writes_sub_of_mem (y := main_v57) rfl (by decide), writes_sub_of_mem (y := main_v58) rfl (by decide),
    writes_sub_of_mem (y := main_v59) rfl (by decide), writes_sub_of_mem (y := main_cst_11) rfl (by decide),
    writes_sub_of_mem (y := main_v60) rfl (by decide), writes_sub_of_mem (y := main_v61) rfl (by decide),
    writes_sub_of_mem (y := main_v62) rfl (by decide), writes_sub_of_mem (y := main_cst_12) rfl (by decide),
    writes_sub_of_mem (y := main_call1_v0) rfl (by decide), writes_sub_of_mem (y := main_call1_v1) rfl (by decide),
    writes_sub_of_mem (y := main_v63) rfl (by decide), writes_sub_of_mem (y := main_c_13) rfl (by decide),
    writes_sub_of_mem (y := main_v64) rfl (by decide), writes_sub_of_mem (y := main_v65) rfl (by decide),
    writes_sub_of_mem (y := main_c_14) rfl (by decide), writes_sub_of_mem (y := main_v66) rfl (by decide),
    writes_sub_of_mem (y := main_v67) rfl (by decide), writes_sub_of_mem (y := main_v68) rfl (by decide),
    writes_sub_of_mem (y := main_v69) rfl (by decide), writes_sub_of_mem (y := main_v70) rfl (by decide),
    writes_sub_of_mem (y := main_c_15) rfl (by decide), writes_sub_of_mem (y := main_v71) rfl (by decide),
    writes_sub_of_mem (y := main_v72) rfl (by decide), writes_sub_of_mem (y := main_c_16) rfl (by decide),
    writes_sub_of_mem (y := main_v73) rfl (by decide), writes_sub_of_mem (y := main_v74) rfl (by decide),
    writes_sub_of_mem (y := main_v75) rfl (by decide), writes_sub_of_mem (y := main_v76) rfl (by decide),
    writes_sub_of_mem (y := main_v77) rfl (by decide), writes_sub_of_mem (y := main_v78) rfl (by decide),
    writes_sub_of_mem (y := main_c_17) rfl (by decide), writes_sub_of_mem (y := main_v79) rfl (by decide),
    writes_sub_of_mem (y := main_v80) rfl (by decide), writes_sub_of_mem (y := main_c_18) rfl (by decide),
    writes_sub_of_mem (y := main_v81) rfl (by decide), writes_sub_of_mem (y := main_v82) rfl (by decide),
    writes_sub_of_mem (y := main_v83) rfl (by decide), writes_sub_of_mem (y := main_v84) rfl (by decide),
    writes_sub_of_mem (y := main_v85) rfl (by decide), writes_sub_of_mem (y := main_v86) rfl (by decide),
    writes_sub_of_mem (y := main_v87) rfl (by decide), writes_sub_of_mem (y := main_v88) rfl (by decide),
    writes_sub_of_mem (y := main_cst_19) rfl (by decide), writes_sub_of_mem (y := main_v89) rfl (by decide),
    writes_sub_of_mem (y := main_v90) rfl (by decide), writes_sub_of_mem (y := main_v91) rfl (by decide),
    writes_sub_of_mem (y := main_v92) rfl (by decide), writes_sub_of_mem (y := main_v93) rfl (by decide),
    writes_sub_of_mem (y := main_v94) rfl (by decide), writes_sub_of_mem (y := main_v95) rfl (by decide),
    writes_sub_of_mem (y := main_v96) rfl (by decide), writes_sub_of_mem (y := main_v97) rfl (by decide),
    writes_sub_of_mem (y := main_v98) rfl (by decide), writes_sub_of_mem (y := main_v99) rfl (by decide)⟩

/-- The eight arguments are not among the written buffers: the line leaves them as it found them. -/
theorem args_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7) :=
  ⟨after_of_writes_sub ops V ops_writes (by decide), after_of_writes_sub ops V ops_writes (by decide),
    after_of_writes_sub ops V ops_writes (by decide), after_of_writes_sub ops V ops_writes (by decide),
    after_of_writes_sub ops V ops_writes (by decide), after_of_writes_sub ops V ops_writes (by decide),
    after_of_writes_sub ops V ops_writes (by decide), after_of_writes_sub ops V ops_writes (by decide)⟩

end Cert.ReferenceIdeal.Line

end
-- ==== Proof.TailSame.lean ====
/- The kernel program's host tail and the reference program's line compute the same two results from the same
   inputs: the tail's 125 operations are, word for word, the reference's operations after its first (the dense
   product), over buffers of the same names in two different signatures; read as pure terms of the inputs the two
   folds are one term once the product buffer's contents are the product and the other arguments agree. -/
import proofs.«107587_j14465449853013_1_alg».proof.Proof.Gen.KernelIdeal.Launch
import proofs.«107587_j14465449853013_1_alg».proof.Proof.RefLine
import Idealize.ShloMosaic.Lib.StableHlo.Run
import Idealize.ShloMosaic.PureOps.Ideal

noncomputable section

namespace Cert.TailSame

open Idealize.ShloMosaic Idealize.ShloMosaic.TcCoe Idealize.SL.Sem Idealize.ShloMosaic.StableHlo

/-- The edge endpoints followed by the self loops: two index vectors joined along their one axis. -/
def join (a : (⟨⟨1, ![524288]⟩, .i32⟩ : BufTy).Contents (Elt Ideal)) (b : (⟨⟨1, ![16384]⟩, .i32⟩ : BufTy).Contents (Elt Ideal)) :
    (⟨⟨1, ![540672]⟩, .i32⟩ : BufTy).Contents (Elt Ideal) :=
  concatenate ⟨1, ![540672]⟩ 0 [⟨⟨1, ![524288]⟩, a⟩, ⟨⟨1, ![16384]⟩, b⟩] Cert.KernelIdeal.Gen.concatenates_S524288_S16384_S540672_d0

section K
open Cert.KernelIdeal Cert.KernelIdeal.Gen
/-- The kernel program's joining function is `join`. -/
theorem joinK_eq : ((fun a b => concatenate S540672 0 [⟨S524288, a⟩, ⟨S16384, b⟩] concatenates_S524288_S16384_S540672_d0) : (⟨S524288, .i32⟩ : BufTy).Contents (Elt Ideal) → (⟨S16384, .i32⟩ : BufTy).Contents (Elt Ideal) → (⟨S540672, .i32⟩ : BufTy).Contents (Elt Ideal)) = join := rfl
end K

section R
open Cert.ReferenceIdeal Cert.ReferenceIdeal.Gen
/-- The reference program's joining function is `join`. -/
theorem joinR_eq : ((fun a b => concatenate S540672 0 [⟨S524288, a⟩, ⟨S16384, b⟩] concatenates_S524288_S16384_S540672_d0) : (⟨S524288, .i32⟩ : BufTy).Contents (Elt Ideal) → (⟨S16384, .i32⟩ : BufTy).Contents (Elt Ideal) → (⟨S540672, .i32⟩ : BufTy).Contents (Elt Ideal)) = join := rfl
end R

set_option maxRecDepth 8192 in
set_option maxHeartbeats 16000000 in
/-- The two programs' tails agree. Both lines are unfolded to their results as pure terms of the inputs (each
    operation's result at its own buffer is its function of its operands' contents, every other buffer is left
    alone); the kernel's tail reads the product buffer where the reference's line computes the product, and the
    other inputs are the same arrays, so after rewriting the inputs the two terms are one term. -/
theorem tail_results (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_v0) = Host.dotGeneral (F := Ideal) (φ₁ := .f32) (φ₂ := .f32) Cert.ReferenceIdeal.dot_S16384x16384_S16384x50_S16384x50_1_0_0_1_n_n none (VR (Proc.devRef .tc Cert.ReferenceIdeal.main_arg0)) (VR (Proc.devRef .tc Cert.ReferenceIdeal.main_arg2)))
    (h1 : VK (Proc.devRef .tc Cert.KernelIdeal.main_arg1) = VR (Proc.devRef .tc Cert.ReferenceIdeal.main_arg1))
    (h3 : VK (Proc.devRef .tc Cert.KernelIdeal.main_arg3) = VR (Proc.devRef .tc Cert.ReferenceIdeal.main_arg3))
    (h4 : VK (Proc.devRef .tc Cert.KernelIdeal.main_arg4) = VR (Proc.devRef .tc Cert.ReferenceIdeal.main_arg4))
    (h5 : VK (Proc.devRef .tc Cert.KernelIdeal.main_arg5) = VR (Proc.devRef .tc Cert.ReferenceIdeal.main_arg5))
    (h6 : VK (Proc.devRef .tc Cert.KernelIdeal.main_arg6) = VR (Proc.devRef .tc Cert.ReferenceIdeal.main_arg6))
    (h7 : VK (Proc.devRef .tc Cert.KernelIdeal.main_arg7) = VR (Proc.devRef .tc Cert.ReferenceIdeal.main_arg7)) :
    after ([Cert.KernelIdeal.Gen.hostOps1, Cert.KernelIdeal.Gen.hostOps1_1, Cert.KernelIdeal.Gen.hostOps1_2, Cert.KernelIdeal.Gen.hostOps1_3, Cert.KernelIdeal.Gen.hostOps1_4] : List (List (HloOp Cert.KernelIdeal.τ Cert.KernelIdeal.sig (Elt Ideal)))).flatten VK (Proc.devRef .tc Cert.KernelIdeal.main_v99) = after (Cert.ReferenceIdeal.Line.ops (F := Ideal)) VR (Proc.devRef .tc Cert.ReferenceIdeal.main_v99)
    ∧ after ([Cert.KernelIdeal.Gen.hostOps1, Cert.KernelIdeal.Gen.hostOps1_1, Cert.KernelIdeal.Gen.hostOps1_2, Cert.KernelIdeal.Gen.hostOps1_3, Cert.KernelIdeal.Gen.hostOps1_4] : List (List (HloOp Cert.KernelIdeal.τ Cert.KernelIdeal.sig (Elt Ideal)))).flatten VK (Proc.devRef .tc Cert.KernelIdeal.main_v95) = after (Cert.ReferenceIdeal.Line.ops (F := Ideal)) VR (Proc.devRef .tc Cert.ReferenceIdeal.main_v95) := by
  constructor
  · simp only [Cert.KernelIdeal.Gen.hostOps1, Cert.KernelIdeal.Gen.hostOps1_1, Cert.KernelIdeal.Gen.hostOps1_2, Cert.KernelIdeal.Gen.hostOps1_3, Cert.KernelIdeal.Gen.hostOps1_4, Cert.ReferenceIdeal.Line.ops, List.flatten_cons, List.flatten_nil, List.append_nil, List.cons_append, List.nil_append]
    simp only [joinK_eq, joinR_eq]
    after_results_simp
    rw [h0, h1, h3, h4, h5, h6, h7]
    rfl
  · simp only [Cert.KernelIdeal.Gen.hostOps1, Cert.KernelIdeal.Gen.hostOps1_1, Cert.KernelIdeal.Gen.hostOps1_2, Cert.KernelIdeal.Gen.hostOps1_3, Cert.KernelIdeal.Gen.hostOps1_4, Cert.ReferenceIdeal.Line.ops, List.flatten_cons, List.flatten_nil, List.append_nil, List.cons_append, List.nil_append]
    simp only [joinK_eq, joinR_eq]
    after_results_simp
    rw [h0, h1, h3, h4, h5]
    rfl

end Cert.TailSame
end
-- ==== Proof.DotWhole.lean ====
import proofs.«107587_j14465449853013_1_alg».proof.ReferenceIdeal
import Idealize.ShloMosaic.PureOps.Ideal.Laws
import Idealize.ShloMosaic.Lib.ValueIdx
import Idealize.ShloMosaic.Lib.Pipeline.Value

/-!
The reference's one whole matrix product, read at one element, over the extended reals:
`∑ k, X (p, k) * W (k, c)` over all 16384 contraction positions.
-/

noncomputable section

namespace Cert.ReferenceIdeal.DotWhole

open Idealize.ShloMosaic Idealize.ShloMosaic.TcCoe Idealize.SL.Sem
open Cert.ReferenceIdeal Idealize.ShloMosaic.ValueIdx

variable [Facts]
open Facts₀ Facts

/-- The left operand's index of the whole product at output `(p, c)` and contraction position `k`
is `(p, k)`. -/
theorem lhsIdx_eq (p : Fin 16384) (c : Fin 50) (k : Fin 16384) :
    dot_S16384x16384_S16384x50_S16384x50_1_0_0_1_n_n.lhsIdx (ix2 p c)
      ((contrEquiv1 dot_S16384x16384_S16384x50_S16384x50_1_0_0_1_n_n 16384 rfl rfl).symm k) = ix2 p k := by
  have c2 := contrEquiv1_symm_val dot_S16384x16384_S16384x50_S16384x50_1_0_0_1_n_n 16384 rfl rfl k
  funext ax; apply Fin.ext
  match ax with
  | ⟨0, _⟩ => simp [DotDims.lhsIdx, dot_S16384x16384_S16384x50_S16384x50_1_0_0_1_n_n]; rfl
  | ⟨1, _⟩ => simp [DotDims.lhsIdx, dot_S16384x16384_S16384x50_S16384x50_1_0_0_1_n_n]; exact c2

/-- The right operand's index there is `(k, c)`. -/
theorem rhsIdx_eq (p : Fin 16384) (c : Fin 50) (k : Fin 16384) :
    dot_S16384x16384_S16384x50_S16384x50_1_0_0_1_n_n.rhsIdx (ix2 p c)
      ((contrEquiv1 dot_S16384x16384_S16384x50_S16384x50_1_0_0_1_n_n 16384 rfl rfl).symm k) = ix2 k c := by
  have c2 := contrEquiv1_symm_val dot_S16384x16384_S16384x50_S16384x50_1_0_0_1_n_n 16384 rfl rfl k
  funext ax; apply Fin.ext
  match ax with
  | ⟨0, _⟩ => simp [DotDims.rhsIdx, dot_S16384x16384_S16384x50_S16384x50_1_0_0_1_n_n]; exact c2
  | ⟨1, _⟩ => simp [DotDims.rhsIdx, dot_S16384x16384_S16384x50_S16384x50_1_0_0_1_n_n]; rfl

/-- The whole product at an element. -/
theorem dot_apply (x0 : (⟨S16384x16384, .f32⟩ : BufTy).Contents (Elt Ideal))
    (x2 : (⟨S16384x50, .f32⟩ : BufTy).Contents (Elt Ideal)) (p : Fin 16384) (c : Fin 50) :
    Host.dotGeneral (F := Ideal) (φ₁ := .f32) (φ₂ := .f32) dot_S16384x16384_S16384x50_S16384x50_1_0_0_1_n_n none x0 x2 (ix2 p c)
      = ∑ k : Fin 16384, x0 (ix2 p k) * x2 (ix2 k c) := by
  show FloatOps.dotGeneral (F := Ideal) (φ₁ := .f32) (φ₂ := .f32) dot_S16384x16384_S16384x50_S16384x50_1_0_0_1_n_n none .single
      x0 x2 (ix2 p c) = _
  rw [Ideal.dotGeneral_apply,
    ← Equiv.sum_comp (contrEquiv1 dot_S16384x16384_S16384x50_S16384x50_1_0_0_1_n_n 16384 rfl rfl).symm]
  refine Finset.sum_congr rfl fun k _ => ?_
  rw [lhsIdx_eq, rhsIdx_eq]

end Cert.ReferenceIdeal.DotWhole
-- ==== Proof.Bridge.lean ====
/-
  The idealized kernel against the idealized reference. The kernel's `%0` is the whole product `∑ k, x (p, k) · w (k, c)`
  (the blocked accumulation regrouped), and so is the reference's one `dot_general` at the ideal instance; every later
  host operation is the same in both programs and is applied to the same inputs, so the two results agree. The
  reference, having no kernel, runs as one line of host operations, none of which writes an argument array.
-/
import proofs.«107587_j14465449853013_1_alg».proof.Proof.IdealResult
import proofs.«107587_j14465449853013_1_alg».proof.Proof.TailSame
import proofs.«107587_j14465449853013_1_alg».proof.Proof.DotWhole
import proofs.«107587_j14465449853013_1_alg».proof.Proof.RefLine
import proofs.«107587_j14465449853013_1_alg».proof.Defs
import proofs.«107587_j14465449853013_1_alg».proof.Proof.Gen.Pre_finite_inputs

set_option maxRecDepth 16384

noncomputable section

namespace Cert.Bridge

open Idealize.ShloMosaic Idealize.ShloMosaic.TcCoe Idealize.SL.Sem Idealize.ShloMosaic.ValueIdx

/-- The reference's one big product is the whole product, index by index. -/
theorem dot_is_whole (x0 : (⟨Cert.ReferenceIdeal.S16384x16384, .f32⟩ : BufTy).Contents (Elt Ideal)) (x2 : (⟨Cert.ReferenceIdeal.S16384x50, .f32⟩ : BufTy).Contents (Elt Ideal)) :
    Host.dotGeneral (F := Ideal) (φ₁ := .f32) (φ₂ := .f32) Cert.ReferenceIdeal.dot_S16384x16384_S16384x50_S16384x50_1_0_0_1_n_n none x0 x2 = Cert.KernelIdeal.Accum.whole x0 x2 := by
  funext i
  obtain ⟨p, cc, rfl⟩ : ∃ (p : Fin 16384) (cc : Fin 50), i = ix2 p cc := ⟨i 0, i 1, eq_ix2 i⟩
  rw [Cert.ReferenceIdeal.DotWhole.dot_apply, Cert.KernelIdeal.Accum.whole_ix2]
  rfl

/-- The reference runs to the end with its argument arrays unchanged. -/
theorem frame_ref : Cert.frame_ReferenceIdeal := fun m ρ _ =>
  (θ_run Cert.ReferenceIdeal.defs _ _).mono (fun r h c => by
    obtain ⟨k0, k1, k2, k3, k4, k5, k6, k7⟩ := Cert.ReferenceIdeal.Line.args_kept (F := Ideal) (StableHlo.launchContents m c)
    exact ⟨(h c Cert.ReferenceIdeal.main_arg0).trans k0, (h c Cert.ReferenceIdeal.main_arg1).trans k1, (h c Cert.ReferenceIdeal.main_arg2).trans k2, (h c Cert.ReferenceIdeal.main_arg3).trans k3,
      (h c Cert.ReferenceIdeal.main_arg4).trans k4, (h c Cert.ReferenceIdeal.main_arg5).trans k5, (h c Cert.ReferenceIdeal.main_arg6).trans k6, (h c Cert.ReferenceIdeal.main_arg7).trans k7⟩)
    (Cert.ReferenceIdeal.Line.run_line (F := Ideal) m ρ)

set_option maxHeartbeats 4000000 in
/-- From memories agreeing on the arguments both programs run, end with equal results, and leave the arguments unchanged. -/
theorem algebraic : Cert.algebraic_KernelIdeal_ReferenceIdeal := by
  intro m ρ m' ρ' _ hagree
  refine ⟨fun c => Cert.KernelIdeal.Accum.res99 m c, fun c => Cert.KernelIdeal.Accum.res95 m c, Cert.KernelIdeal.Accum.run_results (ρ := ρ) (mI := m), ?_⟩
  refine (θ_run Cert.ReferenceIdeal.defs _ _).mono (fun r h c => ?_) (Cert.ReferenceIdeal.Line.run_line (F := Ideal) m' ρ')
  obtain ⟨a0, a1, a2, a3, a4, a5, a6, a7⟩ := hagree c
  obtain ⟨k0, k1, k2, k3, k4, k5, k6, k7⟩ := Cert.ReferenceIdeal.Line.args_kept (F := Ideal) (StableHlo.launchContents m' c)
  have hv0 : Cert.KernelIdeal.Accum.exitVal m c (Proc.devRef .tc Cert.KernelIdeal.main_v0)
      = Host.dotGeneral (F := Ideal) (φ₁ := .f32) (φ₂ := .f32) Cert.ReferenceIdeal.dot_S16384x16384_S16384x50_S16384x50_1_0_0_1_n_n none
          (StableHlo.launchContents m' c (Proc.devRef .tc Cert.ReferenceIdeal.main_arg0)) (StableHlo.launchContents m' c (Proc.devRef .tc Cert.ReferenceIdeal.main_arg2)) := by
    rw [Cert.KernelIdeal.Accum.exitVal_v0, dot_is_whole]
    show Cert.KernelIdeal.Accum.whole (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      = Cert.KernelIdeal.Accum.whole (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))
    rw [a0, a2]
  have T := Cert.TailSame.tail_results (Cert.KernelIdeal.Accum.exitVal m c) (StableHlo.launchContents m' c) hv0
    ((Cert.KernelIdeal.Accum.exitVal_rest m c Cert.KernelIdeal.main_arg1 (by intro w; fin_cases w <;> decide)).trans a1.symm)
    ((Cert.KernelIdeal.Accum.exitVal_rest m c Cert.KernelIdeal.main_arg3 (by intro w; fin_cases w <;> decide)).trans a3.symm)
    ((Cert.KernelIdeal.Accum.exitVal_rest m c Cert.KernelIdeal.main_arg4 (by intro w; fin_cases w <;> decide)).trans a4.symm)
    ((Cert.KernelIdeal.Accum.exitVal_rest m c Cert.KernelIdeal.main_arg5 (by intro w; fin_cases w <;> decide)).trans a5.symm)
    ((Cert.KernelIdeal.Accum.exitVal_rest m c Cert.KernelIdeal.main_arg6 (by intro w; fin_cases w <;> decide)).trans a6.symm)
    ((Cert.KernelIdeal.Accum.exitVal_rest m c Cert.KernelIdeal.main_arg7 (by intro w; fin_cases w <;> decide)).trans a7.symm)
  exact ⟨(h c Cert.ReferenceIdeal.main_v99).trans T.1.symm, (h c Cert.ReferenceIdeal.main_v95).trans T.2.symm,
    (h c Cert.ReferenceIdeal.main_arg0).trans k0, (h c Cert.ReferenceIdeal.main_arg1).trans k1, (h c Cert.ReferenceIdeal.main_arg2).trans k2, (h c Cert.ReferenceIdeal.main_arg3).trans k3,
    (h c Cert.ReferenceIdeal.main_arg4).trans k4, (h c Cert.ReferenceIdeal.main_arg5).trans k5, (h c Cert.ReferenceIdeal.main_arg6).trans k6, (h c Cert.ReferenceIdeal.main_arg7).trans k7⟩

end Cert.Bridge

end
-- ==== Proof.lean ====
/-
  `Cert.Claim` for the GCN forward pass whose first layer's `x @ W1` is a blocked matrix product on a 16 × 8 grid.

  The kernel accumulates, for each of 16 row blocks, eight block products over the reduction axis into a scratch that is
  zeroed at the first step and copied to the output block at the last; the two graph aggregations, the `tanh`s and the
  two small products that follow are host operations, the same in the kernel's program and in the reference. Both frames
  of the kernel (word level and idealized) are one argument read at two instances: every grid point's body meets its
  obligation with the accumulator carried in the region's invariant, and the host operations after the region touch no
  staged array. Over the extended reals the eight block sums of 2048 products regroup to the whole sum of 16384 — only
  associativity and commutativity of `+` are used, so finiteness of the inputs is never needed —, which is the
  reference's `dot_general`; the later operations then act on equal inputs. The ideal pass rewrote nothing, so
  `preserves` is `True`.
-/
import proofs.«107587_j14465449853013_1_alg».proof.Defs
import proofs.«107587_j14465449853013_1_alg».proof.Proof.Gen.Kernel
import proofs.«107587_j14465449853013_1_alg».proof.Proof.Gen.KernelIdeal
import proofs.«107587_j14465449853013_1_alg».proof.Proof.Gen.ReferenceIdeal
import proofs.«107587_j14465449853013_1_alg».proof.Proof.Gen.Pre_finite_inputs
import proofs.«107587_j14465449853013_1_alg».proof.Proof.BitsFrame
import proofs.«107587_j14465449853013_1_alg».proof.Proof.IdealFrame
import proofs.«107587_j14465449853013_1_alg».proof.Proof.Bridge

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Accum.frame m ρ,
  fun m ρ _ => Cert.KernelIdeal.Accum.frame m ρ,
  Cert.Bridge.frame_ref,
  trivial,
  Cert.Bridge.algebraic⟩

end Cert.Proof

end
